-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x600000 32) (main_arg2 : FVec F S128x128 .f32) (main_arg3 : FVec F S128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S10000x128 : Shape := ⟨2, ![10000, 128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩
abbrev S5000x128 : Shape := ⟨2, ![5000, 128]⟩

abbrev nBuf : Space → Nat
  | .hbm => 71
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000x128, .f32⟩
  | .hbm, ⟨7, _⟩ => ⟨S100000, .i32⟩
  | .hbm, ⟨8, _⟩ => ⟨S1x600000, .i32⟩
  | .hbm, ⟨9, _⟩ => ⟨S600000, .i32⟩
  | .hbm, ⟨10, _⟩ => ⟨S700000, .i32⟩
  | .hbm, ⟨11, _⟩ => ⟨S1x600000, .i32⟩
  | .hbm, ⟨12, _⟩ => ⟨S600000, .i32⟩
  | .hbm, ⟨13, _⟩ => ⟨S700000, .i32⟩
  | .hbm, ⟨14, _⟩ => ⟨S_, .f32⟩
  | .hbm, ⟨15, _⟩ => ⟨S700000, .f32⟩
  | .hbm, ⟨16, _⟩ => ⟨S_, .f32⟩
  | .hbm, ⟨17, _⟩ => ⟨S100000, .f32⟩
  | .hbm, ⟨18, _⟩ => ⟨S700000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S700000, .i32⟩
  | .hbm, ⟨23, _⟩ => ⟨S700000, .i1⟩
  | .hbm, ⟨24, _⟩ => ⟨S_, .i32⟩
  | .hbm, ⟨25, _⟩ => ⟨S700000, .i32⟩
  | .hbm, ⟨26, _⟩ => ⟨S700000, .i32⟩
  | .hbm, ⟨27, _⟩ => ⟨S700000, .i32⟩
  | .hbm, ⟨28, _⟩ => ⟨S700000x1, .i32⟩
  | .hbm, ⟨29, _⟩ => ⟨S700000, .f32⟩
  | .hbm, ⟨30, _⟩ => ⟨S_, .i32⟩
  | .hbm, ⟨31, _⟩ => ⟨S700000, .i32⟩
  | .hbm, ⟨32, _⟩ => ⟨S700000, .i1⟩
  | .hbm, ⟨33, _⟩ => ⟨S_, .i32⟩
  | .hbm, ⟨34, _⟩ => ⟨S700000, .i32⟩
  | .hbm, ⟨35, _⟩ => ⟨S700000, .i32⟩
  | .hbm, ⟨36, _⟩ => ⟨S700000, .i32⟩
  | .hbm, ⟨37, _⟩ => ⟨S700000x1, .i32⟩
  | .hbm, ⟨38, _⟩ => ⟨S700000, .f32⟩
  | .hbm, ⟨39, _⟩ => ⟨S700000, .f32⟩
  | .hbm, ⟨40, _⟩ => ⟨S_, .i32⟩
  | .hbm, ⟨41, _⟩ => ⟨S700000, .i32⟩
  | .hbm, ⟨42, _⟩ => ⟨S700000, .i1⟩
  | .hbm, ⟨43, _⟩ => ⟨S_, .i32⟩
  | .hbm, ⟨44, _⟩ => ⟨S700000, .i32⟩
  | .hbm, ⟨45, _⟩ => ⟨S700000, .i32⟩
  | .hbm, ⟨46, _⟩ => ⟨S700000, .i32⟩
  | .hbm, ⟨47, _⟩ => ⟨S700000x1, .i32⟩
  | .hbm, ⟨48, _⟩ => ⟨S700000x128, .f32⟩
  | .hbm, ⟨49, _⟩ => ⟨S700000x1, .f32⟩
  | .hbm, ⟨50, _⟩ => ⟨S700000x128, .f32⟩
  | .hbm, ⟨51, _⟩ => ⟨S700000x128, .f32⟩
  | .hbm, ⟨52, _⟩ => ⟨S_, .f32⟩
  | .hbm, ⟨53, _⟩ => ⟨S100000x128, .f32⟩
  | .hbm, ⟨54, _⟩ => ⟨S700000x1, .i32⟩
  | .hbm, ⟨55, _⟩ => ⟨S100000x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S_, .f32⟩
  | .hbm, ⟨60, _⟩ => ⟨S1x128, .f32⟩
  | .hbm, ⟨61, _⟩ => ⟨S1x128, .f32⟩
  | .hbm, ⟨62, _⟩ => ⟨S_, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42_0 : Ref sig .tc := ⟨.hbm, 57, rfl⟩
abbrev main_v42_1 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg7_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem7_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S10000x128_S10000x128 : S10000x128.ShapeCasts S10000x128
  broadcasts_S1x128_S10000x128 : S1x128.Broadcasts S10000x128
  reduces_S10000x128_S128 : S10000x128.Reduces [0] S128
  bcast_S_S1x128 : S_.BroadcastsInDim S1x128 (![] : Fin 0 → Fin S1x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  dot_S10000x128_S128x128_S10000x128_1_0_0_1_n_n_wf : DotDims.WF S10000x128 S128x128 S10000x128 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v51) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v52) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩

abbrev nBuf : Space → Nat
  | .hbm => 93
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000x128, .f32⟩
  | .hbm, ⟨7, _⟩ => ⟨S100000, .i32⟩
  | .hbm, ⟨8, _⟩ => ⟨S1x600000, .i32⟩
  | .hbm, ⟨9, _⟩ => ⟨S600000, .i32⟩
  | .hbm, ⟨10, _⟩ => ⟨S700000, .i32⟩
  | .hbm, ⟨11, _⟩ => ⟨S1x600000, .i32⟩
  | .hbm, ⟨12, _⟩ => ⟨S600000, .i32⟩
  | .hbm, ⟨13, _⟩ => ⟨S700000, .i32⟩
  | .hbm, ⟨14, _⟩ => ⟨S_, .f32⟩
  | .hbm, ⟨15, _⟩ => ⟨S700000, .f32⟩
  | .hbm, ⟨16, _⟩ => ⟨S_, .f32⟩
  | .hbm, ⟨17, _⟩ => ⟨S100000, .f32⟩
  | .hbm, ⟨18, _⟩ => ⟨S700000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S700000, .i32⟩
  | .hbm, ⟨23, _⟩ => ⟨S700000, .i1⟩
  | .hbm, ⟨24, _⟩ => ⟨S_, .i32⟩
  | .hbm, ⟨25, _⟩ => ⟨S700000, .i32⟩
  | .hbm, ⟨26, _⟩ => ⟨S700000, .i32⟩
  | .hbm, ⟨27, _⟩ => ⟨S700000, .i32⟩
  | .hbm, ⟨28, _⟩ => ⟨S700000x1, .i32⟩
  | .hbm, ⟨29, _⟩ => ⟨S700000, .f32⟩
  | .hbm, ⟨30, _⟩ => ⟨S_, .i32⟩
  | .hbm, ⟨31, _⟩ => ⟨S700000, .i32⟩
  | .hbm, ⟨32, _⟩ => ⟨S700000, .i1⟩
  | .hbm, ⟨33, _⟩ => ⟨S_, .i32⟩
  | .hbm, ⟨34, _⟩ => ⟨S700000, .i32⟩
  | .hbm, ⟨35, _⟩ => ⟨S700000, .i32⟩
  | .hbm, ⟨36, _⟩ => ⟨S700000, .i32⟩
  | .hbm, ⟨37, _⟩ => ⟨S700000x1, .i32⟩
  | .hbm, ⟨38, _⟩ => ⟨S700000, .f32⟩
  | .hbm, ⟨39, _⟩ => ⟨S700000, .f32⟩
  | .hbm, ⟨40, _⟩ => ⟨S_, .i32⟩
  | .hbm, ⟨41, _⟩ => ⟨S700000, .i32⟩
  | .hbm, ⟨42, _⟩ => ⟨S700000, .i1⟩
  | .hbm, ⟨43, _⟩ => ⟨S_, .i32⟩
  | .hbm, ⟨44, _⟩ => ⟨S700000, .i32⟩
  | .hbm, ⟨45, _⟩ => ⟨S700000, .i32⟩
  | .hbm, ⟨46, _⟩ => ⟨S700000, .i32⟩
  | .hbm, ⟨47, _⟩ => ⟨S700000x1, .i32⟩
  | .hbm, ⟨48, _⟩ => ⟨S700000x128, .f32⟩
  | .hbm, ⟨49, _⟩ => ⟨S700000x1, .f32⟩
  | .hbm, ⟨50, _⟩ => ⟨S700000x128, .f32⟩
  | .hbm, ⟨51, _⟩ => ⟨S700000x128, .f32⟩
  | .hbm, ⟨52, _⟩ => ⟨S_, .f32⟩
  | .hbm, ⟨53, _⟩ => ⟨S100000x128, .f32⟩
  | .hbm, ⟨54, _⟩ => ⟨S700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | .hbm, ⟨92, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_call0_cst : Ref sig .tc := ⟨.hbm, 89, rfl⟩
abbrev main_call0_v0 : Ref sig .tc := ⟨.hbm, 90, rfl⟩
abbrev main_v69 : Ref sig .tc := ⟨.hbm, 91, rfl⟩
abbrev main_v70 : Ref sig .tc := ⟨.hbm, 92, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  dot_S100000x128_S128x128_S100000x128_1_0_0_1_n_n_wf : DotDims.WF S100000x128 S128x128 S100000x128 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

class Facts : Prop extends Facts₀ where

variable [Facts]
-- ==== Proof.K.R0.lean ====
/- The first region (the projection h = x · W, ten row blocks of 10000 rows): what each window's staging
   buffer holds around the kernel body at every grid point, the body's triple, and the body obligation of the
   pipeline's proof data. Everything is stated relative to the contents `V` of the core's buffers on entry. -/
import proofs.«154948_j6682969112862_1_alg».proof.Proof.Gen.Kernel.Launch
import proofs.«154948_j6682969112862_1_alg».proof.Proof.Gen.Kernel.Skeleton
import proofs.«154948_j6682969112862_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What every buffer of the core holds when the region is entered; all statements below are relative to it.
variable (V : (c : Dev nD) → (b : Ref sig .tc) → Buf (Elt F) ((c : Thread nD τ).loc b))

/-! ## Blocks of the windows -/

/-- The block of window `w` that grid point `t` addresses, read from the window's array as it stands on entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of x: the staging buffer current at `t` holds block `t`, provided the body never alters it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix W is one block, brought in at the first point only; at a later point its block index is the
    same, so the buffer still holds that block, provided the body never alters it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is a whole buffer -/

abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0

/-! ## The output buffer after the body -/

/-- The product block: the single store writes the whole buffer with the product of the two blocks read. -/
def out0_2 (x0 : Vec F S10000x128 .f32) (x1 : Vec F S128x128 .f32) : Vec F S10000x128 .f32 :=
  View.canon [⟨r0_0, k0_pay1 (View.ld x0 r0_0) (View.ld x1 r0_1)⟩]

/-- That one store reaches every index of the buffer. -/
theorem cover0_2 (p0 : Vec F S10000x128 .f32) (y : S10000x128.Idx) :
    ∃ pc ∈ ([⟨r0_0, p0⟩] : List (View.Piece (Elt F) S10000x128 .f32)), y ∈ pc.1.set :=
  View.cover_of_tiled [⟨r0_0, p0⟩] S10000x128.size (by rfl) y

/-! ## The triple of the body -/

set_option maxHeartbeats 1000000 in
/-- Run on three whole buffers, the first two reading `x0` and `x1` and the third holding anything (the body reads it
    once before overwriting it, and does not use what it read), the body ends with the first two unchanged and the
    third at `out0_2 x0 x1`. -/
theorem sound_kernel0 (c : Dev nD) (E : Set ℕ) (i : grid0.Coords) (arg0 : Memref sig .tc .vmem S10000x128 .f32) (harg0 : arg0.IsWhole) (arg1 : Memref sig .tc .vmem S128x128 .f32) (harg1 : arg1.IsWhole) (arg2 : Memref sig .tc .vmem S10000x128 .f32) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the pipeline -/

/-- On core `c`: the arrays are those found on entry; after the body at point `t` the two input buffers hold their
    blocks and the output buffer the product block; the invariant is that of a body touching nothing but its windows;
    full shares, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What holds when the body is entered at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what holds when it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At every point the input buffers hold their blocks, so the triple of the body applies; the invariant and the
    debts are carried across unchanged. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Runs.lean ====
import proofs.«154948_j6682969112862_1_alg».proof.Proof.Gen.Kernel.Skeleton
import proofs.«154948_j6682969112862_1_alg».proof.Proof.Gen.Kernel.Launch
import proofs.«154948_j6682969112862_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the batch-statistics kernel): what its three control cases share

The kernel adds, feature by feature, the rows of `out0 + b` and their squares over the ten grid points
into two accumulators kept in scratch memory between points: both are zeroed at the first point, and copied to
the two result windows at the last. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the rows' block) is in its current staging buffer at every point: an input is only ever
    copied in, and the body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the bias row) is copied in once, at the first point; its block index never moves, so the
    buffer holds that one block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- The first conditional's test, from the grid coordinate: "this is point 0". -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 10 = 0 :=
  (by decide +kernel : ∀ t : Fin grid1.N, cond1_0 (grid1.coords t) ↔ t.val % 10 = 0)

/-- The second conditional's test: "this is point 9". -/
abbrev cond1_1 (i : grid1.Coords) : Prop := k1_cond2 i = 1#1
/-- It holds at the last point only. -/
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle

Case A is the first point (zeroing branch taken, copy-out branch not), case B the points between (neither branch),
case C the last point (copy-out branch taken). The two result windows are stored into in case C only. -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called on -/

/-- One staging buffer of each result window, through which its contents are stated. -/
abbrev VO1_2 : View sig .tc .vmem S1x128 .f32 := (Memref.whole cc1_stg2_0 : Memref sig .tc .vmem S1x128 .f32).view
abbrev VO1_3 : View sig .tc .vmem S1x128 .f32 := (Memref.whole cc1_stg3_0 : Memref sig .tc .vmem S1x128 .f32).view
/-- Each window's current staging memref at point `t`, and its wholeness. -/
abbrev ms1_0 (t : Fin cfg1.N) : Memref sig .tc .vmem S10000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
/-- The two accumulators: whole scoped buffers of the kernel's own. -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

/-- The scoped buffers listed after the accumulators (the third call's staging buffers), each at some contents:
    the region never touches them. -/
def restR1 (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f))

/-- What the launch hands the region, opened: the first call's staging buffers, the two accumulators as memrefs
    owned at some contents, the third call's staging buffers, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ restR1 c) ∗ (∃ r, prngReg c r)) := by
  unfold Pipeline.ΦA; rw [scopedRest1_eq]; simp only [scM1_0, scM1_1, owns_whole, restR1]; try rfl

end Cert.Kernel.Hand

end
-- ==== Proof.K.R1RunA.lean ====
import proofs.«154948_j6682969112862_1_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE A (the first point: the zeroing branch runs, the copy-out branch does not). The pieces the body's stores
    leave in each buffer (last first) — none in the two result windows, two in each accumulator (the zero, then the
    zero plus this block's column sums) — with the body's triple: on whole memrefs, the inputs at their contents,
    the result windows at contents handed back untouched, the accumulators at anything, the body runs to the
    continuation holding the inputs as they were and the accumulators with their pieces written. -/
noncomputable def kernelRun1_A (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S10000x128 .f32) (x1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨[], [], ?_, ?_, fun xi2 xi3 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.K.R1RunB.lean ====
import proofs.«154948_j6682969112862_1_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE B (a point between the first and the last: neither branch runs). The accumulators come in at what the
    point before left (`xs0`, `xs1`) and go out with one piece each: the old contents plus this block's column sums
    (of the rows, of their squares). The result windows are handed back untouched. -/
noncomputable def kernelRun1_B (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S10000x128 .f32) (x1 : Vec F S1x128 .f32) (xs0 : Vec F S1x128 .f32) (xs1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨[], [], ?_, ?_, fun xi2 xi3 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.K.R1RunC.lean ====
import proofs.«154948_j6682969112862_1_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE C (the last point: the copy-out branch runs). The accumulators come in at what the point before left and
    go out with one piece each, as in case B; each result window, at anything before, ends with one piece: its
    accumulator's final contents. -/
noncomputable def kernelRun1_C (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S10000x128 .f32) (x1 : Vec F S1x128 .f32) (xs0 : Vec F S1x128 .f32) (xs1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, ?_, ?_, fun E K => ?run⟩
  case run =>
    simp only [cc1__bn_stats_kernel_eq_skeleton]; unfold cc1__bn_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.Kernel.Hand

end
-- ==== Proof.K.R1.lean ====
import proofs.«154948_j6682969112862_1_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the batch-statistics kernel): contents point by point, the proof data, the body obligation -/

/-! ## Case A -/

/-- Case A's pieces for accumulator 0 (the running sum) cover it: the last store alone is the whole buffer. -/
theorem scover1_A_0 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S10000x128 .f32) (x1 : Vec F S1x128 .f32) (y : S1x128.Idx) :
    ∃ pc ∈ (kernelRun1_A c i arg1 harg1 arg2 harg2 arg3 harg3 arg4 harg4 arg5 harg5 arg6 harg6 hc0 hc1 x0 x1).2.2.1, y ∈ pc.1.set :=
  View.cover_of_tiledL (kernelRun1_A c i arg1 harg1 arg2 harg2 arg3 harg3 arg4 harg4 arg5 harg5 arg6 harg6 hc0 hc1 x0 x1).2.2.1 S1x128.size (by sl_kernel_rfl) y

/-- What case A leaves in accumulator 0: its pieces read back. -/
def sout1_A_0 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S10000x128 .f32) (x1 : Vec F S1x128 .f32) : Vec F S1x128 .f32 :=
  VS1_0.read (Elt F) (VS1_0.writes (Elt F) VS1_0.junk (kernelRun1_A c i arg1 harg1 arg2 harg2 arg3 harg3 arg4 harg4 arg5 harg5 arg6 harg6 hc0 hc1 x0 x1).2.2.1)

/-- Case A's pieces for accumulator 1 (the running sum of squares) cover it: the last store alone is the whole buffer. -/
theorem scover1_A_1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S10000x128 .f32) (x1 : Vec F S1x128 .f32) (y : S1x128.Idx) :
    ∃ pc ∈ (kernelRun1_A c i arg1 harg1 arg2 harg2 arg3 harg3 arg4 harg4 arg5 harg5 arg6 harg6 hc0 hc1 x0 x1).2.2.2.1, y ∈ pc.1.set :=
  View.cover_of_tiledL (kernelRun1_A c i arg1 harg1 arg2 harg2 arg3 harg3 arg4 harg4 arg5 harg5 arg6 harg6 hc0 hc1 x0 x1).2.2.2.1 S1x128.size (by sl_kernel_rfl) y

/-- What case A leaves in accumulator 1: its pieces read back. -/
def sout1_A_1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S10000x128 .f32) (x1 : Vec F S1x128 .f32) : Vec F S1x128 .f32 :=
  VS1_1.read (Elt F) (VS1_1.writes (Elt F) VS1_1.junk (kernelRun1_A c i arg1 harg1 arg2 harg2 arg3 harg3 arg4 harg4 arg5 harg5 arg6 harg6 hc0 hc1 x0 x1).2.2.2.1)

/-! ## Case B -/

/-- Case B's pieces for accumulator 0 (the running sum) cover it: the last store alone is the whole buffer. -/
theorem scover1_B_0 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S10000x128 .f32) (x1 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 hc0 hc1 x0 x1 xs0 xs1).2.2.1, y ∈ pc.1.set :=
  View.cover_of_tiledL (kernelRun1_B c i arg1 harg1 arg2 harg2 arg3 harg3 arg4 harg4 arg5 harg5 arg6 harg6 hc0 hc1 x0 x1 xs0 xs1).2.2.1 S1x128.size (by sl_kernel_rfl) y

/-- What case B leaves in accumulator 0: its pieces read back. -/
def sout1_B_0 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S10000x128 .f32) (x1 : Vec F S1x128 .f32) (xs0 : Vec F S1x128 .f32) (xs1 : Vec F S1x128 .f32) : Vec F S1x128 .f32 :=
  VS1_0.read (Elt F) (VS1_0.writes (Elt F) VS1_0.junk (kernelRun1_B c i arg1 harg1 arg2 harg2 arg3 harg3 arg4 harg4 arg5 harg5 arg6 harg6 hc0 hc1 x0 x1 xs0 xs1).2.2.1)

/-- Case B's pieces for accumulator 1 (the running sum of squares) cover it: the last store alone is the whole buffer. -/
theorem scover1_B_1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S10000x128 .f32) (x1 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 hc0 hc1 x0 x1 xs0 xs1).2.2.2.1, y ∈ pc.1.set :=
  View.cover_of_tiledL (kernelRun1_B c i arg1 harg1 arg2 harg2 arg3 harg3 arg4 harg4 arg5 harg5 arg6 harg6 hc0 hc1 x0 x1 xs0 xs1).2.2.2.1 S1x128.size (by sl_kernel_rfl) y

/-- What case B leaves in accumulator 1: its pieces read back. -/
def sout1_B_1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S10000x128 .f32) (x1 : Vec F S1x128 .f32) (xs0 : Vec F S1x128 .f32) (xs1 : Vec F S1x128 .f32) : Vec F S1x128 .f32 :=
  VS1_1.read (Elt F) (VS1_1.writes (Elt F) VS1_1.junk (kernelRun1_B c i arg1 harg1 arg2 harg2 arg3 harg3 arg4 harg4 arg5 harg5 arg6 harg6 hc0 hc1 x0 x1 xs0 xs1).2.2.2.1)

/-! ## Case C -/

/-- Case C's pieces for accumulator 0 (the running sum) cover it: the last store alone is the whole buffer. -/
theorem scover1_C_0 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S10000x128 .f32) (x1 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.2.1, y ∈ pc.1.set :=
  View.cover_of_tiledL (kernelRun1_C c i arg1 harg1 arg2 harg2 arg3 harg3 arg4 harg4 arg5 harg5 arg6 harg6 hc0 hc1 x0 x1 xs0 xs1).2.2.1 S1x128.size (by sl_kernel_rfl) y

/-- What case C leaves in accumulator 0: its pieces read back. -/
def sout1_C_0 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S10000x128 .f32) (x1 : Vec F S1x128 .f32) (xs0 : Vec F S1x128 .f32) (xs1 : Vec F S1x128 .f32) : Vec F S1x128 .f32 :=
  VS1_0.read (Elt F) (VS1_0.writes (Elt F) VS1_0.junk (kernelRun1_C c i arg1 harg1 arg2 harg2 arg3 harg3 arg4 harg4 arg5 harg5 arg6 harg6 hc0 hc1 x0 x1 xs0 xs1).2.2.1)

/-- Case C's pieces for accumulator 1 (the running sum of squares) cover it: the last store alone is the whole buffer. -/
theorem scover1_C_1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S10000x128 .f32) (x1 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.2.2.1, y ∈ pc.1.set :=
  View.cover_of_tiledL (kernelRun1_C c i arg1 harg1 arg2 harg2 arg3 harg3 arg4 harg4 arg5 harg5 arg6 harg6 hc0 hc1 x0 x1 xs0 xs1).2.2.2.1 S1x128.size (by sl_kernel_rfl) y

/-- What case C leaves in accumulator 1: its pieces read back. -/
def sout1_C_1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S10000x128 .f32) (x1 : Vec F S1x128 .f32) (xs0 : Vec F S1x128 .f32) (xs1 : Vec F S1x128 .f32) : Vec F S1x128 .f32 :=
  VS1_1.read (Elt F) (VS1_1.writes (Elt F) VS1_1.junk (kernelRun1_C c i arg1 harg1 arg2 harg2 arg3 harg3 arg4 harg4 arg5 harg5 arg6 harg6 hc0 hc1 x0 x1 xs0 xs1).2.2.2.1)

/-- Case C's one piece for result window 2 (the sums) is the whole block, so it covers it. -/
theorem cover1_C_2 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S10000x128 .f32) (x1 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 hc0 hc1 x0 x1 xs0 xs1).1, y ∈ pc.1.set :=
  View.cover_of_tiledL (kernelRun1_C c i arg1 harg1 arg2 harg2 arg3 harg3 arg4 harg4 arg5 harg5 arg6 harg6 hc0 hc1 x0 x1 xs0 xs1).1 S1x128.size (by sl_kernel_rfl) y

/-- What case C leaves in result window 2 (the sums)'s staging buffer: its piece read back. -/
def out1_C_2 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S10000x128 .f32) (x1 : Vec F S1x128 .f32) (xs0 : Vec F S1x128 .f32) (xs1 : Vec F S1x128 .f32) : Vec F S1x128 .f32 :=
  VO1_2.read (Elt F) (VO1_2.writes (Elt F) VO1_2.junk (kernelRun1_C c i arg1 harg1 arg2 harg2 arg3 harg3 arg4 harg4 arg5 harg5 arg6 harg6 hc0 hc1 x0 x1 xs0 xs1).1)

/-- Case C's one piece for result window 3 (the sums of squares) is the whole block, so it covers it. -/
theorem cover1_C_3 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S10000x128 .f32) (x1 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.1, y ∈ pc.1.set :=
  View.cover_of_tiledL (kernelRun1_C c i arg1 harg1 arg2 harg2 arg3 harg3 arg4 harg4 arg5 harg5 arg6 harg6 hc0 hc1 x0 x1 xs0 xs1).2.1 S1x128.size (by sl_kernel_rfl) y

/-- What case C leaves in result window 3 (the sums of squares)'s staging buffer: its piece read back. -/
def out1_C_3 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S10000x128 .f32) (x1 : Vec F S1x128 .f32) (xs0 : Vec F S1x128 .f32) (xs1 : Vec F S1x128 .f32) : Vec F S1x128 .f32 :=
  VO1_3.read (Elt F) (VO1_3.writes (Elt F) VO1_3.junk (kernelRun1_C c i arg1 harg1 arg2 harg2 arg3 harg3 arg4 harg4 arg5 harg5 arg6 harg6 hc0 hc1 x0 x1 xs0 xs1).2.1)

/-! ## What the result windows and the accumulators hold after each point -/

/-- A result window's buffer at a point that does not store into it: a placeholder nothing consults (at those
    points the window is neither written back nor read). -/
def idleOut1 : Vec F S1x128 .f32 := VO1_2.read (Elt F) VO1_2.junk

/-- THE ACCUMULATION. After the body at position `n`: result window 2's buffer, result window 3's, the running sum,
    the running sum of squares. Point 0 is case A (the accumulators start from zero, whatever they held); a later
    point runs over what the point before left in the accumulators — case C at the last point (where the result
    windows receive the accumulators), case B before it. -/
def outsAt1 (c : Dev nD) : (n : ℕ) → n < cfg1.N → Vec F S1x128 .f32 × Vec F S1x128 .f32 × Vec F S1x128 .f32 × Vec F S1x128 .f32
  | 0, hn => (idleOut1, idleOut1, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h1 : (n + 1) % 10 = 9 then
      (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => by have hN := lt_of_lt_of_eq hn (show cfg1.N = 10 from N_1); have h' := (hcond1_0 ⟨n + 1, hn⟩).mp h; (try dsimp only at h'); omega) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => by have hN := lt_of_lt_of_eq hn (show cfg1.N = 10 from N_1); have h' := (hcond1_0 ⟨n + 1, hn⟩).mp h; (try dsimp only at h'); omega) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => by have hN := lt_of_lt_of_eq hn (show cfg1.N = 10 from N_1); have h' := (hcond1_0 ⟨n + 1, hn⟩).mp h; (try dsimp only at h'); omega) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => by have hN := lt_of_lt_of_eq hn (show cfg1.N = 10 from N_1); have h' := (hcond1_0 ⟨n + 1, hn⟩).mp h; (try dsimp only at h'); omega) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2)
    else
      (idleOut1, idleOut1, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => by have hN := lt_of_lt_of_eq hn (show cfg1.N = 10 from N_1); have h' := (hcond1_0 ⟨n + 1, hn⟩).mp h; (try dsimp only at h'); omega) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => by have hN := lt_of_lt_of_eq hn (show cfg1.N = 10 from N_1); have h' := (hcond1_0 ⟨n + 1, hn⟩).mp h; (try dsimp only at h'); omega) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2)

/-- `outsAt1` at the first point: case A's contents. -/
theorem outsAt1_A (c : Dev nD) (t : Fin cfg1.N) (h0 : t.val % 10 = 0) (h1 : ¬t.val % 10 = 9) :
    outsAt1 V c t.val t.isLt = (idleOut1, idleOut1, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (by exfalso; have hN := lt_of_lt_of_eq hn (show cfg1.N = 10 from N_1); (try dsimp only at h0); omega)

/-- `outsAt1` at a point between: case B's contents, over what the point before left. -/
theorem outsAt1_B (c : Dev nD) (t : Fin cfg1.N) (h0 : ¬t.val % 10 = 0) (h1 : ¬t.val % 10 = 9) :
    outsAt1 V c t.val t.isLt = (idleOut1, idleOut1, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

/-- `outsAt1` at the last point: case C's contents, over what the point before left. -/
theorem outsAt1_C (c : Dev nD) (t : Fin cfg1.N) (h0 : ¬t.val % 10 = 0) (h1 : t.val % 10 = 9) :
    outsAt1 V c t.val t.isLt = (out1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-! ## The region invariant -/

/-- The scoped buffers that are no staging buffer of this call, with the two accumulators at `P0` and `P1`, and the
    generator register at some state. -/
def PhiAt1 (c : Dev nD) (P0 P1 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ P0 ∗ P1 ∗ restR1 c) ∗ (∃ r, prngReg c r))

/-- Everything in `PhiAt1` but the accumulators: what the body never touches. -/
def PhiFr1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ restR1 c ∗ (∃ r, prngReg c r))

theorem PhiAt1_open (c : Dev nD) (P0 P1 : sProp 𝕄) : PhiAt1 (F := F) c P0 P1 ⊢ iprop(P0 ∗ P1 ∗ PhiFr1 (F := F) c) := by
  unfold PhiAt1 PhiFr1
  iintro ⟨⟨HL0, HL1, HL2, HL3, HL4, HS0, HS1, HR⟩, Hg⟩
  isplitl [HS0]; · iexact HS0
  isplitl [HS1]; · iexact HS1
  isplitl [HL0]; · iexact HL0
  isplitl [HL1]; · iexact HL1
  isplitl [HL2]; · iexact HL2
  isplitl [HL3]; · iexact HL3
  isplitl [HL4]; · iexact HL4
  isplitl [HR]; · iexact HR
  iexact Hg

theorem PhiAt1_close (c : Dev nD) (P0 P1 : sProp 𝕄) : iprop(P0 ∗ P1 ∗ PhiFr1 (F := F) c) ⊢ PhiAt1 (F := F) c P0 P1 := by
  unfold PhiAt1 PhiFr1
  iintro ⟨HS0, HS1, HL0, HL1, HL2, HL3, HL4, HR, Hg⟩
  isplitr [Hg]
  swap; · iexact Hg
  isplitl [HL0]; · iexact HL0
  isplitl [HL1]; · iexact HL1
  isplitl [HL2]; · iexact HL2
  isplitl [HL3]; · iexact HL3
  isplitl [HL4]; · iexact HL4
  isplitl [HS0]; · iexact HS0
  isplitl [HS1]; · iexact HS1
  iexact HR

/-- What the launch hands the region: `PhiAt1` with both accumulators at anything. -/
theorem PhiA1_eq' (c : Dev nD) :
    (Pipeline.ΦA spec1 c : sProp 𝕄) = PhiAt1 c iprop(∃ d, owns (c : Thread nD τ) scM1_0 fullShare d) iprop(∃ d, owns (c : Thread nD τ) scM1_1 fullShare d) :=
  PhiA1_eq c

/-- The region invariant before position `n`: before the first point what the launch hands over (the accumulators
    at anything); afterwards the same buffers with each accumulator at what the point before left in it. -/
def PhiS1 (c : Dev nD) : (n : ℕ) → n ≤ cfg1.N → sProp 𝕄
  | 0, _ => Pipeline.ΦA spec1 c
  | n + 1, hn => PhiAt1 c (owns (c : Thread nD τ) scM1_0 fullShare ((outsAt1 V c n hn).2.2.1)) (owns (c : Thread nD τ) scM1_1 fullShare ((outsAt1 V c n hn).2.2.2))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = PhiAt1 c (owns (c : Thread nD τ) scM1_0 fullShare ((outsAt1 V c n hn).2.2.1)) (owns (c : Thread nD τ) scM1_1 fullShare ((outsAt1 V c n hn).2.2.2)) := rfl

theorem PhiS1_pos (c : Dev nD) (n : ℕ) (h : n ≤ cfg1.N) (hz : n ≠ 0) :
    PhiS1 V c n h = PhiAt1 c (owns (c : Thread nD τ) scM1_0 fullShare ((outsAt1 V c (n - 1) (by omega)).2.2.1)) (owns (c : Thread nD τ) scM1_1 fullShare ((outsAt1 V c (n - 1) (by omega)).2.2.2)) := by
  cases n with
  | zero => exact absurd rfl hz
  | succ n => rfl

/-! ## The pipeline's proof data -/

/-- The proof data of pipeline 1 on core `c`: the arrays as the region finds them (`V`); after the body at point `t`
    each input's buffer at its block and the result windows' at `outsAt1`'s components; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the point is in exactly one of the three cases.
    At the first point the invariant hands over the accumulators at anything (the body zeroes them before reading
    them); at a later point at what the point before left. The body hands the accumulators back at this point's
    contents (its last store into each covers it), the untouched buffers as they were; the result windows are handed
    back untouched except at the last point, where each ends at its accumulator's contents. Nothing is owed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  by_cases h0 : t.val % 10 = 0
  · have h1 : ¬t.val % 10 = 9 := by omega
    have hz : t.val = 0 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2_A t hc0 hc1) (noFlush1_2_A t hc0 hc1)]
    rw [Dat.leavesExact_idle (dat1 V c) 3 t (idleAt1_3_A t hc0 hc1) (noFlush1_3_A t hc0 hc1)]
    rw [outsAt1_A V c t h0 h1]
    unfold sout1_A_0 sout1_A_1; (try dsimp only)
    rw [PhiS1_castSucc V c t, PhiS1_zero V c _ _ hz, PhiA1_eq']
    iintro ⟨HΦ, Ho, ⟨%d0, H0⟩, ⟨%d1, H1⟩, ⟨%d2, H2⟩, ⟨%d3, H3⟩⟩
    ihave HΦ' := (PhiAt1_open c _ _) $$ HΦ
    icases HΦ' with ⟨HS0, HS1, HF⟩
    iapply ((kernelRun1_A c (grid1.coords t) _ _ _ _ _ _ _ _ _ _ _ _ hc0 hc1 (iblk1 V c 0 t) (iblk1 V c 1 t)).2.2.2.2 _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 HF]
    · iapply (PhiAt1_close c _ _)
      isplitl [HS0]
      · unfold owns; iexists _; isplitr
        swap; · iexact HS0
        ipureintro; exact View.read_writes_of_cover _ _ _ _ _ (scover1_A_0 c _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _)
      iexact HF
    isplitl [Ho]; · iexact Ho
    isplitl [H0]; · iexact H0
    isplitl [H1]; · iexact H1
    isplitl [H2]; · iexists _; iexact H2
    iexists _; iexact H3
  · have hz : t.val ≠ 0 := fun h => h0 (by rw [h])
    have hc0 : ¬cond1_0 (grid1.coords t) := fun h => h0 ((hcond1_0 t).mp h)
    by_cases h1 : t.val % 10 = 9
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2_C t hc0 hc1], after1_2]
      rw [show (dat1 V c).leavesExact 3 t = owns (c : Thread nD τ) (ms1_3 t) fullShare ((dat1 V c).after 3 t) from by
        unfold Dat.leavesExact; rw [liveAt1_3_C t hc0 hc1], after1_3]
      rw [outsAt1_C V c t h0 h1]
      unfold out1_C_2 out1_C_3 sout1_C_0 sout1_C_1; (try dsimp only)
      rw [PhiS1_castSucc V c t, PhiS1_pos V c _ _ hz]
      iintro ⟨HΦ, Ho, ⟨%d0, H0⟩, ⟨%d1, H1⟩, ⟨%d2, H2⟩, ⟨%d3, H3⟩⟩
      ihave HΦ' := (PhiAt1_open c _ _) $$ HΦ
      icases HΦ' with ⟨HS0, HS1, HF⟩
      iapply ((kernelRun1_C c (grid1.coords t) _ _ _ _ _ _ _ _ _ _ _ _ hc0 hc1 (iblk1 V c 0 t) (iblk1 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 HF]
      · iapply (PhiAt1_close c _ _)
        isplitl [HS0]
        · unfold owns; iexists _; isplitr
          swap; · iexact HS0
          ipureintro; exact View.read_writes_of_cover _ _ _ _ _ (scover1_C_0 c _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _)
        iexact HF
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_C_2 c _ _ _ _ _ _ _ _ _ _ _ _ _ _ _ _ _ _ _)
      unfold owns; iexists _; isplitr
      swap; · iexact H3
      ipureintro; exact View.read_writes_of_cover _ _ _ _ _ (cover1_C_3 c _ _ _ _ _ _ _ _ _ _ _ _ _ _ _ _ _ _ _)
    · have hc1 : ¬cond1_1 (grid1.coords t) := fun h => h1 ((hcond1_1 t).mp h)
      rw [Dat.leavesExact_idle (dat1 V c) 2 t (idleAt1_2_B t hc0 hc1) (noFlush1_2_B t hc0 hc1)]
      rw [Dat.leavesExact_idle (dat1 V c) 3 t (idleAt1_3_B t hc0 hc1) (noFlush1_3_B t hc0 hc1)]
      rw [outsAt1_B V c t h0 h1]
      unfold sout1_B_0 sout1_B_1; (try dsimp only)
      rw [PhiS1_castSucc V c t, PhiS1_pos V c _ _ hz]
      iintro ⟨HΦ, Ho, ⟨%d0, H0⟩, ⟨%d1, H1⟩, ⟨%d2, H2⟩, ⟨%d3, H3⟩⟩
      ihave HΦ' := (PhiAt1_open c _ _) $$ HΦ
      icases HΦ' with ⟨HS0, HS1, HF⟩
      iapply ((kernelRun1_B c (grid1.coords t) _ _ _ _ _ _ _ _ _ _ _ _ hc0 hc1 (iblk1 V c 0 t) (iblk1 V c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HF]
      · iapply (PhiAt1_close c _ _)
        isplitl [HS0]
        · unfold owns; iexists _; isplitr
          swap; · iexact HS0
          ipureintro; exact View.read_writes_of_cover _ _ _ _ _ (scover1_B_0 c _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _)
        iexact HF
      isplitl [Ho]; · iexact Ho
      isplitl [H0]; · iexact H0
      isplitl [H1]; · iexact H1
      isplitl [H2]; · iexists _; iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the launch handed over: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq']
  iintro HΦ
  ihave HΦ' := (PhiAt1_open c _ _) $$ HΦ
  icases HΦ' with ⟨HS0, HS1, HF⟩
  iapply (PhiAt1_close c _ _)
  isplitl [HS0]; · iexists _; iexact HS0
  isplitl [HS1]; · iexists _; iexact HS1
  iexact HF

/-- The same after the last point. -/
theorem hout1 (c : Dev nD) : (dat1 V c).Φ (Fin.last cfg1.N) ⊢ Pipeline.ΦA spec1 c :=
  Phi_out1 V c _ (by rw [Fin.val_last]; have : cfg1.N = 10 := N_1; omega)

end Cert.Kernel.Hand

end
-- ==== Proof.K.R2.lean ====
/- The third region (normalise, clamp below at zero, add the residual; twenty row blocks of 5000 rows): what each
   window's staging buffer holds around the kernel body at every grid point, the body's triple, and the body obligation
   of the pipeline's proof data. Everything is stated relative to the contents `V` of the core's buffers on entry. -/
import proofs.«154948_j6682969112862_1_alg».proof.Proof.Gen.Kernel.Launch
import proofs.«154948_j6682969112862_1_alg».proof.Proof.Gen.Kernel.Skeleton
import proofs.«154948_j6682969112862_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What every buffer of the core holds when the region is entered; all statements below are relative to it.
variable (V : (c : Dev nD) → (b : Ref sig .tc) → Buf (Elt F) ((c : Thread nD τ).loc b))

/-! ## Blocks of the windows -/

/-- The block of window `w` that grid point `t` addresses, read from the window's array as it stands on entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of the aggregated features: the staging buffer current at `t` holds block `t`, provided the body never alters it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The row block of x (the residual): likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row is one block, brought in at the first point only; later its block index is unchanged, so the buffer still holds it, provided the body never alters it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The row of feature means: one block, brought in once, as the bias row. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The row of feature variances: one block, brought in once. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The row of scales: one block, brought in once. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The row of shifts: one block, brought in once. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each is a whole buffer -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

/-! ## The output buffer after the body -/

/-- The result block: the single store writes the whole buffer. The arguments are the windows' blocks in window order
    (features, residual, bias, mean, variance, scale, shift); the arithmetic takes the residual last. -/
def out2_7 (x0 : Vec F S5000x128 .f32) (x1 : Vec F S5000x128 .f32) (x2 : Vec F S1x128 .f32) (x3 : Vec F S1x128 .f32) (x4 : Vec F S1x128 .f32) (x5 : Vec F S1x128 .f32) (x6 : Vec F S1x128 .f32) : Vec F S5000x128 .f32 :=
  View.canon [⟨r2_0, k2_pay1 (View.ld x0 r2_0) (View.ld x2 r2_1) (View.ld x3 r2_1) (View.ld x4 r2_1) (View.ld x5 r2_1) (View.ld x6 r2_1) (View.ld x1 r2_0)⟩]

/-- That one store reaches every index of the buffer. -/
theorem cover2_7 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The triple of the body -/

set_option maxHeartbeats 2000000 in
/-- Run on eight whole buffers, the first seven reading `x0 … x6` and the eighth holding anything (the body reads it
    once before overwriting it, and does not use what it read), the body ends with the first seven unchanged and the
    eighth at `out2_7 x0 … x6`. -/
theorem sound_kernel2 (c : Dev nD) (E : Set ℕ) (i : grid2.Coords)
    (arg0 : Memref sig .tc .vmem S5000x128 .f32) (harg0 : arg0.IsWhole) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S1x128 .f32) (harg6 : arg6.IsWhole) (arg7 : Memref sig .tc .vmem S5000x128 .f32) (harg7 : arg7.IsWhole)
    (x0 : Vec F S5000x128 .f32) (x1 : Vec F S5000x128 .f32) (x2 : Vec F S1x128 .f32) (x3 : Vec F S1x128 .f32) (x4 : Vec F S1x128 .f32) (x5 : Vec F S1x128 .f32) (x6 : Vec F S1x128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2_kernel i arg0 harg0 arg1 harg1 arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The proof data of the pipeline -/

/-- On core `c`: the arrays are those found on entry; after the body at point `t` the seven input buffers hold their
    blocks and the output buffer the result block; the invariant is that of a body touching nothing but its windows;
    full shares, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation -/

/-- What holds when the body is entered at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what holds when it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- At every point the input buffers hold their blocks, so the triple of the body applies; the invariant and the
    debts are carried across unchanged. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/- The run of the whole program: three kernel regions with two stretches of host operations between them.
   The contents of the core's buffers are followed from the launch through the five segments: a host stretch applies
   its operations; a region leaves each of its arrays at what its write-backs make of it and every other buffer as it
   found it. Every weakly fair execution terminates, and at the end every unscoped buffer holds the last of these
   contents; in particular the six argument arrays, which no segment writes, hold what they were launched with. -/
import proofs.«154948_j6682969112862_1_alg».proof.Proof.K.R0
import proofs.«154948_j6682969112862_1_alg».proof.Proof.K.R1
import proofs.«154948_j6682969112862_1_alg».proof.Proof.K.R2
import proofs.«154948_j6682969112862_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the segments -/

/-- At launch. -/
abbrev W0 : Dev nD → Valuation τ sig (Elt F) := fun c b => m (c, b)
abbrev V0 : (c : Dev nD) → (b : Ref sig .tc) → Buf (Elt F) ((c : Thread nD τ).loc b) := fun c b => W0 m c b

/-- After region 0: its arrays at what the pipeline leaves (an input as entered, an output with every write-back
    folded in), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same contents read at the TensorCore's references. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the first host stretch (the graph aggregation and the bias's reshape). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- After region 1: its arrays at what the pipeline leaves (an input as entered, an output with every write-back
    folded in), every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same contents read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the second host stretch (mean and variance from the two sums; the reshapes of b, γ, β). -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b

/-- After region 2: its arrays at what the pipeline leaves (an input as entered, an output with every write-back
    folded in), every other buffer as entered. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same contents read at the TensorCore's references. -/
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-! ## No segment writes an argument array -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := (W5_arr m c 1).trans (((dat2 (V4 m) c).arrAt_in 1 rfl _).trans (A_eq2 (V4 m) c 1))
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := StableHlo.after_of_writes_sub hostOps1 _ hostOps1_writes (by decide)
    _ = W0 m c (Proc.devRef .tc main_arg0) := (W1_arr m c 0).trans (((dat0 (V0 m) c).arrAt_in 0 rfl _).trans (A_eq0 (V0 m) c 0))
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := StableHlo.after_of_writes_sub hostOps1 _ hostOps1_writes (by decide)
    _ = W0 m c (Proc.devRef .tc main_arg1) := W1_of_ne m c main_arg1 (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := StableHlo.after_of_writes_sub hostOps1 _ hostOps1_writes (by decide)
    _ = W0 m c (Proc.devRef .tc main_arg2) := (W1_arr m c 1).trans (((dat0 (V0 m) c).arrAt_in 1 rfl _).trans (A_eq0 (V0 m) c 1))
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := StableHlo.after_of_writes_sub hostOps1 _ hostOps1_writes (by decide)
    _ = W0 m c (Proc.devRef .tc main_arg3) := W1_of_ne m c main_arg3 (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of_ne m c main_arg4 (by decide)
    _ = W3 m c (Proc.devRef .tc main_arg4) := StableHlo.after_of_writes_sub hostOps2 _ hostOps2_writes (by decide)
    _ = W2 m c (Proc.devRef .tc main_arg4) := W3_of_ne m c main_arg4 (by decide)
    _ = W1 m c (Proc.devRef .tc main_arg4) := StableHlo.after_of_writes_sub hostOps1 _ hostOps1_writes (by decide)
    _ = W0 m c (Proc.devRef .tc main_arg4) := W1_of_ne m c main_arg4 (by decide)
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := W5_of_ne m c main_arg5 (by decide)
    _ = W3 m c (Proc.devRef .tc main_arg5) := StableHlo.after_of_writes_sub hostOps2 _ hostOps2_writes (by decide)
    _ = W2 m c (Proc.devRef .tc main_arg5) := W3_of_ne m c main_arg5 (by decide)
    _ = W1 m c (Proc.devRef .tc main_arg5) := StableHlo.after_of_writes_sub hostOps1 _ hostOps1_writes (by decide)
    _ = W0 m c (Proc.devRef .tc main_arg5) := W1_of_ne m c main_arg5 (by decide)
    _ = m ((c : Thread nD τ).loc main_arg5) := rfl

/-! ## The proof data, the thread state, the segments -/

abbrev adm : (p : Fin 3) → (pcfgs (F := F) p).Adm := fun p => (cfgs p).toPCfg_adm
/-- Each pipeline's proof data at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V4 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

set_option backward.isDefEq.respectTransparency.types false in
/-- Region 0 as a segment of the run: entered with every unscoped buffer at the contents `W0`, left with them at `W1`.
    On entry the region's arrays are split off the unscoped buffers; on exit they are put back at what the write-backs
    left. The generator register passes through the region's invariant; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the run: entered with every unscoped buffer at the contents `W2`, left with them at `W3`.
    On entry the region's arrays are split off the unscoped buffers; on exit they are put back at what the write-backs
    left. The generator register passes through the region's invariant; nothing is owed; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine BIBase.Entails.trans (hout1 (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of the run: entered with every unscoped buffer at the contents `W4`, left with them at `W5`.
    On entry the region's arrays are split off the unscoped buffers; on exit they are put back at what the write-backs
    left. The generator register passes through the region's invariant; nothing is owed; the kernel has no semaphore
    of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m) ]
theorem main_run (c : Dev nD) : main (F := F) c = Pipeline.Seg.run (segs m) := (main_chain c).trans (by chain_rfl)

set_option backward.isDefEq.respectTransparency.types false in
/-- THE RUN. From any memory with zero counters every weakly fair execution terminates, nothing faulting, and in every
    final state each unscoped buffer of each core holds the last contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ)

end Cert.Kernel.Hand

end
-- ==== Proof.KI.R0.lean ====
/- The first region (the projection h = x · W, ten row blocks of 10000 rows): what each window's staging
   buffer holds around the kernel body at every grid point, the body's triple, and the body obligation of the
   pipeline's proof data. Everything is stated relative to the contents `V` of the core's buffers on entry. -/
import proofs.«154948_j6682969112862_1_alg».proof.Proof.Gen.KernelIdeal.Launch
import proofs.«154948_j6682969112862_1_alg».proof.Proof.Gen.KernelIdeal.Skeleton
import proofs.«154948_j6682969112862_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What every buffer of the core holds when the region is entered; all statements below are relative to it.
variable (V : (c : Dev nD) → (b : Ref sig .tc) → Buf (Elt F) ((c : Thread nD τ).loc b))

/-! ## Blocks of the windows -/

/-- The block of window `w` that grid point `t` addresses, read from the window's array as it stands on entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of x: the staging buffer current at `t` holds block `t`, provided the body never alters it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix W is one block, brought in at the first point only; at a later point its block index is the
    same, so the buffer still holds that block, provided the body never alters it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is a whole buffer -/

abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0

/-! ## The output buffer after the body -/

/-- The product block: the single store writes the whole buffer with the product of the two blocks read. -/
def out0_2 (x0 : Vec F S10000x128 .f32) (x1 : Vec F S128x128 .f32) : Vec F S10000x128 .f32 :=
  View.canon [⟨r0_0, k0_pay1 (View.ld x0 r0_0) (View.ld x1 r0_1)⟩]

/-- That one store reaches every index of the buffer. -/
theorem cover0_2 (p0 : Vec F S10000x128 .f32) (y : S10000x128.Idx) :
    ∃ pc ∈ ([⟨r0_0, p0⟩] : List (View.Piece (Elt F) S10000x128 .f32)), y ∈ pc.1.set :=
  View.cover_of_tiled [⟨r0_0, p0⟩] S10000x128.size (by rfl) y

/-! ## The triple of the body -/

set_option maxHeartbeats 1000000 in
/-- Run on three whole buffers, the first two reading `x0` and `x1` and the third holding anything (the body reads it
    once before overwriting it, and does not use what it read), the body ends with the first two unchanged and the
    third at `out0_2 x0 x1`. -/
theorem sound_kernel0 (c : Dev nD) (E : Set ℕ) (i : grid0.Coords) (arg0 : Memref sig .tc .vmem S10000x128 .f32) (harg0 : arg0.IsWhole) (arg1 : Memref sig .tc .vmem S128x128 .f32) (harg1 : arg1.IsWhole) (arg2 : Memref sig .tc .vmem S10000x128 .f32) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the pipeline -/

/-- On core `c`: the arrays are those found on entry; after the body at point `t` the two input buffers hold their
    blocks and the output buffer the product block; the invariant is that of a body touching nothing but its windows;
    full shares, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What holds when the body is entered at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what holds when it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At every point the input buffers hold their blocks, so the triple of the body applies; the invariant and the
    debts are carried across unchanged. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
import proofs.«154948_j6682969112862_1_alg».proof.Proof.Gen.KernelIdeal.Skeleton
import proofs.«154948_j6682969112862_1_alg».proof.Proof.Gen.KernelIdeal.Launch
import proofs.«154948_j6682969112862_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the batch-statistics kernel): what its three control cases share

The kernel adds, feature by feature, the rows of `out0 + b` and their squares over the ten grid points
into two accumulators kept in scratch memory between points: both are zeroed at the first point, and copied to
the two result windows at the last. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the rows' block) is in its current staging buffer at every point: an input is only ever
    copied in, and the body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the bias row) is copied in once, at the first point; its block index never moves, so the
    buffer holds that one block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- The first conditional's test, from the grid coordinate: "this is point 0". -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 10 = 0 :=
  (by decide +kernel : ∀ t : Fin grid1.N, cond1_0 (grid1.coords t) ↔ t.val % 10 = 0)

/-- The second conditional's test: "this is point 9". -/
abbrev cond1_1 (i : grid1.Coords) : Prop := k1_cond2 i = 1#1
/-- It holds at the last point only. -/
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle

Case A is the first point (zeroing branch taken, copy-out branch not), case B the points between (neither branch),
case C the last point (copy-out branch taken). The two result windows are stored into in case C only. -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called on -/

/-- One staging buffer of each result window, through which its contents are stated. -/
abbrev VO1_2 : View sig .tc .vmem S1x128 .f32 := (Memref.whole cc1_stg2_0 : Memref sig .tc .vmem S1x128 .f32).view
abbrev VO1_3 : View sig .tc .vmem S1x128 .f32 := (Memref.whole cc1_stg3_0 : Memref sig .tc .vmem S1x128 .f32).view
/-- Each window's current staging memref at point `t`, and its wholeness. -/
abbrev ms1_0 (t : Fin cfg1.N) : Memref sig .tc .vmem S10000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
/-- The two accumulators: whole scoped buffers of the kernel's own. -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

/-- The scoped buffers listed after the accumulators (the third call's staging buffers), each at some contents:
    the region never touches them. -/
def restR1 (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f))

/-- What the launch hands the region, opened: the first call's staging buffers, the two accumulators as memrefs
    owned at some contents, the third call's staging buffers, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ restR1 c) ∗ (∃ r, prngReg c r)) := by
  unfold Pipeline.ΦA; rw [scopedRest1_eq]; simp only [scM1_0, scM1_1, owns_whole, restR1]; try rfl

end Cert.KernelIdeal.Hand

end
-- ==== Proof.KI.R1RunA.lean ====
import proofs.«154948_j6682969112862_1_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE A (the first point: the zeroing branch runs, the copy-out branch does not). The pieces the body's stores
    leave in each buffer (last first) — none in the two result windows, two in each accumulator (the zero, then the
    zero plus this block's column sums) — with the body's triple: on whole memrefs, the inputs at their contents,
    the result windows at contents handed back untouched, the accumulators at anything, the body runs to the
    continuation holding the inputs as they were and the accumulators with their pieces written. -/
noncomputable def kernelRun1_A (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S10000x128 .f32) (x1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨[], [], ?_, ?_, fun xi2 xi3 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.KI.R1RunB.lean ====
import proofs.«154948_j6682969112862_1_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE B (a point between the first and the last: neither branch runs). The accumulators come in at what the
    point before left (`xs0`, `xs1`) and go out with one piece each: the old contents plus this block's column sums
    (of the rows, of their squares). The result windows are handed back untouched. -/
noncomputable def kernelRun1_B (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S10000x128 .f32) (x1 : Vec F S1x128 .f32) (xs0 : Vec F S1x128 .f32) (xs1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨[], [], ?_, ?_, fun xi2 xi3 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.KI.R1RunC.lean ====
import proofs.«154948_j6682969112862_1_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE C (the last point: the copy-out branch runs). The accumulators come in at what the point before left and
    go out with one piece each, as in case B; each result window, at anything before, ends with one piece: its
    accumulator's final contents. -/
noncomputable def kernelRun1_C (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S10000x128 .f32) (x1 : Vec F S1x128 .f32) (xs0 : Vec F S1x128 .f32) (xs1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, ?_, ?_, fun E K => ?run⟩
  case run =>
    simp only [cc1__bn_stats_kernel_eq_skeleton]; unfold cc1__bn_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.KernelIdeal.Hand

end
-- ==== Proof.KI.R1.lean ====
import proofs.«154948_j6682969112862_1_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the batch-statistics kernel): contents point by point, the proof data, the body obligation -/

/-! ## Case A -/

/-- Case A's pieces for accumulator 0 (the running sum) cover it: the last store alone is the whole buffer. -/
theorem scover1_A_0 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S10000x128 .f32) (x1 : Vec F S1x128 .f32) (y : S1x128.Idx) :
    ∃ pc ∈ (kernelRun1_A c i arg1 harg1 arg2 harg2 arg3 harg3 arg4 harg4 arg5 harg5 arg6 harg6 hc0 hc1 x0 x1).2.2.1, y ∈ pc.1.set :=
  View.cover_of_tiledL (kernelRun1_A c i arg1 harg1 arg2 harg2 arg3 harg3 arg4 harg4 arg5 harg5 arg6 harg6 hc0 hc1 x0 x1).2.2.1 S1x128.size (by sl_kernel_rfl) y

/-- What case A leaves in accumulator 0: its pieces read back. -/
def sout1_A_0 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S10000x128 .f32) (x1 : Vec F S1x128 .f32) : Vec F S1x128 .f32 :=
  VS1_0.read (Elt F) (VS1_0.writes (Elt F) VS1_0.junk (kernelRun1_A c i arg1 harg1 arg2 harg2 arg3 harg3 arg4 harg4 arg5 harg5 arg6 harg6 hc0 hc1 x0 x1).2.2.1)

/-- Case A's pieces for accumulator 1 (the running sum of squares) cover it: the last store alone is the whole buffer. -/
theorem scover1_A_1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S10000x128 .f32) (x1 : Vec F S1x128 .f32) (y : S1x128.Idx) :
    ∃ pc ∈ (kernelRun1_A c i arg1 harg1 arg2 harg2 arg3 harg3 arg4 harg4 arg5 harg5 arg6 harg6 hc0 hc1 x0 x1).2.2.2.1, y ∈ pc.1.set :=
  View.cover_of_tiledL (kernelRun1_A c i arg1 harg1 arg2 harg2 arg3 harg3 arg4 harg4 arg5 harg5 arg6 harg6 hc0 hc1 x0 x1).2.2.2.1 S1x128.size (by sl_kernel_rfl) y

/-- What case A leaves in accumulator 1: its pieces read back. -/
def sout1_A_1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S10000x128 .f32) (x1 : Vec F S1x128 .f32) : Vec F S1x128 .f32 :=
  VS1_1.read (Elt F) (VS1_1.writes (Elt F) VS1_1.junk (kernelRun1_A c i arg1 harg1 arg2 harg2 arg3 harg3 arg4 harg4 arg5 harg5 arg6 harg6 hc0 hc1 x0 x1).2.2.2.1)

/-! ## Case B -/

/-- Case B's pieces for accumulator 0 (the running sum) cover it: the last store alone is the whole buffer. -/
theorem scover1_B_0 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S10000x128 .f32) (x1 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 hc0 hc1 x0 x1 xs0 xs1).2.2.1, y ∈ pc.1.set :=
  View.cover_of_tiledL (kernelRun1_B c i arg1 harg1 arg2 harg2 arg3 harg3 arg4 harg4 arg5 harg5 arg6 harg6 hc0 hc1 x0 x1 xs0 xs1).2.2.1 S1x128.size (by sl_kernel_rfl) y

/-- What case B leaves in accumulator 0: its pieces read back. -/
def sout1_B_0 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S10000x128 .f32) (x1 : Vec F S1x128 .f32) (xs0 : Vec F S1x128 .f32) (xs1 : Vec F S1x128 .f32) : Vec F S1x128 .f32 :=
  VS1_0.read (Elt F) (VS1_0.writes (Elt F) VS1_0.junk (kernelRun1_B c i arg1 harg1 arg2 harg2 arg3 harg3 arg4 harg4 arg5 harg5 arg6 harg6 hc0 hc1 x0 x1 xs0 xs1).2.2.1)

/-- Case B's pieces for accumulator 1 (the running sum of squares) cover it: the last store alone is the whole buffer. -/
theorem scover1_B_1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S10000x128 .f32) (x1 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 hc0 hc1 x0 x1 xs0 xs1).2.2.2.1, y ∈ pc.1.set :=
  View.cover_of_tiledL (kernelRun1_B c i arg1 harg1 arg2 harg2 arg3 harg3 arg4 harg4 arg5 harg5 arg6 harg6 hc0 hc1 x0 x1 xs0 xs1).2.2.2.1 S1x128.size (by sl_kernel_rfl) y

/-- What case B leaves in accumulator 1: its pieces read back. -/
def sout1_B_1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S10000x128 .f32) (x1 : Vec F S1x128 .f32) (xs0 : Vec F S1x128 .f32) (xs1 : Vec F S1x128 .f32) : Vec F S1x128 .f32 :=
  VS1_1.read (Elt F) (VS1_1.writes (Elt F) VS1_1.junk (kernelRun1_B c i arg1 harg1 arg2 harg2 arg3 harg3 arg4 harg4 arg5 harg5 arg6 harg6 hc0 hc1 x0 x1 xs0 xs1).2.2.2.1)

/-! ## Case C -/

/-- Case C's pieces for accumulator 0 (the running sum) cover it: the last store alone is the whole buffer. -/
theorem scover1_C_0 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S10000x128 .f32) (x1 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.2.1, y ∈ pc.1.set :=
  View.cover_of_tiledL (kernelRun1_C c i arg1 harg1 arg2 harg2 arg3 harg3 arg4 harg4 arg5 harg5 arg6 harg6 hc0 hc1 x0 x1 xs0 xs1).2.2.1 S1x128.size (by sl_kernel_rfl) y

/-- What case C leaves in accumulator 0: its pieces read back. -/
def sout1_C_0 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S10000x128 .f32) (x1 : Vec F S1x128 .f32) (xs0 : Vec F S1x128 .f32) (xs1 : Vec F S1x128 .f32) : Vec F S1x128 .f32 :=
  VS1_0.read (Elt F) (VS1_0.writes (Elt F) VS1_0.junk (kernelRun1_C c i arg1 harg1 arg2 harg2 arg3 harg3 arg4 harg4 arg5 harg5 arg6 harg6 hc0 hc1 x0 x1 xs0 xs1).2.2.1)

/-- Case C's pieces for accumulator 1 (the running sum of squares) cover it: the last store alone is the whole buffer. -/
theorem scover1_C_1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S10000x128 .f32) (x1 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.2.2.1, y ∈ pc.1.set :=
  View.cover_of_tiledL (kernelRun1_C c i arg1 harg1 arg2 harg2 arg3 harg3 arg4 harg4 arg5 harg5 arg6 harg6 hc0 hc1 x0 x1 xs0 xs1).2.2.2.1 S1x128.size (by sl_kernel_rfl) y

/-- What case C leaves in accumulator 1: its pieces read back. -/
def sout1_C_1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S10000x128 .f32) (x1 : Vec F S1x128 .f32) (xs0 : Vec F S1x128 .f32) (xs1 : Vec F S1x128 .f32) : Vec F S1x128 .f32 :=
  VS1_1.read (Elt F) (VS1_1.writes (Elt F) VS1_1.junk (kernelRun1_C c i arg1 harg1 arg2 harg2 arg3 harg3 arg4 harg4 arg5 harg5 arg6 harg6 hc0 hc1 x0 x1 xs0 xs1).2.2.2.1)

/-- Case C's one piece for result window 2 (the sums) is the whole block, so it covers it. -/
theorem cover1_C_2 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S10000x128 .f32) (x1 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 hc0 hc1 x0 x1 xs0 xs1).1, y ∈ pc.1.set :=
  View.cover_of_tiledL (kernelRun1_C c i arg1 harg1 arg2 harg2 arg3 harg3 arg4 harg4 arg5 harg5 arg6 harg6 hc0 hc1 x0 x1 xs0 xs1).1 S1x128.size (by sl_kernel_rfl) y

/-- What case C leaves in result window 2 (the sums)'s staging buffer: its piece read back. -/
def out1_C_2 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S10000x128 .f32) (x1 : Vec F S1x128 .f32) (xs0 : Vec F S1x128 .f32) (xs1 : Vec F S1x128 .f32) : Vec F S1x128 .f32 :=
  VO1_2.read (Elt F) (VO1_2.writes (Elt F) VO1_2.junk (kernelRun1_C c i arg1 harg1 arg2 harg2 arg3 harg3 arg4 harg4 arg5 harg5 arg6 harg6 hc0 hc1 x0 x1 xs0 xs1).1)

/-- Case C's one piece for result window 3 (the sums of squares) is the whole block, so it covers it. -/
theorem cover1_C_3 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S10000x128 .f32) (x1 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.1, y ∈ pc.1.set :=
  View.cover_of_tiledL (kernelRun1_C c i arg1 harg1 arg2 harg2 arg3 harg3 arg4 harg4 arg5 harg5 arg6 harg6 hc0 hc1 x0 x1 xs0 xs1).2.1 S1x128.size (by sl_kernel_rfl) y

/-- What case C leaves in result window 3 (the sums of squares)'s staging buffer: its piece read back. -/
def out1_C_3 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S10000x128 .f32) (x1 : Vec F S1x128 .f32) (xs0 : Vec F S1x128 .f32) (xs1 : Vec F S1x128 .f32) : Vec F S1x128 .f32 :=
  VO1_3.read (Elt F) (VO1_3.writes (Elt F) VO1_3.junk (kernelRun1_C c i arg1 harg1 arg2 harg2 arg3 harg3 arg4 harg4 arg5 harg5 arg6 harg6 hc0 hc1 x0 x1 xs0 xs1).2.1)

/-! ## What the result windows and the accumulators hold after each point -/

/-- A result window's buffer at a point that does not store into it: a placeholder nothing consults (at those
    points the window is neither written back nor read). -/
def idleOut1 : Vec F S1x128 .f32 := VO1_2.read (Elt F) VO1_2.junk

/-- THE ACCUMULATION. After the body at position `n`: result window 2's buffer, result window 3's, the running sum,
    the running sum of squares. Point 0 is case A (the accumulators start from zero, whatever they held); a later
    point runs over what the point before left in the accumulators — case C at the last point (where the result
    windows receive the accumulators), case B before it. -/
def outsAt1 (c : Dev nD) : (n : ℕ) → n < cfg1.N → Vec F S1x128 .f32 × Vec F S1x128 .f32 × Vec F S1x128 .f32 × Vec F S1x128 .f32
  | 0, hn => (idleOut1, idleOut1, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h1 : (n + 1) % 10 = 9 then
      (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => by have hN := lt_of_lt_of_eq hn (show cfg1.N = 10 from N_1); have h' := (hcond1_0 ⟨n + 1, hn⟩).mp h; (try dsimp only at h'); omega) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => by have hN := lt_of_lt_of_eq hn (show cfg1.N = 10 from N_1); have h' := (hcond1_0 ⟨n + 1, hn⟩).mp h; (try dsimp only at h'); omega) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => by have hN := lt_of_lt_of_eq hn (show cfg1.N = 10 from N_1); have h' := (hcond1_0 ⟨n + 1, hn⟩).mp h; (try dsimp only at h'); omega) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => by have hN := lt_of_lt_of_eq hn (show cfg1.N = 10 from N_1); have h' := (hcond1_0 ⟨n + 1, hn⟩).mp h; (try dsimp only at h'); omega) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2)
    else
      (idleOut1, idleOut1, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => by have hN := lt_of_lt_of_eq hn (show cfg1.N = 10 from N_1); have h' := (hcond1_0 ⟨n + 1, hn⟩).mp h; (try dsimp only at h'); omega) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => by have hN := lt_of_lt_of_eq hn (show cfg1.N = 10 from N_1); have h' := (hcond1_0 ⟨n + 1, hn⟩).mp h; (try dsimp only at h'); omega) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2)

/-- `outsAt1` at the first point: case A's contents. -/
theorem outsAt1_A (c : Dev nD) (t : Fin cfg1.N) (h0 : t.val % 10 = 0) (h1 : ¬t.val % 10 = 9) :
    outsAt1 V c t.val t.isLt = (idleOut1, idleOut1, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (by exfalso; have hN := lt_of_lt_of_eq hn (show cfg1.N = 10 from N_1); (try dsimp only at h0); omega)

/-- `outsAt1` at a point between: case B's contents, over what the point before left. -/
theorem outsAt1_B (c : Dev nD) (t : Fin cfg1.N) (h0 : ¬t.val % 10 = 0) (h1 : ¬t.val % 10 = 9) :
    outsAt1 V c t.val t.isLt = (idleOut1, idleOut1, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

/-- `outsAt1` at the last point: case C's contents, over what the point before left. -/
theorem outsAt1_C (c : Dev nD) (t : Fin cfg1.N) (h0 : ¬t.val % 10 = 0) (h1 : t.val % 10 = 9) :
    outsAt1 V c t.val t.isLt = (out1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-! ## The region invariant -/

/-- The scoped buffers that are no staging buffer of this call, with the two accumulators at `P0` and `P1`, and the
    generator register at some state. -/
def PhiAt1 (c : Dev nD) (P0 P1 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ P0 ∗ P1 ∗ restR1 c) ∗ (∃ r, prngReg c r))

/-- Everything in `PhiAt1` but the accumulators: what the body never touches. -/
def PhiFr1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ restR1 c ∗ (∃ r, prngReg c r))

theorem PhiAt1_open (c : Dev nD) (P0 P1 : sProp 𝕄) : PhiAt1 (F := F) c P0 P1 ⊢ iprop(P0 ∗ P1 ∗ PhiFr1 (F := F) c) := by
  unfold PhiAt1 PhiFr1
  iintro ⟨⟨HL0, HL1, HL2, HL3, HL4, HS0, HS1, HR⟩, Hg⟩
  isplitl [HS0]; · iexact HS0
  isplitl [HS1]; · iexact HS1
  isplitl [HL0]; · iexact HL0
  isplitl [HL1]; · iexact HL1
  isplitl [HL2]; · iexact HL2
  isplitl [HL3]; · iexact HL3
  isplitl [HL4]; · iexact HL4
  isplitl [HR]; · iexact HR
  iexact Hg

theorem PhiAt1_close (c : Dev nD) (P0 P1 : sProp 𝕄) : iprop(P0 ∗ P1 ∗ PhiFr1 (F := F) c) ⊢ PhiAt1 (F := F) c P0 P1 := by
  unfold PhiAt1 PhiFr1
  iintro ⟨HS0, HS1, HL0, HL1, HL2, HL3, HL4, HR, Hg⟩
  isplitr [Hg]
  swap; · iexact Hg
  isplitl [HL0]; · iexact HL0
  isplitl [HL1]; · iexact HL1
  isplitl [HL2]; · iexact HL2
  isplitl [HL3]; · iexact HL3
  isplitl [HL4]; · iexact HL4
  isplitl [HS0]; · iexact HS0
  isplitl [HS1]; · iexact HS1
  iexact HR

/-- What the launch hands the region: `PhiAt1` with both accumulators at anything. -/
theorem PhiA1_eq' (c : Dev nD) :
    (Pipeline.ΦA spec1 c : sProp 𝕄) = PhiAt1 c iprop(∃ d, owns (c : Thread nD τ) scM1_0 fullShare d) iprop(∃ d, owns (c : Thread nD τ) scM1_1 fullShare d) :=
  PhiA1_eq c

/-- The region invariant before position `n`: before the first point what the launch hands over (the accumulators
    at anything); afterwards the same buffers with each accumulator at what the point before left in it. -/
def PhiS1 (c : Dev nD) : (n : ℕ) → n ≤ cfg1.N → sProp 𝕄
  | 0, _ => Pipeline.ΦA spec1 c
  | n + 1, hn => PhiAt1 c (owns (c : Thread nD τ) scM1_0 fullShare ((outsAt1 V c n hn).2.2.1)) (owns (c : Thread nD τ) scM1_1 fullShare ((outsAt1 V c n hn).2.2.2))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = PhiAt1 c (owns (c : Thread nD τ) scM1_0 fullShare ((outsAt1 V c n hn).2.2.1)) (owns (c : Thread nD τ) scM1_1 fullShare ((outsAt1 V c n hn).2.2.2)) := rfl

theorem PhiS1_pos (c : Dev nD) (n : ℕ) (h : n ≤ cfg1.N) (hz : n ≠ 0) :
    PhiS1 V c n h = PhiAt1 c (owns (c : Thread nD τ) scM1_0 fullShare ((outsAt1 V c (n - 1) (by omega)).2.2.1)) (owns (c : Thread nD τ) scM1_1 fullShare ((outsAt1 V c (n - 1) (by omega)).2.2.2)) := by
  cases n with
  | zero => exact absurd rfl hz
  | succ n => rfl

/-! ## The pipeline's proof data -/

/-- The proof data of pipeline 1 on core `c`: the arrays as the region finds them (`V`); after the body at point `t`
    each input's buffer at its block and the result windows' at `outsAt1`'s components; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the point is in exactly one of the three cases.
    At the first point the invariant hands over the accumulators at anything (the body zeroes them before reading
    them); at a later point at what the point before left. The body hands the accumulators back at this point's
    contents (its last store into each covers it), the untouched buffers as they were; the result windows are handed
    back untouched except at the last point, where each ends at its accumulator's contents. Nothing is owed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  by_cases h0 : t.val % 10 = 0
  · have h1 : ¬t.val % 10 = 9 := by omega
    have hz : t.val = 0 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2_A t hc0 hc1) (noFlush1_2_A t hc0 hc1)]
    rw [Dat.leavesExact_idle (dat1 V c) 3 t (idleAt1_3_A t hc0 hc1) (noFlush1_3_A t hc0 hc1)]
    rw [outsAt1_A V c t h0 h1]
    unfold sout1_A_0 sout1_A_1; (try dsimp only)
    rw [PhiS1_castSucc V c t, PhiS1_zero V c _ _ hz, PhiA1_eq']
    iintro ⟨HΦ, Ho, ⟨%d0, H0⟩, ⟨%d1, H1⟩, ⟨%d2, H2⟩, ⟨%d3, H3⟩⟩
    ihave HΦ' := (PhiAt1_open c _ _) $$ HΦ
    icases HΦ' with ⟨HS0, HS1, HF⟩
    iapply ((kernelRun1_A c (grid1.coords t) _ _ _ _ _ _ _ _ _ _ _ _ hc0 hc1 (iblk1 V c 0 t) (iblk1 V c 1 t)).2.2.2.2 _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 HF]
    · iapply (PhiAt1_close c _ _)
      isplitl [HS0]
      · unfold owns; iexists _; isplitr
        swap; · iexact HS0
        ipureintro; exact View.read_writes_of_cover _ _ _ _ _ (scover1_A_0 c _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _)
      iexact HF
    isplitl [Ho]; · iexact Ho
    isplitl [H0]; · iexact H0
    isplitl [H1]; · iexact H1
    isplitl [H2]; · iexists _; iexact H2
    iexists _; iexact H3
  · have hz : t.val ≠ 0 := fun h => h0 (by rw [h])
    have hc0 : ¬cond1_0 (grid1.coords t) := fun h => h0 ((hcond1_0 t).mp h)
    by_cases h1 : t.val % 10 = 9
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2_C t hc0 hc1], after1_2]
      rw [show (dat1 V c).leavesExact 3 t = owns (c : Thread nD τ) (ms1_3 t) fullShare ((dat1 V c).after 3 t) from by
        unfold Dat.leavesExact; rw [liveAt1_3_C t hc0 hc1], after1_3]
      rw [outsAt1_C V c t h0 h1]
      unfold out1_C_2 out1_C_3 sout1_C_0 sout1_C_1; (try dsimp only)
      rw [PhiS1_castSucc V c t, PhiS1_pos V c _ _ hz]
      iintro ⟨HΦ, Ho, ⟨%d0, H0⟩, ⟨%d1, H1⟩, ⟨%d2, H2⟩, ⟨%d3, H3⟩⟩
      ihave HΦ' := (PhiAt1_open c _ _) $$ HΦ
      icases HΦ' with ⟨HS0, HS1, HF⟩
      iapply ((kernelRun1_C c (grid1.coords t) _ _ _ _ _ _ _ _ _ _ _ _ hc0 hc1 (iblk1 V c 0 t) (iblk1 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 HF]
      · iapply (PhiAt1_close c _ _)
        isplitl [HS0]
        · unfold owns; iexists _; isplitr
          swap; · iexact HS0
          ipureintro; exact View.read_writes_of_cover _ _ _ _ _ (scover1_C_0 c _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _)
        iexact HF
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_C_2 c _ _ _ _ _ _ _ _ _ _ _ _ _ _ _ _ _ _ _)
      unfold owns; iexists _; isplitr
      swap; · iexact H3
      ipureintro; exact View.read_writes_of_cover _ _ _ _ _ (cover1_C_3 c _ _ _ _ _ _ _ _ _ _ _ _ _ _ _ _ _ _ _)
    · have hc1 : ¬cond1_1 (grid1.coords t) := fun h => h1 ((hcond1_1 t).mp h)
      rw [Dat.leavesExact_idle (dat1 V c) 2 t (idleAt1_2_B t hc0 hc1) (noFlush1_2_B t hc0 hc1)]
      rw [Dat.leavesExact_idle (dat1 V c) 3 t (idleAt1_3_B t hc0 hc1) (noFlush1_3_B t hc0 hc1)]
      rw [outsAt1_B V c t h0 h1]
      unfold sout1_B_0 sout1_B_1; (try dsimp only)
      rw [PhiS1_castSucc V c t, PhiS1_pos V c _ _ hz]
      iintro ⟨HΦ, Ho, ⟨%d0, H0⟩, ⟨%d1, H1⟩, ⟨%d2, H2⟩, ⟨%d3, H3⟩⟩
      ihave HΦ' := (PhiAt1_open c _ _) $$ HΦ
      icases HΦ' with ⟨HS0, HS1, HF⟩
      iapply ((kernelRun1_B c (grid1.coords t) _ _ _ _ _ _ _ _ _ _ _ _ hc0 hc1 (iblk1 V c 0 t) (iblk1 V c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HF]
      · iapply (PhiAt1_close c _ _)
        isplitl [HS0]
        · unfold owns; iexists _; isplitr
          swap; · iexact HS0
          ipureintro; exact View.read_writes_of_cover _ _ _ _ _ (scover1_B_0 c _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _)
        iexact HF
      isplitl [Ho]; · iexact Ho
      isplitl [H0]; · iexact H0
      isplitl [H1]; · iexact H1
      isplitl [H2]; · iexists _; iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the launch handed over: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq']
  iintro HΦ
  ihave HΦ' := (PhiAt1_open c _ _) $$ HΦ
  icases HΦ' with ⟨HS0, HS1, HF⟩
  iapply (PhiAt1_close c _ _)
  isplitl [HS0]; · iexists _; iexact HS0
  isplitl [HS1]; · iexists _; iexact HS1
  iexact HF

/-- The same after the last point. -/
theorem hout1 (c : Dev nD) : (dat1 V c).Φ (Fin.last cfg1.N) ⊢ Pipeline.ΦA spec1 c :=
  Phi_out1 V c _ (by rw [Fin.val_last]; have : cfg1.N = 10 := N_1; omega)

end Cert.KernelIdeal.Hand

end
-- ==== Proof.KI.R2.lean ====
/- The third region (normalise, clamp below at zero, add the residual; twenty row blocks of 5000 rows): what each
   window's staging buffer holds around the kernel body at every grid point, the body's triple, and the body obligation
   of the pipeline's proof data. Everything is stated relative to the contents `V` of the core's buffers on entry. -/
import proofs.«154948_j6682969112862_1_alg».proof.Proof.Gen.KernelIdeal.Launch
import proofs.«154948_j6682969112862_1_alg».proof.Proof.Gen.KernelIdeal.Skeleton
import proofs.«154948_j6682969112862_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What every buffer of the core holds when the region is entered; all statements below are relative to it.
variable (V : (c : Dev nD) → (b : Ref sig .tc) → Buf (Elt F) ((c : Thread nD τ).loc b))

/-! ## Blocks of the windows -/

/-- The block of window `w` that grid point `t` addresses, read from the window's array as it stands on entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of the aggregated features: the staging buffer current at `t` holds block `t`, provided the body never alters it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The row block of x (the residual): likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row is one block, brought in at the first point only; later its block index is unchanged, so the buffer still holds it, provided the body never alters it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The row of feature means: one block, brought in once, as the bias row. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The row of feature variances: one block, brought in once. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The row of scales: one block, brought in once. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The row of shifts: one block, brought in once. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each is a whole buffer -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

/-! ## The output buffer after the body -/

/-- The result block: the single store writes the whole buffer. The arguments are the windows' blocks in window order
    (features, residual, bias, mean, variance, scale, shift); the arithmetic takes the residual last. -/
def out2_7 (x0 : Vec F S5000x128 .f32) (x1 : Vec F S5000x128 .f32) (x2 : Vec F S1x128 .f32) (x3 : Vec F S1x128 .f32) (x4 : Vec F S1x128 .f32) (x5 : Vec F S1x128 .f32) (x6 : Vec F S1x128 .f32) : Vec F S5000x128 .f32 :=
  View.canon [⟨r2_0, k2_pay1 (View.ld x0 r2_0) (View.ld x2 r2_1) (View.ld x3 r2_1) (View.ld x4 r2_1) (View.ld x5 r2_1) (View.ld x6 r2_1) (View.ld x1 r2_0)⟩]

/-- That one store reaches every index of the buffer. -/
theorem cover2_7 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The triple of the body -/

set_option maxHeartbeats 2000000 in
/-- Run on eight whole buffers, the first seven reading `x0 … x6` and the eighth holding anything (the body reads it
    once before overwriting it, and does not use what it read), the body ends with the first seven unchanged and the
    eighth at `out2_7 x0 … x6`. -/
theorem sound_kernel2 (c : Dev nD) (E : Set ℕ) (i : grid2.Coords)
    (arg0 : Memref sig .tc .vmem S5000x128 .f32) (harg0 : arg0.IsWhole) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S1x128 .f32) (harg6 : arg6.IsWhole) (arg7 : Memref sig .tc .vmem S5000x128 .f32) (harg7 : arg7.IsWhole)
    (x0 : Vec F S5000x128 .f32) (x1 : Vec F S5000x128 .f32) (x2 : Vec F S1x128 .f32) (x3 : Vec F S1x128 .f32) (x4 : Vec F S1x128 .f32) (x5 : Vec F S1x128 .f32) (x6 : Vec F S1x128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2_kernel i arg0 harg0 arg1 harg1 arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The proof data of the pipeline -/

/-- On core `c`: the arrays are those found on entry; after the body at point `t` the seven input buffers hold their
    blocks and the output buffer the result block; the invariant is that of a body touching nothing but its windows;
    full shares, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation -/

/-- What holds when the body is entered at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what holds when it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- At every point the input buffers hold their blocks, so the triple of the body applies; the invariant and the
    debts are carried across unchanged. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/- The run of the whole program: three kernel regions with two stretches of host operations between them.
   The contents of the core's buffers are followed from the launch through the five segments: a host stretch applies
   its operations; a region leaves each of its arrays at what its write-backs make of it and every other buffer as it
   found it. Every weakly fair execution terminates, and at the end every unscoped buffer holds the last of these
   contents; in particular the six argument arrays, which no segment writes, hold what they were launched with. -/
import proofs.«154948_j6682969112862_1_alg».proof.Proof.KI.R0
import proofs.«154948_j6682969112862_1_alg».proof.Proof.KI.R1
import proofs.«154948_j6682969112862_1_alg».proof.Proof.KI.R2
import proofs.«154948_j6682969112862_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the segments -/

/-- At launch. -/
abbrev W0 : Dev nD → Valuation τ sig (Elt F) := fun c b => m (c, b)
abbrev V0 : (c : Dev nD) → (b : Ref sig .tc) → Buf (Elt F) ((c : Thread nD τ).loc b) := fun c b => W0 m c b

/-- After region 0: its arrays at what the pipeline leaves (an input as entered, an output with every write-back
    folded in), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same contents read at the TensorCore's references. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the first host stretch (the graph aggregation and the bias's reshape). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- After region 1: its arrays at what the pipeline leaves (an input as entered, an output with every write-back
    folded in), every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same contents read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the second host stretch (mean and variance from the two sums; the reshapes of b, γ, β). -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b

/-- After region 2: its arrays at what the pipeline leaves (an input as entered, an output with every write-back
    folded in), every other buffer as entered. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same contents read at the TensorCore's references. -/
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-! ## No segment writes an argument array -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := (W5_arr m c 1).trans (((dat2 (V4 m) c).arrAt_in 1 rfl _).trans (A_eq2 (V4 m) c 1))
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := StableHlo.after_of_writes_sub hostOps1 _ hostOps1_writes (by decide)
    _ = W0 m c (Proc.devRef .tc main_arg0) := (W1_arr m c 0).trans (((dat0 (V0 m) c).arrAt_in 0 rfl _).trans (A_eq0 (V0 m) c 0))
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := StableHlo.after_of_writes_sub hostOps1 _ hostOps1_writes (by decide)
    _ = W0 m c (Proc.devRef .tc main_arg1) := W1_of_ne m c main_arg1 (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := StableHlo.after_of_writes_sub hostOps1 _ hostOps1_writes (by decide)
    _ = W0 m c (Proc.devRef .tc main_arg2) := (W1_arr m c 1).trans (((dat0 (V0 m) c).arrAt_in 1 rfl _).trans (A_eq0 (V0 m) c 1))
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := StableHlo.after_of_writes_sub hostOps1 _ hostOps1_writes (by decide)
    _ = W0 m c (Proc.devRef .tc main_arg3) := W1_of_ne m c main_arg3 (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of_ne m c main_arg4 (by decide)
    _ = W3 m c (Proc.devRef .tc main_arg4) := StableHlo.after_of_writes_sub hostOps2 _ hostOps2_writes (by decide)
    _ = W2 m c (Proc.devRef .tc main_arg4) := W3_of_ne m c main_arg4 (by decide)
    _ = W1 m c (Proc.devRef .tc main_arg4) := StableHlo.after_of_writes_sub hostOps1 _ hostOps1_writes (by decide)
    _ = W0 m c (Proc.devRef .tc main_arg4) := W1_of_ne m c main_arg4 (by decide)
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := W5_of_ne m c main_arg5 (by decide)
    _ = W3 m c (Proc.devRef .tc main_arg5) := StableHlo.after_of_writes_sub hostOps2 _ hostOps2_writes (by decide)
    _ = W2 m c (Proc.devRef .tc main_arg5) := W3_of_ne m c main_arg5 (by decide)
    _ = W1 m c (Proc.devRef .tc main_arg5) := StableHlo.after_of_writes_sub hostOps1 _ hostOps1_writes (by decide)
    _ = W0 m c (Proc.devRef .tc main_arg5) := W1_of_ne m c main_arg5 (by decide)
    _ = m ((c : Thread nD τ).loc main_arg5) := rfl

/-! ## The proof data, the thread state, the segments -/

abbrev adm : (p : Fin 3) → (pcfgs (F := F) p).Adm := fun p => (cfgs p).toPCfg_adm
/-- Each pipeline's proof data at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V4 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

set_option backward.isDefEq.respectTransparency.types false in
/-- Region 0 as a segment of the run: entered with every unscoped buffer at the contents `W0`, left with them at `W1`.
    On entry the region's arrays are split off the unscoped buffers; on exit they are put back at what the write-backs
    left. The generator register passes through the region's invariant; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the run: entered with every unscoped buffer at the contents `W2`, left with them at `W3`.
    On entry the region's arrays are split off the unscoped buffers; on exit they are put back at what the write-backs
    left. The generator register passes through the region's invariant; nothing is owed; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine BIBase.Entails.trans (hout1 (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of the run: entered with every unscoped buffer at the contents `W4`, left with them at `W5`.
    On entry the region's arrays are split off the unscoped buffers; on exit they are put back at what the write-backs
    left. The generator register passes through the region's invariant; nothing is owed; the kernel has no semaphore
    of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m) ]
theorem main_run (c : Dev nD) : main (F := F) c = Pipeline.Seg.run (segs m) := (main_chain c).trans (by chain_rfl)

set_option backward.isDefEq.respectTransparency.types false in
/-- THE RUN. From any memory with zero counters every weakly fair execution terminates, nothing faulting, and in every
    final state each unscoped buffer of each core holds the last contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ)

end Cert.KernelIdeal.Hand

end
-- ==== Proof.RefImports.lean ====
/- The reference program's run and its operations read at an index are taken from the generated modules;
   this module only gathers them for the modules that state the reference's value. -/
import proofs.«154948_j6682969112862_1_alg».proof.Proof.Gen.ReferenceIdeal.Run
import proofs.«154948_j6682969112862_1_alg».proof.Proof.Gen.ReferenceIdeal.Read
-- ==== Proof.Spec.lean ====
/- The function both programs compute, over the extended reals.

   Write x : [100000,128] for the node features, e : [2,600000] for the edge list, w : [128,128] for the weight,
   b, γ, β : [128]. Let h = x·w (a sum over the 128 input features) and let A(h, e) be the graph aggregation: every
   node's row is the sum, over the edges that end in it (the 600000 given edges followed by one self-loop per node),
   of the source node's row of h scaled by the product of the two end points' inverse square-root degrees.
   With y = A(h, e) + b, mean_j = (Σ_a y_aj)/100000 and var_j = (Σ_a y_aj²)/100000 − mean_j², the result is
   max((y_aj − mean_j)·(var_j + ε)^(-1/2)·γ_j + β_j, 0) + x_aj.

   The aggregation is the same chain of gathers and scatter-additions in both programs; it is kept as ONE named
   function `agg` of h and e, so that nothing here opens it. The reference computes the variance as the mean of the
   squared deviations; that this is the mean of the squares less the squared mean needs every y_aj to be a real number. -/
import proofs.«154948_j6682969112862_1_alg».proof.Proof.RefImports
import Idealize.ShloMosaic.Lib.ValueIdx

noncomputable section

namespace Cert.Spec

open Cert.ReferenceIdeal Cert.ReferenceIdeal.Read Idealize.ShloMosaic Idealize.ShloMosaic.ValueIdx

/-- The graph aggregation as a function of the projected features `h` and the edge list: the scatter-addition, over
    the destinations, of the gathered source rows scaled by the edge weights (which depend on the edge list only). -/
def agg {F : FTy → Type} [FloatOps F] (h : (⟨S100000x128, .f32⟩ : BufTy).Contents (Elt F)) (x1 : (⟨S2x600000, .i32⟩ : BufTy).Contents (Elt F)) :
    (⟨S100000x128, .f32⟩ : BufTy).Contents (Elt F) :=
  Host.scatterAdd scatter_S100000x128_S700000x1_S700000x128_1_0_0_1 (val_main_v38 (F := F)) (val_main_v39 (F := F) x1)
    ((mulf (Host.gather gather_S100000x128_S700000x1_S700000x128_1_0_n_n_0_1_1128 h (val_main_v33 (F := F) x1)) (val_main_v36 (F := F) x1) :
      (⟨S700000x128, .f32⟩ : BufTy).Contents (Elt F)))

/-- The reference's aggregated features are `agg` of its projected features. -/
theorem agg_eq (x0 : (⟨S100000x128, .f32⟩ : BufTy).Contents (Elt Ideal)) (x1 : (⟨S2x600000, .i32⟩ : BufTy).Contents (Elt Ideal))
    (x2 : (⟨S128x128, .f32⟩ : BufTy).Contents (Elt Ideal)) :
    val_main_v40 (F := Ideal) x0 x1 x2 = agg (F := Ideal) (val_main_v0 (F := Ideal) x0 x2) x1 := by
  unfold val_main_v40 val_main_v37 val_main_v34 agg; rfl

variable (x0 : (⟨S100000x128, .f32⟩ : BufTy).Contents (Elt Ideal)) (x1 : (⟨S2x600000, .i32⟩ : BufTy).Contents (Elt Ideal))
  (x2 : (⟨S128x128, .f32⟩ : BufTy).Contents (Elt Ideal)) (x3 x4 x5 : (⟨S128, .f32⟩ : BufTy).Contents (Elt Ideal))

/-- The aggregated features plus the bias, at node `a` and feature `j`. -/
def Y (a : Fin 100000) (j : Fin 128) : EReal := val_main_v40 (F := Ideal) x0 x1 x2 (ix2 a j) + x3 (ix1 j)

/-- The number of nodes, as the reference's and the kernel's divisor reads: the real number 100000. -/
def cN : EReal := Ideal.ofBits .f32 0x47C35000#32
/-- The variance's guard ε, the same binary word in both programs. -/
def cEps : EReal := Ideal.ofBits .f32 0x3727C5AC#32
/-- The floor of the rectifier, the zero word. -/
def cZero : EReal := Ideal.ofBits .f32 0x00000000#32

/-- The per-feature mean of `Y` over the nodes. -/
def meanK (j : Fin 128) : EReal := Ideal.div (∑ a : Fin 100000, Y x0 x1 x2 x3 a j) cN
/-- The per-feature variance in the kernel's form: the mean of the squares less the squared mean. -/
def varK (j : Fin 128) : EReal :=
  Ideal.div (∑ a : Fin 100000, Y x0 x1 x2 x3 a j * Y x0 x1 x2 x3 a j) cN - meanK x0 x1 x2 x3 j * meanK x0 x1 x2 x3 j

/-- THE RESULT: normalised, scaled, shifted, rectified, plus the input features. -/
def G (a : Fin 100000) (j : Fin 128) : EReal :=
  max ((Y x0 x1 x2 x3 a j - meanK x0 x1 x2 x3 j) * Ideal.rsqrt (varK x0 x1 x2 x3 j + cEps) * x4 (ix1 j) + x5 (ix1 j)) cZero
    + x0 (ix2 a j)

/-- An array all of whose entries are real numbers. -/
def Fin' {S : Shape} (x : S.Idx → EReal) : Prop := ∀ i, ∃ r : ℝ, x i = (r : EReal)

end Cert.Spec

end
-- ==== Proof.KIV.HostStretch.lean ====
/- What the two stretches of host operations between the kernel regions compute, as functions of the buffers they
   read, for ANY contents `W` of the buffers before the stretch.
   The first stretch is the graph aggregation (the same gathers and scatter-additions as the reference's, here
   named as the one function `Cert.Spec.agg` of the projected features and the edge list) and the bias as a row.
   The second divides the two per-feature sums by the number of nodes, forms mean-of-squares minus squared mean,
   and lays b, γ, β out as rows. -/
import proofs.«154948_j6682969112862_1_alg».proof.Proof.Gen.KernelIdeal.Launch
import proofs.«154948_j6682969112862_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HandV

open Cert.KernelIdeal Cert.KernelIdeal.Gen
open Idealize.ShloMosaic Idealize.ShloMosaic.TcCoe Idealize.SL.Sem Idealize.ShloMosaic.StableHlo Idealize.ShloMosaic.ValueIdx

variable (c : Dev nD) (W : Valuation τ sig (Elt Ideal))

/-- The aggregated features after the first stretch: `agg` of the projected features and the edge list found before it. -/
theorem after1_v40 :
    (StableHlo.after hostOps1 W (Proc.devRef .tc main_v40) : S100000x128.Idx → EReal)
      = Cert.Spec.agg (F := Ideal) (W (Proc.devRef .tc main_v0)) (W (Proc.devRef .tc main_arg1)) := by
  after_results_simp
  rfl

/-- The bias as a row after the first stretch. -/
theorem after1_v41 (j : Fin 128) :
    (StableHlo.after hostOps1 W (Proc.devRef .tc main_v41) : S1x128.Idx → EReal) (ix2 0 j)
      = (W (Proc.devRef .tc main_arg3) : S128.Idx → EReal) (ix1 j) := by
  after_results_simp
  exact shapeCast_a_1a_apply _ _ 0 j

/-- The scalar constant 100000 spread over a row reads 100000 everywhere. -/
theorem bcast_cN (j : Fin 128) :
    (broadcastInDim S1x128 ![] bcast_S_S1x128 (constant (F := Ideal) S_ .f32 0x47C35000#32) : S1x128.Idx → EReal) (ix2 0 j) = Cert.Spec.cN :=
  (broadcastInDim_apply _ bcast_S_S1x128 _ (ix2 0 j) (fun a => a.elim0) (fun a => a.elim0)).trans rfl

/-- The mean after the second stretch: the first sum divided by the number of nodes. -/
theorem after2_v44 (j : Fin 128) :
    (StableHlo.after hostOps2 W (Proc.devRef .tc main_v44) : S1x128.Idx → EReal) (ix2 0 j)
      = Ideal.div ((W (Proc.devRef .tc main_v42_0) : S1x128.Idx → EReal) (ix2 0 j)) Cert.Spec.cN := by
  after_results_simp
  show Ideal.div _ _ = _
  rw [bcast_cN]

/-- The variance after the second stretch: the second sum divided by the number of nodes, less the squared mean. -/
theorem after2_v48 (j : Fin 128) :
    (StableHlo.after hostOps2 W (Proc.devRef .tc main_v48) : S1x128.Idx → EReal) (ix2 0 j)
      = Ideal.div ((W (Proc.devRef .tc main_v42_1) : S1x128.Idx → EReal) (ix2 0 j)) Cert.Spec.cN
        - Ideal.div ((W (Proc.devRef .tc main_v42_0) : S1x128.Idx → EReal) (ix2 0 j)) Cert.Spec.cN
          * Ideal.div ((W (Proc.devRef .tc main_v42_0) : S1x128.Idx → EReal) (ix2 0 j)) Cert.Spec.cN := by
  after_results_simp
  show Ideal.div _ _ - Ideal.div _ _ * Ideal.div _ _ = _
  rw [bcast_cN]

/-- b, γ and β as rows after the second stretch. -/
theorem after2_v49 (j : Fin 128) :
    (StableHlo.after hostOps2 W (Proc.devRef .tc main_v49) : S1x128.Idx → EReal) (ix2 0 j)
      = (W (Proc.devRef .tc main_arg3) : S128.Idx → EReal) (ix1 j) := by
  after_results_simp
  exact shapeCast_a_1a_apply _ _ 0 j
theorem after2_v50 (j : Fin 128) :
    (StableHlo.after hostOps2 W (Proc.devRef .tc main_v50) : S1x128.Idx → EReal) (ix2 0 j)
      = (W (Proc.devRef .tc main_arg4) : S128.Idx → EReal) (ix1 j) := by
  after_results_simp
  exact shapeCast_a_1a_apply _ _ 0 j
theorem after2_v51 (j : Fin 128) :
    (StableHlo.after hostOps2 W (Proc.devRef .tc main_v51) : S1x128.Idx → EReal) (ix2 0 j)
      = (W (Proc.devRef .tc main_arg5) : S128.Idx → EReal) (ix1 j) := by
  after_results_simp
  exact shapeCast_a_1a_apply _ _ 0 j

end Cert.KernelIdeal.HandV

end
-- ==== Proof.KIV.R0Value.lean ====
/- The value of the first region over the extended reals: after its ten grid points the output array is the
   matrix product of the two input arrays as they stood on entry, entry (i, j) being the sum over k of x(i, k) · W(k, j).
   Rounding the operands to a shorter format is the identity there, and the accumulator starts from zero. -/
import proofs.«154948_j6682969112862_1_alg».proof.Proof.KI.R0
import Idealize.ShloMosaic.Lib.Pipeline.Value
import Idealize.ShloMosaic.Lib.ValueIdx
import Idealize.ShloMosaic.Lib.ValueLayout
import Idealize.ShloMosaic.PureOps.Ideal.Laws

set_option maxRecDepth 16384
set_option pp.maxSteps 5000
set_option pp.deepTerms false

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- What every buffer of the core holds when the region is entered, over the extended reals.
variable (V : (c : Dev nD) → (b : Ref sig .tc) → Buf (Elt Ideal) ((c : Thread nD τ).loc b))

/-! ## The product block at an index -/

/-- The contraction of the body's product: rows by columns, one contracted axis of 128. -/
abbrev D0 : DotDims S10000x128 S128x128 S10000x128 := dot_S10000x128_S128x128_S10000x128_1_0_0_1_n_n

theorem lhs0_0 (i : S10000x128.Idx) (q : D0.contr.Idx) : (D0.lhsIdx i q 0).val = (i 0).val := by
  unfold DotDims.lhsIdx
  rw [dif_neg (show ¬(0 : Fin S10000x128.rank) ∈ D0.lhsBatch by decide), dif_pos (show (0 : Fin S10000x128.rank) ∈ D0.lhsNonContracting by decide)]
  rfl
theorem lhs0_1 (i : S10000x128.Idx) (q : D0.contr.Idx) : (D0.lhsIdx i q 1).val = (q ⟨0, by decide⟩).val :=
  D0.lhsIdx_val_of_single rfl i q
theorem rhs0_0 (i : S10000x128.Idx) (q : D0.contr.Idx) : (D0.rhsIdx i q 0).val = (q ⟨0, by decide⟩).val :=
  D0.rhsIdx_val_of_single rfl i q
theorem rhs0_1 (i : S10000x128.Idx) (q : D0.contr.Idx) : (D0.rhsIdx i q 1).val = (i 1).val := by
  unfold DotDims.rhsIdx
  rw [dif_neg (show ¬(1 : Fin S128x128.rank) ∈ D0.rhsBatch by decide), dif_pos (show (1 : Fin S128x128.rank) ∈ D0.rhsNonContracting by decide)]
  rfl

/-- Entry (p, q) of the block the body stores: row p of the first block against column q of the second. -/
theorem pay0_apply (x : Vec Ideal S10000x128 .f32) (w : Vec Ideal S128x128 .f32) (p : Fin 10000) (q : Fin 128) :
    k0_pay1 x w (ix2 p q) = ∑ k : Fin 128, x (ix2 p k) * w (ix2 k q) := by
  unfold k0_pay1
  simp only [matmul]
  rw [Ideal.matmul_constant_zero_apply, ← Equiv.sum_comp (contrEquiv1 D0 128 rfl rfl).symm]
  refine Finset.sum_congr rfl fun k _ => ?_
  have hk := contrEquiv1_symm_val D0 128 rfl rfl k
  have el : D0.lhsIdx (ix2 p q) ((contrEquiv1 D0 128 rfl rfl).symm k) = ix2 p k := funext fun a => Fin.ext (by
    match a with
    | ⟨0, _⟩ => exact lhs0_0 _ _
    | ⟨1, _⟩ => exact (lhs0_1 _ _).trans hk)
  have er : D0.rhsIdx (ix2 p q) ((contrEquiv1 D0 128 rfl rfl).symm k) = ix2 k q := funext fun a => Fin.ext (by
    match a with
    | ⟨0, _⟩ => exact (rhs0_0 _ _).trans hk
    | ⟨1, _⟩ => exact rhs0_1 _ _)
  rw [el, er]
  rfl

/-! ## The whole array -/

theorem hz0 : (![0, 0] : Fin 2 → Nat) = fun _ => 0 := funext fun a => by fin_cases a <;> rfl

/-- Row i of the first array at column k. -/
abbrev lidx0 (i : S100000x128.Idx) (k : Fin 128) : S100000x128.Idx := fun a => match a with
  | ⟨0, _⟩ => ⟨(i 0).val, (i 0).isLt⟩
  | ⟨1, _⟩ => ⟨k.val, k.isLt⟩
/-- Row k of the second array at column j. -/
abbrev ridx0 (i : S100000x128.Idx) (k : Fin 128) : S128x128.Idx := fun a => match a with
  | ⟨0, _⟩ => ⟨k.val, k.isLt⟩
  | ⟨1, _⟩ => ⟨(i 1).val, (i 1).isLt⟩

/-- The matrix product of two arrays, entry by entry. -/
def G0 (a : S100000x128.Idx → EReal) (w : S128x128.Idx → EReal) : S100000x128.Idx → EReal :=
  fun i => ∑ k : Fin 128, a (lidx0 i k) * w (ridx0 i k)

/-- The block indices of the three windows at every grid point: x and the output move together down the rows,
    W stays at its one block. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (0 : Fin 2) ≤ 9 ∧ win0_2.index t (1 : Fin 2) = 0 :=
  (by decide +kernel : ∀ t : Fin grid0.N, _)

/-- Every row block is some grid point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- What grid point `t` writes back is block `t` of the product of the arrays found on entry. -/
theorem flushed0_eq (c : Dev nD) (t : Fin cfg0.N) :
    (dat0 (F := Ideal) V c).flushed 2 t = ((cfg0.win 2).blk t).view.read (Elt Ideal) (G0 (V c main_arg0) (V c main_arg2)) := by
  show (cfg0.win 2).cut (grid0.coords t) ((dat0 (F := Ideal) V c).after 2 t) = _
  rw [after0_2]
  unfold out0_2
  rw [View.canon_unit_zero hz0]
  simp only [View.ld_unit_zero (S := S10000x128) hz0, View.ld_unit_zero (S := S128x128) hz0]
  obtain ⟨e0, e1, e2, e3, e4, e5⟩ := idx_facts0 t
  funext y
  obtain ⟨p, q, rfl⟩ : ∃ (p : Fin 10000) (q : Fin 128), y = ix2 p q := ⟨y 0, y 1, eq_ix2 y⟩
  refine (pay0_apply (iblk0 V c 0 t) (iblk0 V c 1 t) p q).trans ?_
  show _ = G0 (V c main_arg0) (V c main_arg2) (((cfg0.win 2).blk t).view.emb (ix2 p q))
  unfold G0
  refine Finset.sum_congr rfl fun k _ => ?_
  have h0 : ((cfg0.win 0).blk t).view.emb (ix2 p k) = lidx0 (((cfg0.win 2).blk t).view.emb (ix2 p q)) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have h1 : ((cfg0.win 1).blk t).view.emb (ix2 k q) = ridx0 (((cfg0.win 2).blk t).view.emb (ix2 p q)) k := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [← h0, ← h1]
  rfl

/-- An index of the output array lies in point `t`'s block exactly when each coordinate lies in the block's range. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- The ten row blocks tile the array: row r lies in block r / 10000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the region the output array is the product of the two arrays found on entry. -/
theorem final0_2 (c : Dev nD) : (dat0 (F := Ideal) V c).arrAt 2 cfg0.N = G0 (V c main_arg0) (V c main_arg2) :=
  (dat0 (F := Ideal) V c).arrAt_eq_of_cover 2 (G0 (V c main_arg0) (V c main_arg2)) (fun t _ => flushed0_eq V c t) cover0

/-- The product at entry (i, j): the sum over k of a(i, k) · w(k, j). -/
theorem G0_ix2 (a : S100000x128.Idx → EReal) (w : S128x128.Idx → EReal) (i : Fin 100000) (j : Fin 128) :
    G0 a w (ix2 i j) = ∑ k : Fin 128, a (ix2 i k) * w (ix2 k j) := by
  unfold G0
  refine Finset.sum_congr rfl fun k _ => ?_
  have hl : lidx0 (ix2 i j) k = ix2 i k := funext fun a => by match a with | ⟨0, _⟩ => rfl | ⟨1, _⟩ => rfl
  have hr : ridx0 (ix2 i j) k = ix2 k j := funext fun a => by match a with | ⟨0, _⟩ => rfl | ⟨1, _⟩ => rfl
  rw [hl, hr]

/-- Entry (i, j) of the output array after the region: the product of x and W, both as found on entry, at (i, j). -/
theorem arr0_2 (c : Dev nD) (i : Fin 100000) (j : Fin 128) :
    (dat0 (F := Ideal) V c).arrAt 2 cfg0.N (ix2 i j) = G0 (V c main_arg0) (V c main_arg2) (ix2 i j) := by
  rw [final0_2]

end Cert.KernelIdeal.HandV

end
-- ==== Proof.KIV.R1Value.lean ====
import proofs.«154948_j6682969112862_1_alg».proof.Proof.KI.R1
import Idealize.ShloMosaic.Lib.Pipeline.Value
import Idealize.ShloMosaic.Lib.ValueLayout
import Idealize.ShloMosaic.Lib.ValueIdx
import Idealize.ShloMosaic.PureOps.Ideal.Laws
import Idealize.ShloMosaic.Lib.Tactic

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic
open Idealize.SL.Sem
open Idealize.ShloMosaic.Pipeline (Dat)
open Idealize.ShloMosaic.ValueIdx

/-! # Region 1 (the batch-statistics kernel): what its two result arrays hold after the region

Feature by feature, the first is the sum over all 100000 rows of `out0 + b`, the second the sum of its squares:
the ten grid points each add their block's 10000 rows onto an accumulator that starts from zero, and the last point
copies the accumulators out. -/

section Pieces

variable {F : FTy → Type} [FloatOps F]

theorem hz1 : (![0, 0] : Fin 2 → Nat) = fun _ => 0 := funext fun a => by fin_cases a <;> rfl

/-! ## What each case's stores leave, as the payloads of the blocks read -/

/-- The first point leaves in the running sum: the zero just stored, plus this block's column sums. -/
theorem soutA0 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S10000x128 .f32) (x1 : Vec F S1x128 .f32) :
    sout1_A_0 c i arg1 harg1 arg2 harg2 arg3 harg3 arg4 harg4 arg5 harg5 arg6 harg6 hc0 hc1 x0 x1 = k1_pay4 x0 x1 (k1_pay1 (F := F)) := by
  unfold sout1_A_0
  rw [View.read_writes_eq_canon _ _ _ (scover1_A_0 c i arg1 harg1 arg2 harg2 arg3 harg3 arg4 harg4 arg5 harg5 arg6 harg6 hc0 hc1 x0 x1)]
  unfold kernelRun1_A
  dsimp only
  try sl_unfold_words
  rw [View.canon_cons_unit_zero (S := S1x128) hz1, View.readCov_unit_zero (S := S1x128) _ hz1]
  simp only [View.readAt_eq_ld, harg1.read_unread, harg2.read_unread, View.ld_unit_zero (S := S10000x128) hz1, View.ld_unit_zero (S := S1x128) hz1]

/-- The first point leaves in the running sum of squares: the zero just stored, plus this block's column sums of squares. -/
theorem soutA1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S10000x128 .f32) (x1 : Vec F S1x128 .f32) :
    sout1_A_1 c i arg1 harg1 arg2 harg2 arg3 harg3 arg4 harg4 arg5 harg5 arg6 harg6 hc0 hc1 x0 x1 = k1_pay5 x0 x1 (k1_pay2 (F := F)) := by
  unfold sout1_A_1
  rw [View.read_writes_eq_canon _ _ _ (scover1_A_1 c i arg1 harg1 arg2 harg2 arg3 harg3 arg4 harg4 arg5 harg5 arg6 harg6 hc0 hc1 x0 x1)]
  unfold kernelRun1_A
  dsimp only
  try sl_unfold_words
  rw [View.canon_cons_unit_zero (S := S1x128) hz1, View.readCov_unit_zero (S := S1x128) _ hz1]
  simp only [View.readAt_eq_ld, harg1.read_unread, harg2.read_unread, View.ld_unit_zero (S := S10000x128) hz1, View.ld_unit_zero (S := S1x128) hz1]

/-- A point between adds this block's column sums onto the running sum. -/
theorem soutB0 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S10000x128 .f32) (x1 : Vec F S1x128 .f32) (xs0 : Vec F S1x128 .f32) (xs1 : Vec F S1x128 .f32) :
    sout1_B_0 c i arg1 harg1 arg2 harg2 arg3 harg3 arg4 harg4 arg5 harg5 arg6 harg6 hc0 hc1 x0 x1 xs0 xs1 = k1_pay4 x0 x1 xs0 := by
  unfold sout1_B_0
  rw [View.read_writes_eq_canon _ _ _ (scover1_B_0 c i arg1 harg1 arg2 harg2 arg3 harg3 arg4 harg4 arg5 harg5 arg6 harg6 hc0 hc1 x0 x1 xs0 xs1)]
  unfold kernelRun1_B
  dsimp only
  try sl_unfold_words
  rw [View.canon_unit_zero hz1]
  simp only [View.readAt_eq_ld, harg1.read_unread, harg2.read_unread, harg5.read_unread, View.ld_unit_zero (S := S10000x128) hz1, View.ld_unit_zero (S := S1x128) hz1]

/-- A point between adds this block's column sums of squares onto the running sum of squares. -/
theorem soutB1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S10000x128 .f32) (x1 : Vec F S1x128 .f32) (xs0 : Vec F S1x128 .f32) (xs1 : Vec F S1x128 .f32) :
    sout1_B_1 c i arg1 harg1 arg2 harg2 arg3 harg3 arg4 harg4 arg5 harg5 arg6 harg6 hc0 hc1 x0 x1 xs0 xs1 = k1_pay5 x0 x1 xs1 := by
  unfold sout1_B_1
  rw [View.read_writes_eq_canon _ _ _ (scover1_B_1 c i arg1 harg1 arg2 harg2 arg3 harg3 arg4 harg4 arg5 harg5 arg6 harg6 hc0 hc1 x0 x1 xs0 xs1)]
  unfold kernelRun1_B
  dsimp only
  try sl_unfold_words
  rw [View.canon_unit_zero hz1]
  simp only [View.readAt_eq_ld, harg1.read_unread, harg2.read_unread, harg6.read_unread, View.ld_unit_zero (S := S10000x128) hz1, View.ld_unit_zero (S := S1x128) hz1]

/-- The last point updates the running sum as the points between do. -/
theorem soutC0 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S10000x128 .f32) (x1 : Vec F S1x128 .f32) (xs0 : Vec F S1x128 .f32) (xs1 : Vec F S1x128 .f32) :
    sout1_C_0 c i arg1 harg1 arg2 harg2 arg3 harg3 arg4 harg4 arg5 harg5 arg6 harg6 hc0 hc1 x0 x1 xs0 xs1 = k1_pay4 x0 x1 xs0 := by
  unfold sout1_C_0
  rw [View.read_writes_eq_canon _ _ _ (scover1_C_0 c i arg1 harg1 arg2 harg2 arg3 harg3 arg4 harg4 arg5 harg5 arg6 harg6 hc0 hc1 x0 x1 xs0 xs1)]
  unfold kernelRun1_C
  dsimp only
  try sl_unfold_words
  rw [View.canon_unit_zero hz1]
  simp only [View.readAt_eq_ld, harg1.read_unread, harg2.read_unread, harg5.read_unread, View.ld_unit_zero (S := S10000x128) hz1, View.ld_unit_zero (S := S1x128) hz1]

/-- The last point updates the running sum of squares as the points between do. -/
theorem soutC1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S10000x128 .f32) (x1 : Vec F S1x128 .f32) (xs0 : Vec F S1x128 .f32) (xs1 : Vec F S1x128 .f32) :
    sout1_C_1 c i arg1 harg1 arg2 harg2 arg3 harg3 arg4 harg4 arg5 harg5 arg6 harg6 hc0 hc1 x0 x1 xs0 xs1 = k1_pay5 x0 x1 xs1 := by
  unfold sout1_C_1
  rw [View.read_writes_eq_canon _ _ _ (scover1_C_1 c i arg1 harg1 arg2 harg2 arg3 harg3 arg4 harg4 arg5 harg5 arg6 harg6 hc0 hc1 x0 x1 xs0 xs1)]
  unfold kernelRun1_C
  dsimp only
  try sl_unfold_words
  rw [View.canon_unit_zero hz1]
  simp only [View.readAt_eq_ld, harg1.read_unread, harg2.read_unread, harg6.read_unread, View.ld_unit_zero (S := S10000x128) hz1, View.ld_unit_zero (S := S1x128) hz1]

/-- The last point copies the updated running sum into the first result window. -/
theorem outC2 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S10000x128 .f32) (x1 : Vec F S1x128 .f32) (xs0 : Vec F S1x128 .f32) (xs1 : Vec F S1x128 .f32) :
    out1_C_2 c i arg1 harg1 arg2 harg2 arg3 harg3 arg4 harg4 arg5 harg5 arg6 harg6 hc0 hc1 x0 x1 xs0 xs1 = k1_pay4 x0 x1 xs0 := by
  unfold out1_C_2
  rw [View.read_writes_eq_canon _ _ _ (cover1_C_2 c i arg1 harg1 arg2 harg2 arg3 harg3 arg4 harg4 arg5 harg5 arg6 harg6 hc0 hc1 x0 x1 xs0 xs1)]
  unfold kernelRun1_C
  dsimp only
  try sl_unfold_words
  rw [View.canon_unit_zero hz1, View.readCov_unit_zero (S := S1x128) _ hz1]
  simp only [View.readAt_eq_ld, harg1.read_unread, harg2.read_unread, harg5.read_unread, View.ld_unit_zero (S := S10000x128) hz1, View.ld_unit_zero (S := S1x128) hz1]

/-- The last point copies the updated running sum of squares into the second result window. -/
theorem outC3 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S10000x128 .f32) (x1 : Vec F S1x128 .f32) (xs0 : Vec F S1x128 .f32) (xs1 : Vec F S1x128 .f32) :
    out1_C_3 c i arg1 harg1 arg2 harg2 arg3 harg3 arg4 harg4 arg5 harg5 arg6 harg6 hc0 hc1 x0 x1 xs0 xs1 = k1_pay5 x0 x1 xs1 := by
  unfold out1_C_3
  rw [View.read_writes_eq_canon _ _ _ (cover1_C_3 c i arg1 harg1 arg2 harg2 arg3 harg3 arg4 harg4 arg5 harg5 arg6 harg6 hc0 hc1 x0 x1 xs0 xs1)]
  unfold kernelRun1_C
  dsimp only
  try sl_unfold_words
  rw [View.canon_unit_zero hz1, View.readCov_unit_zero (S := S1x128) _ hz1]
  simp only [View.readAt_eq_ld, harg1.read_unread, harg2.read_unread, harg6.read_unread, View.ld_unit_zero (S := S10000x128) hz1, View.ld_unit_zero (S := S1x128) hz1]

end Pieces

section AtIdeal

/-! ## The payloads read at the extended reals -/

/-- The index a reduction over the rows inserts: row `r` beside feature `j`. -/
theorem lift1 (h : S10000x128.Reduces [0] S128) (j : Fin 128) (r : Fin 10000) :
    Shape.Reduces.lift h (ix1 j) r = ix2 r j := by
  funext a
  match a with
  | ⟨0, _⟩ => exact Fin.ext rfl
  | ⟨1, _⟩ => exact Fin.ext rfl

/-- A block's column sum at feature `j` is the sum over its 10000 rows. -/
theorem colsum1 (X : FVec Ideal S10000x128 .f32) (h : S10000x128.Reduces [0] S128)
    (hacc : (0x00000000#32 : BitVec 32) = 0x00000000#32) (j : Fin 128) :
    multiReduction .add [0] S128 X 0x00000000#32 h (.inl rfl) hacc (ix1 j) = ∑ r : Fin 10000, X (ix2 r j) := by
  refine (Ideal.multiReduction_add_single X 0x00000000#32 h (.inl rfl) hacc (ix1 j)).trans ?_
  exact Finset.sum_congr rfl fun r _ => congrArg X (lift1 h j r)

/-- The block with the bias row added to every row, at row `r` and feature `j`. -/
theorem pay3I (x0 : FVec Ideal S10000x128 .f32) (x1 : FVec Ideal S1x128 .f32) (r : Fin 10000) (j : Fin 128) :
    (k1_pay3 x0 x1 : FVec Ideal S10000x128 .f32) (ix2 r j) = x0 (ix2 r j) + x1 (ix2 0 j) := by
  unfold k1_pay3
  simp only [shapeCast_self]
  exact congrArg (x0 (ix2 r j) + ·) (broadcastTo_1b_ab_apply x1 _ r j)

/-- The updated running sum at feature `j`: the old value plus the sum over the block's rows of row plus bias. -/
theorem pay4I (x0 : FVec Ideal S10000x128 .f32) (x1 acc : FVec Ideal S1x128 .f32) (j : Fin 128) :
    (k1_pay4 x0 x1 acc : FVec Ideal S1x128 .f32) (ix2 0 j) = acc (ix2 0 j) + ∑ r : Fin 10000, (x0 (ix2 r j) + x1 (ix2 0 j)) := by
  unfold k1_pay4
  simp only [shapeCast_self]
  refine congrArg (acc (ix2 0 j) + ·) ?_
  refine (shapeCast_a_1a_apply _ shapeCasts_S128_S1x128 0 j).trans ?_
  refine (colsum1 (k1_pay3 x0 x1) reduces_S10000x128_S128 rfl j).trans ?_
  exact Finset.sum_congr rfl fun r _ => pay3I x0 x1 r j

/-- The updated running sum of squares at feature `j`. -/
theorem pay5I (x0 : FVec Ideal S10000x128 .f32) (x1 acc : FVec Ideal S1x128 .f32) (j : Fin 128) :
    (k1_pay5 x0 x1 acc : FVec Ideal S1x128 .f32) (ix2 0 j)
      = acc (ix2 0 j) + ∑ r : Fin 10000, (x0 (ix2 r j) + x1 (ix2 0 j)) * (x0 (ix2 r j) + x1 (ix2 0 j)) := by
  unfold k1_pay5
  simp only [shapeCast_self]
  refine congrArg (acc (ix2 0 j) + ·) ?_
  refine (shapeCast_a_1a_apply _ shapeCasts_S128_S1x128 0 j).trans ?_
  refine (colsum1 (mulf (k1_pay3 x0 x1) (k1_pay3 x0 x1)) reduces_S10000x128_S128 rfl j).trans ?_
  exact Finset.sum_congr rfl fun r _ => congrArg₂ (· * ·) (pay3I x0 x1 r j) (pay3I x0 x1 r j)

/-- The zero the first point stores into the running sum. -/
theorem pay1I (j : Fin 128) : (k1_pay1 : FVec Ideal S1x128 .f32) (ix2 0 j) = 0 := by
  unfold k1_pay1
  simp only [shapeCast_self]
  exact Ideal.ofBits_zero_f32

/-- The zero the first point stores into the running sum of squares. -/
theorem pay2I (j : Fin 128) : (k1_pay2 : FVec Ideal S1x128 .f32) (ix2 0 j) = 0 := by
  unfold k1_pay2
  simp only [shapeCast_self]
  exact Ideal.ofBits_zero_f32

variable (V : (c : Dev nD) → (b : Ref sig .tc) → Buf (Elt Ideal) ((c : Thread nD τ).loc b))

/-- The rows' array (`out0`) and the bias row as the region finds them, as functions into the extended reals. -/
abbrev rowsR1 (c : Dev nD) : S100000x128.Idx → EReal := V c main_v40
abbrev biasR1 (c : Dev nD) : S1x128.Idx → EReal := V c main_v41

/-! ## The windows' blocks as rows of the arrays -/

/-- Point `t`'s block of the rows' array is its rows `10000 t … 10000 t + 9999`. -/
theorem iblk1_0_apply (c : Dev nD) (t : Fin cfg1.N) (r : Fin 10000) (j : Fin 128) (h : 10000 * t.val + r.val < 100000) :
    (iblk1 V c 0 t : FVec Ideal S10000x128 .f32) (ix2 r j)
      = rowsR1 V c (ix2 ⟨10000 * t.val + r.val, h⟩ j) := by
  have hi : win1_0.index t 0 = t.val ∧ win1_0.index t 1 = 0 := by
    rcases fin_N1 t with rfl | rfl | rfl | rfl | rfl | rfl | rfl | rfl | rfl | rfl <;> decide
  unfold iblk1
  rw [View.read_apply]
  show V c main_v40 _ = V c main_v40 _
  refine congrArg _ ?_
  funext a
  apply Fin.ext
  match a with
  | ⟨0, _⟩ => show win1_0.index t 0 * 10000 + 1 * r.val = 10000 * t.val + r.val; rw [hi.1]; omega
  | ⟨1, _⟩ => show win1_0.index t 1 * 128 + 1 * j.val = j.val; rw [hi.2]; omega

/-- The bias window's one block is the bias row. -/
theorem iblk1_1_apply (c : Dev nD) (t : Fin cfg1.N) (j : Fin 128) :
    (iblk1 V c 1 t : FVec Ideal S1x128 .f32) (ix2 0 j) = biasR1 V c (ix2 0 j) := by
  have hi : win1_1.index t 0 = 0 ∧ win1_1.index t 1 = 0 := by
    rcases fin_N1 t with rfl | rfl | rfl | rfl | rfl | rfl | rfl | rfl | rfl | rfl <;> decide
  unfold iblk1
  rw [View.read_apply]
  show V c main_v41 _ = V c main_v41 _
  refine congrArg _ ?_
  funext a
  apply Fin.ext
  match a with
  | ⟨0, _⟩ => show win1_1.index t 0 * 1 + 1 * 0 = 0; rw [hi.1]
  | ⟨1, _⟩ => show win1_1.index t 1 * 128 + 1 * j.val = j.val; rw [hi.2]; omega

/-- Row `n` of `out0 + b` at feature `j` (zero past the last row: a total function of the row number). -/
def row1 (c : Dev nD) (j : Fin 128) (n : ℕ) : EReal :=
  if h : n < 100000 then rowsR1 V c (ix2 ⟨n, h⟩ j) + biasR1 V c (ix2 0 j) else 0

/-- The two input windows' blocks at point `t`, as functions into the extended reals. -/
abbrev blkR1_0 (c : Dev nD) (t : Fin cfg1.N) : S10000x128.Idx → EReal := iblk1 V c 0 t
abbrev blkR1_1 (c : Dev nD) (t : Fin cfg1.N) : S1x128.Idx → EReal := iblk1 V c 1 t

/-- A point's block of rows, each with the bias added, is the next 10000 rows of `row1`. -/
theorem blk_rows1 (c : Dev nD) (t : Fin cfg1.N) (j : Fin 128) (r : Fin 10000) :
    blkR1_0 V c t (ix2 r j) + blkR1_1 V c t (ix2 0 j)
      = row1 V c j (10000 * t.val + r.val) := by
  have hN : t.val < 10 := lt_of_lt_of_eq t.isLt (show cfg1.N = 10 from N_1)
  have h : 10000 * t.val + r.val < 100000 := by have := r.isLt; omega
  unfold row1
  rw [dif_pos h]
  exact congrArg₂ (· + ·) (iblk1_0_apply V c t r j h) (iblk1_1_apply V c t j)

/-! ## The accumulation, point by point -/

/-- A point's block sum is the sum of the next 10000 rows. -/
theorem sumBlk1 (c : Dev nD) (t : Fin cfg1.N) (j : Fin 128) :
    ∑ r : Fin 10000, (blkR1_0 V c t (ix2 r j) + blkR1_1 V c t (ix2 0 j))
      = ∑ r ∈ Finset.range 10000, row1 V c j (10000 * t.val + r) := by
  rw [Finset.sum_range]
  exact Finset.sum_congr rfl fun r _ => blk_rows1 V c t j r

/-- The same for the squares. -/
theorem sumBlkSq1 (c : Dev nD) (t : Fin cfg1.N) (j : Fin 128) :
    ∑ r : Fin 10000, (blkR1_0 V c t (ix2 r j) + blkR1_1 V c t (ix2 0 j))
        * (blkR1_0 V c t (ix2 r j) + blkR1_1 V c t (ix2 0 j))
      = ∑ r ∈ Finset.range 10000, row1 V c j (10000 * t.val + r) * row1 V c j (10000 * t.val + r) := by
  rw [Finset.sum_range]
  exact Finset.sum_congr rfl fun r _ => congrArg₂ (· * ·) (blk_rows1 V c t j r) (blk_rows1 V c t j r)

/-- Adding the next 10000 terms to the first `10000 (n + 1)`. -/
theorem step1 (f : ℕ → EReal) (n : ℕ) :
    ∑ i ∈ Finset.range (10000 * (n + 1)), f i + ∑ r ∈ Finset.range 10000, f (10000 * (n + 1) + r)
      = ∑ i ∈ Finset.range (10000 * (n + 1 + 1)), f i := by
  rw [show 10000 * (n + 1 + 1) = 10000 * (n + 1) + 10000 from by ring, Finset.sum_range_add]

/-- The first 10000 terms, from zero. -/
theorem base1 (f : ℕ → EReal) :
    (0 : EReal) + ∑ r ∈ Finset.range 10000, f (10000 * 0 + r) = ∑ i ∈ Finset.range (10000 * (0 + 1)), f i := by
  simp only [Nat.mul_zero, Nat.zero_add, Nat.mul_one, zero_add]

/-- THE ACCUMULATION: after point `n` the running sum at feature `j` is the sum of the first `10000 (n + 1)` rows of
    `out0 + b`, and the running sum of squares that of their squares — by induction on the point. -/
theorem acc1 (c : Dev nD) (j : Fin 128) : ∀ (n : ℕ) (hn : n < cfg1.N),
    ((outsAt1 V c n hn).2.2.1 : FVec Ideal S1x128 .f32) (ix2 0 j) = ∑ i ∈ Finset.range (10000 * (n + 1)), row1 V c j i
    ∧ ((outsAt1 V c n hn).2.2.2 : FVec Ideal S1x128 .f32) (ix2 0 j) = ∑ i ∈ Finset.range (10000 * (n + 1)), row1 V c j i * row1 V c j i
  | 0, hn => by
    rw [outsAt1_A V c ⟨0, hn⟩ (Nat.zero_mod _) (by show ¬0 % 10 = 9; decide)]
    dsimp only
    rw [soutA0, soutA1]
    refine ⟨?_, ?_⟩
    · refine (pay4I _ _ _ j).trans ?_
      refine (congrArg₂ (· + ·) (pay1I j) (sumBlk1 V c ⟨0, hn⟩ j)).trans ?_
      exact base1 (row1 V c j)
    · refine (pay5I _ _ _ j).trans ?_
      refine (congrArg₂ (· + ·) (pay2I j) (sumBlkSq1 V c ⟨0, hn⟩ j)).trans ?_
      exact base1 (fun i => row1 V c j i * row1 V c j i)
  | n + 1, hn => by
    have hN : n + 1 < 10 := lt_of_lt_of_eq hn (show cfg1.N = 10 from N_1)
    obtain ⟨ih0, ih1⟩ := acc1 c j n (Nat.lt_of_succ_lt hn)
    have h0 : ¬(⟨n + 1, hn⟩ : Fin cfg1.N).val % 10 = 0 := by dsimp only; omega
    by_cases h1 : (⟨n + 1, hn⟩ : Fin cfg1.N).val % 10 = 9
    · rw [outsAt1_C V c ⟨n + 1, hn⟩ h0 h1]
      dsimp only
      rw [soutC0, soutC1]
      refine ⟨?_, ?_⟩
      · refine (pay4I _ _ _ j).trans ?_
        refine (congrArg₂ (· + ·) ih0 (sumBlk1 V c ⟨n + 1, hn⟩ j)).trans ?_
        exact step1 (row1 V c j) n
      · refine (pay5I _ _ _ j).trans ?_
        refine (congrArg₂ (· + ·) ih1 (sumBlkSq1 V c ⟨n + 1, hn⟩ j)).trans ?_
        exact step1 (fun i => row1 V c j i * row1 V c j i) n
    · rw [outsAt1_B V c ⟨n + 1, hn⟩ h0 h1]
      dsimp only
      rw [soutB0, soutB1]
      refine ⟨?_, ?_⟩
      · refine (pay4I _ _ _ j).trans ?_
        refine (congrArg₂ (· + ·) ih0 (sumBlk1 V c ⟨n + 1, hn⟩ j)).trans ?_
        exact step1 (row1 V c j) n
      · refine (pay5I _ _ _ j).trans ?_
        refine (congrArg₂ (· + ·) ih1 (sumBlkSq1 V c ⟨n + 1, hn⟩ j)).trans ?_
        exact step1 (fun i => row1 V c j i * row1 V c j i) n

/-- At the last point each result window receives its accumulator's final contents. -/
theorem last1 (c : Dev nD) :
    (outsAt1 V c t1_9.val t1_9.isLt).1 = (outsAt1 V c t1_9.val t1_9.isLt).2.2.1
    ∧ (outsAt1 V c t1_9.val t1_9.isLt).2.1 = (outsAt1 V c t1_9.val t1_9.isLt).2.2.2 := by
  rw [outsAt1_C V c t1_9 (by decide) (by decide)]
  dsimp only
  rw [outC2, outC3, soutC0, soutC1]
  exact ⟨rfl, rfl⟩

/-! ## The result arrays -/

/-- What the first result array ends holding: the last point's contents of its window. -/
abbrev res1_2 (c : Dev nD) : Buf (Elt Ideal) ((c : Thread nD τ).loc main_v42_0) := (outsAt1 V c t1_9.val t1_9.isLt).1
/-- What the second result array ends holding. -/
abbrev res1_3 (c : Dev nD) : Buf (Elt Ideal) ((c : Thread nD τ).loc main_v42_1) := (outsAt1 V c t1_9.val t1_9.isLt).2.1

/-- The one write-back of result window 2, at the last point, writes `res1_2`: the window's one block is the array. -/
theorem flushed_eq1_2 (c : Dev nD) (t : Fin cfg1.N) (hf : (cfg1.win 2).flush t = true) :
    (dat1 V c).flushed 2 t = ((cfg1.win 2).blk t).view.read (Elt Ideal) (res1_2 V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2]
  have hz' : (fun a => win1_2.index t1_9 a * main_v42_0.ty.shape.size a) = fun _ => 0 := funext fun a => by fin_cases a <;> decide
  exact (Memref.read_access_unit_zero (Elt Ideal) main_v42_0 hz' (fun a => by rw [congrFun hz' a]; simp) (res1_2 V c)).symm

/-- So result array 2 ends holding `res1_2`: the last point's block covers it. -/
theorem final1_2 (c : Dev nD) : (dat1 V c).arrAt 2 cfg1.N = res1_2 V c :=
  (dat1 V c).arrAt_eq_of_cover 2 (res1_2 V c) (flushed_eq1_2 V c) fun i =>
    ⟨t1_9, (flush1_2 t1_9).mpr rfl, by
      show i ∈ ((View.whole main_v42_0).slice (win1_2.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 1 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 128 from by decide +kernel]; omega⟩

/-- The one write-back of result window 3, at the last point, writes `res1_3`: the window's one block is the array. -/
theorem flushed_eq1_3 (c : Dev nD) (t : Fin cfg1.N) (hf : (cfg1.win 3).flush t = true) :
    (dat1 V c).flushed 3 t = ((cfg1.win 3).blk t).view.read (Elt Ideal) (res1_3 V c) := by
  have hN : cfg1.N = 10 := N_1
  have h9 : t.val = 9 := by have := (flush1_3 t).mp hf; have := t.isLt; omega
  obtain rfl : t = t1_9 := Fin.ext h9
  show (cfg1.win 3).cut (grid1.coords t1_9) ((dat1 V c).after 3 t1_9) = _
  rw [after1_3]
  have hz' : (fun a => win1_3.index t1_9 a * main_v42_1.ty.shape.size a) = fun _ => 0 := funext fun a => by fin_cases a <;> decide
  exact (Memref.read_access_unit_zero (Elt Ideal) main_v42_1 hz' (fun a => by rw [congrFun hz' a]; simp) (res1_3 V c)).symm

/-- So result array 3 ends holding `res1_3`: the last point's block covers it. -/
theorem final1_3 (c : Dev nD) : (dat1 V c).arrAt 3 cfg1.N = res1_3 V c :=
  (dat1 V c).arrAt_eq_of_cover 3 (res1_3 V c) (flushed_eq1_3 V c) fun i =>
    ⟨t1_9, (flush1_3 t1_9).mpr rfl, by
      show i ∈ ((View.whole main_v42_1).slice (win1_3.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_3.index t1_9 0 * win1_3.size 0 ≤ (i 0 : Nat) ∧ (i 0 : Nat) < win1_3.index t1_9 0 * win1_3.size 0 + win1_3.xsize (grid1.coords t1_9) 0
                  rw [show win1_3.index t1_9 0 * win1_3.size 0 = 0 from by decide +kernel, show win1_3.xsize (grid1.coords t1_9) 0 = 1 from by decide +kernel]; omega
      | ⟨1, _⟩ => show win1_3.index t1_9 1 * win1_3.size 1 ≤ (i 1 : Nat) ∧ (i 1 : Nat) < win1_3.index t1_9 1 * win1_3.size 1 + win1_3.xsize (grid1.coords t1_9) 1
                  rw [show win1_3.index t1_9 1 * win1_3.size 1 = 0 from by decide +kernel, show win1_3.xsize (grid1.coords t1_9) 1 = 128 from by decide +kernel]; omega⟩

/-- All 100000 rows, as a sum over the row numbers. -/
theorem rows_all1 (c : Dev nD) (j : Fin 128) (g : EReal → EReal) :
    ∑ i ∈ Finset.range 100000, g (row1 V c j i)
      = ∑ i : Fin 100000, g (rowsR1 V c (ix2 i j) + biasR1 V c (ix2 0 j)) := by
  rw [Finset.sum_range]
  exact Finset.sum_congr rfl fun i _ => by unfold row1; rw [dif_pos i.isLt]

/-- THE SUMS: after the region the first result array holds, at feature `j`, the sum over all rows of `out0 + b`. -/
theorem arr1_2 (c : Dev nD) (j : Fin 128) :
    ((dat1 (F := Ideal) V c).arrAt 2 cfg1.N : S1x128.Idx → EReal) (ix2 0 j)
      = ∑ i : Fin 100000, (rowsR1 V c (ix2 i j) + biasR1 V c (ix2 0 j)) := by
  rw [final1_2 V c]
  show ((outsAt1 V c t1_9.val t1_9.isLt).1 : FVec Ideal S1x128 .f32) (ix2 0 j) = _
  rw [(last1 V c).1, (acc1 V c j t1_9.val t1_9.isLt).1]
  exact rows_all1 V c j (fun x => x)

/-- THE SUMS OF SQUARES: the second result array holds, at feature `j`, the sum over all rows of `(out0 + b)²`. -/
theorem arr1_3 (c : Dev nD) (j : Fin 128) :
    ((dat1 (F := Ideal) V c).arrAt 3 cfg1.N : S1x128.Idx → EReal) (ix2 0 j)
      = ∑ i : Fin 100000, (rowsR1 V c (ix2 i j) + biasR1 V c (ix2 0 j))
          * (rowsR1 V c (ix2 i j) + biasR1 V c (ix2 0 j)) := by
  rw [final1_3 V c]
  show ((outsAt1 V c t1_9.val t1_9.isLt).2.1 : FVec Ideal S1x128 .f32) (ix2 0 j) = _
  rw [(last1 V c).2, (acc1 V c j t1_9.val t1_9.isLt).2]
  exact rows_all1 V c j (fun x => x * x)

end AtIdeal

end Cert.KernelIdeal.HandV

end
-- ==== Proof.KIV.R2Value.lean ====
/- The value of the third region over the extended reals: after its twenty grid points the output array is, entry by
   entry, max(((h + b − mean) · rsqrt(var + ε) · scale + shift), 0) + x, where h and x are the two row-blocked arrays
   and b, mean, var, scale, shift are single rows broadcast down the rows — all as they stood on entry. -/
import proofs.«154948_j6682969112862_1_alg».proof.Proof.KI.R2
import Idealize.ShloMosaic.Lib.Pipeline.Value
import Idealize.ShloMosaic.Lib.ValueIdx
import Idealize.ShloMosaic.Lib.ValueLayout
import Idealize.ShloMosaic.PureOps.Ideal.Laws

set_option maxRecDepth 16384
set_option pp.maxSteps 5000
set_option pp.deepTerms false

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- What every buffer of the core holds when the region is entered, over the extended reals.
variable (V : (c : Dev nD) → (b : Ref sig .tc) → Buf (Elt Ideal) ((c : Thread nD τ).loc b))

/-! ## The result block at an index -/

/-- Entry (p, q) of the block the body stores, from the seven blocks it read; the single rows are read at column q. -/
theorem pay2_apply (v0 : Vec Ideal S5000x128 .f32) (v2 v6 v10 v17 v21 : Vec Ideal S1x128 .f32) (v27 : Vec Ideal S5000x128 .f32) (p : Fin 5000) (q : Fin 128) :
    k2_pay1 v0 v2 v6 v10 v17 v21 v27 (ix2 p q)
      = max (((v0 (ix2 p q) + v2 (ix2 (0 : Fin 1) q)) - v6 (ix2 (0 : Fin 1) q)) * Ideal.rsqrt (v10 (ix2 (0 : Fin 1) q) + Ideal.ofBits .f32 0x3727C5AC#32) * v17 (ix2 (0 : Fin 1) q) + v21 (ix2 (0 : Fin 1) q)) (Ideal.ofBits .f32 0x00000000#32) + v27 (ix2 p q) := by
  unfold k2_pay1
  simp only [shapeCast_self]
  simp only [addf_apply, subf_apply, mulf_apply, maximumf_apply, broadcast_apply, broadcastTo_1b_ab_apply]
  rfl

/-! ## The whole array -/

theorem hz2 : (![0, 0] : Fin 2 → Nat) = fun _ => 0 := funext fun a => by fin_cases a <;> rfl

/-- The index of a single row's entry above array index `i`: row 0, the column of `i`. -/
abbrev row0 (i : S100000x128.Idx) : S1x128.Idx := fun a => match a with
  | ⟨0, _⟩ => ⟨0, Nat.one_pos⟩
  | ⟨1, _⟩ => ⟨(i 1).val, (i 1).isLt⟩

/-- The region's result as one function of its seven input arrays (in window order: features h, residual x, bias b,
    mean, variance, scale, shift), entry by entry. -/
def G2 (h x : S100000x128.Idx → EReal) (b mean var scale shift : S1x128.Idx → EReal) : S100000x128.Idx → EReal :=
  fun i => max (((h i + b (row0 i)) - mean (row0 i)) * Ideal.rsqrt (var (row0 i) + Ideal.ofBits .f32 0x3727C5AC#32) * scale (row0 i) + shift (row0 i)) (Ideal.ofBits .f32 0x00000000#32) + x i

/-- The same formula with every array read at its own index, when those indices are the ones `G2` uses at `i`. -/
theorem G2_of_indices (h x : S100000x128.Idx → EReal) (b mean var scale shift : S1x128.Idx → EReal)
    (i i0 i1 : S100000x128.Idx) (j2 j3 j4 j5 j6 : S1x128.Idx)
    (e0 : i0 = i) (e1 : i1 = i) (e2 : j2 = row0 i) (e3 : j3 = row0 i) (e4 : j4 = row0 i) (e5 : j5 = row0 i) (e6 : j6 = row0 i) :
    max (((h i0 + b j2) - mean j3) * Ideal.rsqrt (var j4 + Ideal.ofBits .f32 0x3727C5AC#32) * scale j5 + shift j6) (Ideal.ofBits .f32 0x00000000#32) + x i1
      = G2 h x b mean var scale shift i := by
  subst e0 e1 e2 e3 e4 e5 e6; rfl

/-- The block indices of the eight windows at every grid point: the two row-blocked inputs move with the output down
    the rows; each single row stays at its one block. -/
theorem idx_facts2 : ∀ t : Fin cfg2.N, win2_0.index t (0 : Fin 2) = win2_7.index t (0 : Fin 2) ∧ win2_0.index t (1 : Fin 2) = 0
    ∧ win2_1.index t (0 : Fin 2) = win2_7.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) ≤ 19 ∧ win2_7.index t (1 : Fin 2) = 0 :=
  (by decide +kernel : ∀ t : Fin grid2.N, _)

/-- Every row block is some grid point's. -/
theorem idx_onto2 : ∀ q0 : Fin 20, ∃ t : Fin cfg2.N, win2_7.index t = ![q0.val, 0] :=
  (by decide +kernel : ∀ q0 : Fin 20, ∃ t : Fin grid2.N, win2_7.index t = ![q0.val, 0])

/-- What grid point `t` writes back is block `t` of `G2` of the arrays found on entry. -/
theorem flushed2_eq (c : Dev nD) (t : Fin cfg2.N) :
    (dat2 (F := Ideal) V c).flushed 7 t = ((cfg2.win 7).blk t).view.read (Elt Ideal)
      (G2 (V c main_v40) (V c main_arg0) (V c main_v49) (V c main_v44) (V c main_v48) (V c main_v50) (V c main_v51)) := by
  show (cfg2.win 7).cut (grid2.coords t) ((dat2 (F := Ideal) V c).after 7 t) = _
  rw [after2_7]
  unfold out2_7
  rw [View.canon_unit_zero hz2]
  simp only [View.ld_unit_zero (S := S5000x128) hz2, View.ld_unit_zero (S := S1x128) hz2]
  obtain ⟨a0, a1, b0, b1, c20, c21, c30, c31, c40, c41, c50, c51, c60, c61, o0, o1⟩ := idx_facts2 t
  funext y
  obtain ⟨p, q, rfl⟩ : ∃ (p : Fin 5000) (q : Fin 128), y = ix2 p q := ⟨y 0, y 1, eq_ix2 y⟩
  refine (pay2_apply (iblk2 V c 0 t) (iblk2 V c 2 t) (iblk2 V c 3 t) (iblk2 V c 4 t) (iblk2 V c 5 t) (iblk2 V c 6 t) (iblk2 V c 1 t) p q).trans ?_
  have h0 : ((cfg2.win 0).blk t).view.emb (ix2 p q) = ((cfg2.win 7).blk t).view.emb (ix2 p q) := by
    funext a; apply Fin.ext
    match a with
    | ⟨0, _⟩ => show win2_0.index t (0 : Fin 2) * 5000 + 1 * p.val = win2_7.index t (0 : Fin 2) * 5000 + 1 * p.val; omega
    | ⟨1, _⟩ => show win2_0.index t (1 : Fin 2) * 128 + 1 * q.val = win2_7.index t (1 : Fin 2) * 128 + 1 * q.val; omega
  have h1 : ((cfg2.win 1).blk t).view.emb (ix2 p q) = ((cfg2.win 7).blk t).view.emb (ix2 p q) := by
    funext a; apply Fin.ext
    match a with
    | ⟨0, _⟩ => show win2_1.index t (0 : Fin 2) * 5000 + 1 * p.val = win2_7.index t (0 : Fin 2) * 5000 + 1 * p.val; omega
    | ⟨1, _⟩ => show win2_1.index t (1 : Fin 2) * 128 + 1 * q.val = win2_7.index t (1 : Fin 2) * 128 + 1 * q.val; omega
  have h2 : ((cfg2.win 2).blk t).view.emb (ix2 (0 : Fin 1) q) = row0 (((cfg2.win 7).blk t).view.emb (ix2 p q)) := by
    funext a; apply Fin.ext
    match a with
    | ⟨0, _⟩ => show win2_2.index t (0 : Fin 2) * 1 + 1 * 0 = 0; omega
    | ⟨1, _⟩ => show win2_2.index t (1 : Fin 2) * 128 + 1 * q.val = win2_7.index t (1 : Fin 2) * 128 + 1 * q.val; omega
  have h3 : ((cfg2.win 3).blk t).view.emb (ix2 (0 : Fin 1) q) = row0 (((cfg2.win 7).blk t).view.emb (ix2 p q)) := by
    funext a; apply Fin.ext
    match a with
    | ⟨0, _⟩ => show win2_3.index t (0 : Fin 2) * 1 + 1 * 0 = 0; omega
    | ⟨1, _⟩ => show win2_3.index t (1 : Fin 2) * 128 + 1 * q.val = win2_7.index t (1 : Fin 2) * 128 + 1 * q.val; omega
  have h4 : ((cfg2.win 4).blk t).view.emb (ix2 (0 : Fin 1) q) = row0 (((cfg2.win 7).blk t).view.emb (ix2 p q)) := by
    funext a; apply Fin.ext
    match a with
    | ⟨0, _⟩ => show win2_4.index t (0 : Fin 2) * 1 + 1 * 0 = 0; omega
    | ⟨1, _⟩ => show win2_4.index t (1 : Fin 2) * 128 + 1 * q.val = win2_7.index t (1 : Fin 2) * 128 + 1 * q.val; omega
  have h5 : ((cfg2.win 5).blk t).view.emb (ix2 (0 : Fin 1) q) = row0 (((cfg2.win 7).blk t).view.emb (ix2 p q)) := by
    funext a; apply Fin.ext
    match a with
    | ⟨0, _⟩ => show win2_5.index t (0 : Fin 2) * 1 + 1 * 0 = 0; omega
    | ⟨1, _⟩ => show win2_5.index t (1 : Fin 2) * 128 + 1 * q.val = win2_7.index t (1 : Fin 2) * 128 + 1 * q.val; omega
  have h6 : ((cfg2.win 6).blk t).view.emb (ix2 (0 : Fin 1) q) = row0 (((cfg2.win 7).blk t).view.emb (ix2 p q)) := by
    funext a; apply Fin.ext
    match a with
    | ⟨0, _⟩ => show win2_6.index t (0 : Fin 2) * 1 + 1 * 0 = 0; omega
    | ⟨1, _⟩ => show win2_6.index t (1 : Fin 2) * 128 + 1 * q.val = win2_7.index t (1 : Fin 2) * 128 + 1 * q.val; omega
  exact G2_of_indices (V c main_v40) (V c main_arg0) (V c main_v49) (V c main_v44) (V c main_v48) (V c main_v50) (V c main_v51)
    (((cfg2.win 7).blk t).view.emb (ix2 p q)) (((cfg2.win 0).blk t).view.emb (ix2 p q)) (((cfg2.win 1).blk t).view.emb (ix2 p q))
    (((cfg2.win 2).blk t).view.emb (ix2 (0 : Fin 1) q)) (((cfg2.win 3).blk t).view.emb (ix2 (0 : Fin 1) q)) (((cfg2.win 4).blk t).view.emb (ix2 (0 : Fin 1) q))
    (((cfg2.win 5).blk t).view.emb (ix2 (0 : Fin 1) q)) (((cfg2.win 6).blk t).view.emb (ix2 (0 : Fin 1) q))
    h0 h1 h2 h3 h4 h5 h6

/-- An index of the output array lies in point `t`'s block exactly when each coordinate lies in the block's range. -/
theorem mem_blk2 (t : Fin cfg2.N) (i : S100000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v52).slice (win2_7.rect t)).set ↔ _
  rw [View.set_slice_whole, Rect.mem_set_unit]
  exact Iff.rfl

/-- The twenty row blocks tile the array: row r lies in block r / 5000. -/
theorem cover2 (i : S100000x128.Idx) : ∃ t : Fin cfg2.N, (cfg2.win 7).flush t = true ∧ i ∈ ((cfg2.win 7).blk t).view.set := by
  have hi0 : (i 0).val < 100000 := (i 0).isLt
  have hi1 : (i 1).val < 128 := (i 1).isLt
  obtain ⟨t, ht⟩ := idx_onto2 ⟨(i 0).val / 5000, by omega⟩
  have q0 : win2_7.index t (0 : Fin 2) = (i 0).val / 5000 := congrFun ht 0
  have q1 : win2_7.index t (1 : Fin 2) = 0 := congrFun ht 1
  refine ⟨t, flush2_7 t, ?_⟩
  rw [mem_blk2]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 128 ≤ (i 1).val ∧ (i 1).val < win2_7.index t (1 : Fin 2) * 128 + 128; omega

/-- After the region the output array is `G2` of the seven arrays found on entry. -/
theorem final2_7 (c : Dev nD) : (dat2 (F := Ideal) V c).arrAt 7 cfg2.N
      = G2 (V c main_v40) (V c main_arg0) (V c main_v49) (V c main_v44) (V c main_v48) (V c main_v50) (V c main_v51) :=
  (dat2 (F := Ideal) V c).arrAt_eq_of_cover 7 (G2 (V c main_v40) (V c main_arg0) (V c main_v49) (V c main_v44) (V c main_v48) (V c main_v50) (V c main_v51))
    (fun t _ => flushed2_eq V c t) cover2

/-- `G2` at entry (i, j): the single rows are read at (0, j). -/
theorem G2_ix2 (h x : S100000x128.Idx → EReal) (b mean var scale shift : S1x128.Idx → EReal) (i : Fin 100000) (j : Fin 128) :
    G2 h x b mean var scale shift (ix2 i j)
      = max (((h (ix2 i j) + b (ix2 (0 : Fin 1) j)) - mean (ix2 (0 : Fin 1) j)) * Ideal.rsqrt (var (ix2 (0 : Fin 1) j) + Ideal.ofBits .f32 0x3727C5AC#32) * scale (ix2 (0 : Fin 1) j) + shift (ix2 (0 : Fin 1) j)) (Ideal.ofBits .f32 0x00000000#32) + x (ix2 i j) := by
  have hr : row0 (ix2 i j) = ix2 (0 : Fin 1) j := funext fun a => by match a with | ⟨0, _⟩ => rfl | ⟨1, _⟩ => rfl
  unfold G2
  rw [hr]

/-- Entry (i, j) of the output array after the region. -/
theorem arr2_7 (c : Dev nD) (i : Fin 100000) (j : Fin 128) :
    (dat2 (F := Ideal) V c).arrAt 7 cfg2.N (ix2 i j)
      = G2 (V c main_v40) (V c main_arg0) (V c main_v49) (V c main_v44) (V c main_v48) (V c main_v50) (V c main_v51) (ix2 i j) := by
  rw [final2_7]

end Cert.KernelIdeal.HandV

end
-- ==== Proof.KIV.Bridge.lean ====
/- The idealized kernel's result array is the function `Cert.Spec.G` of its six argument arrays.

   The run leaves every buffer at the last of the contents `W0 … W5`; read backwards from the result:
   the third region's output is its normalising formula of the aggregated features, x, and the rows b, mean,
   variance, γ, β found on its entry; the second host stretch made mean and variance from the two per-feature sums and
   laid b, γ, β out as rows; the second region's two outputs are the sums over all nodes of y and of y², y being the
   aggregated features plus the bias row; the first host stretch made the aggregated features from the projected
   features by the graph aggregation; and the first region's output is the product x·W, which is the reference's
   projected features. No law of arithmetic is used here beyond reading each piece where it was written. -/
import proofs.«154948_j6682969112862_1_alg».proof.Proof.KI.Run
import proofs.«154948_j6682969112862_1_alg».proof.Proof.KIV.HostStretch
import proofs.«154948_j6682969112862_1_alg».proof.Proof.KIV.R0Value
import proofs.«154948_j6682969112862_1_alg».proof.Proof.KIV.R1Value
import proofs.«154948_j6682969112862_1_alg».proof.Proof.KIV.R2Value
import proofs.«154948_j6682969112862_1_alg».proof.Proof.Spec

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.ReferenceIdeal.Read (val_main_v0 val_main_v0_apply val_main_v40)

variable (m : (ℓ : Loc nD τ sig) → Buf (Elt Ideal) ℓ) (c : Dev nD)

/-- The six argument arrays at launch, at their function types. -/
abbrev a0 : S100000x128.Idx → EReal := m ((c.tc : Thread nD τ).loc main_arg0)
abbrev a1 : (⟨S2x600000, .i32⟩ : BufTy).Contents (Elt Ideal) := m ((c.tc : Thread nD τ).loc main_arg1)
abbrev a2 : S128x128.Idx → EReal := m ((c.tc : Thread nD τ).loc main_arg2)
abbrev a3 : S128.Idx → EReal := m ((c.tc : Thread nD τ).loc main_arg3)
abbrev a4 : S128.Idx → EReal := m ((c.tc : Thread nD τ).loc main_arg4)
abbrev a5 : S128.Idx → EReal := m ((c.tc : Thread nD τ).loc main_arg5)

/-! ## Arguments read where later segments find them -/

theorem W1_arg1 : W1 m c (Proc.devRef .tc main_arg1) = a1 m c := W1_of_ne m c main_arg1 (by decide)
theorem W1_arg3 : W1 m c (Proc.devRef .tc main_arg3) = a3 m c := W1_of_ne m c main_arg3 (by decide)
theorem W3_arg3 : W3 m c (Proc.devRef .tc main_arg3) = a3 m c :=
  (W3_of_ne m c main_arg3 (by decide)).trans ((StableHlo.after_of_writes_sub hostOps1 _ hostOps1_writes (by decide)).trans (W1_arg3 m c))
theorem W3_arg4 : W3 m c (Proc.devRef .tc main_arg4) = a4 m c :=
  (W3_of_ne m c main_arg4 (by decide)).trans ((StableHlo.after_of_writes_sub hostOps1 _ hostOps1_writes (by decide)).trans (W1_of_ne m c main_arg4 (by decide)))
theorem W3_arg5 : W3 m c (Proc.devRef .tc main_arg5) = a5 m c :=
  (W3_of_ne m c main_arg5 (by decide)).trans ((StableHlo.after_of_writes_sub hostOps1 _ hostOps1_writes (by decide)).trans (W1_of_ne m c main_arg5 (by decide)))
theorem W4_arg0 : W4 m c (Proc.devRef .tc main_arg0) = a0 m c :=
  (StableHlo.after_of_writes_sub hostOps2 _ hostOps2_writes (by decide)).trans ((W3_of_ne m c main_arg0 (by decide)).trans
    ((StableHlo.after_of_writes_sub hostOps1 _ hostOps1_writes (by decide)).trans
      ((W1_arr m c 0).trans (((dat0 (V0 m) c).arrAt_in 0 rfl _).trans (A_eq0 (V0 m) c 0)))))

/-! ## The projected features and their aggregation -/

/-- The first region leaves x·W: the reference's projected features. -/
theorem W1_v0 : W1 m c (Proc.devRef .tc main_v0) = val_main_v0 (F := Ideal) (a0 m c) (a2 m c) := by
  refine (W1_arr m c 2).trans ((final0_2 (V0 m) c).trans ?_)
  funext i
  rw [val_main_v0_apply]
  rfl

/-- The aggregated features after the first host stretch are the reference's. -/
theorem W2_v40 : W2 m c (Proc.devRef .tc main_v40) = val_main_v40 (F := Ideal) (a0 m c) (a1 m c) (a2 m c) := by
  refine (after1_v40 (W1 m c)).trans ?_
  rw [W1_v0, W1_arg1, Cert.Spec.agg_eq]

/-- The bias row the second region reads. -/
theorem W2_v41 (j : Fin 128) : (W2 m c (Proc.devRef .tc main_v41) : S1x128.Idx → EReal) (ix2 0 j) = a3 m c (ix1 j) := by
  refine (after1_v41 (W1 m c) j).trans ?_
  rw [W1_arg3]

/-- The aggregated features are still there for the third region. -/
theorem W4_v40 : W4 m c (Proc.devRef .tc main_v40) = val_main_v40 (F := Ideal) (a0 m c) (a1 m c) (a2 m c) :=
  (StableHlo.after_of_writes_sub hostOps2 _ hostOps2_writes (by decide)).trans
    ((W3_arr m c 0).trans (((dat1 (V2 m) c).arrAt_in 0 rfl _).trans ((A_eq1 (V2 m) c 0).trans (W2_v40 m c))))

/-! ## The two sums, the mean and the variance -/

/-- A row array read at feature `j`. -/
abbrev rdRow (f : S1x128.Idx → EReal) (j : Fin 128) : EReal := f (ix2 0 j)

theorem rows_eq : rowsR1 (V2 m) c = val_main_v40 (F := Ideal) (a0 m c) (a1 m c) (a2 m c) := W2_v40 m c
theorem bias_eq (j : Fin 128) : biasR1 (V2 m) c (ix2 0 j) = a3 m c (ix1 j) := W2_v41 m c j

theorem W3_sum (j : Fin 128) : rdRow (W3 m c (Proc.devRef .tc main_v42_0)) j
    = ∑ a : Fin 100000, Cert.Spec.Y (a0 m c) (a1 m c) (a2 m c) (a3 m c) a j := by
  have e : rdRow (W3 m c (Proc.devRef .tc main_v42_0)) j
      = rdRow ((dat1 (F := Ideal) (V2 m) c).arrAt 2 cfg1.N) j := congrFun (W3_arr m c 2) (ix2 0 j)
  rw [e]
  refine @Eq.trans EReal _ _ _ (arr1_2 (V2 m) c j) ?_
  refine Finset.sum_congr rfl fun a _ => ?_
  rw [rows_eq, bias_eq]; rfl

theorem W3_sumsq (j : Fin 128) : rdRow (W3 m c (Proc.devRef .tc main_v42_1)) j
    = ∑ a : Fin 100000, Cert.Spec.Y (a0 m c) (a1 m c) (a2 m c) (a3 m c) a j * Cert.Spec.Y (a0 m c) (a1 m c) (a2 m c) (a3 m c) a j := by
  have e : rdRow (W3 m c (Proc.devRef .tc main_v42_1)) j
      = rdRow ((dat1 (F := Ideal) (V2 m) c).arrAt 3 cfg1.N) j := congrFun (W3_arr m c 3) (ix2 0 j)
  rw [e]
  refine @Eq.trans EReal _ _ _ (arr1_3 (V2 m) c j) ?_
  refine Finset.sum_congr rfl fun a _ => ?_
  rw [rows_eq, bias_eq]; rfl

theorem W4_mean (j : Fin 128) : (W4 m c (Proc.devRef .tc main_v44) : S1x128.Idx → EReal) (ix2 0 j)
    = Cert.Spec.meanK (a0 m c) (a1 m c) (a2 m c) (a3 m c) j := by
  exact (after2_v44 (W3 m c) j).trans (congrArg (fun s : EReal => Ideal.div s Cert.Spec.cN) (W3_sum m c j))

theorem W4_var (j : Fin 128) : (W4 m c (Proc.devRef .tc main_v48) : S1x128.Idx → EReal) (ix2 0 j)
    = Cert.Spec.varK (a0 m c) (a1 m c) (a2 m c) (a3 m c) j := by
  exact (after2_v48 (W3 m c) j).trans
    (congrArg₂ (fun s1 s2 : EReal => Ideal.div s2 Cert.Spec.cN - Ideal.div s1 Cert.Spec.cN * Ideal.div s1 Cert.Spec.cN) (W3_sum m c j) (W3_sumsq m c j))

theorem W4_b (j : Fin 128) : (W4 m c (Proc.devRef .tc main_v49) : S1x128.Idx → EReal) (ix2 0 j) = a3 m c (ix1 j) := by
  refine (after2_v49 (W3 m c) j).trans ?_
  rw [W3_arg3]
theorem W4_gamma (j : Fin 128) : (W4 m c (Proc.devRef .tc main_v50) : S1x128.Idx → EReal) (ix2 0 j) = a4 m c (ix1 j) := by
  refine (after2_v50 (W3 m c) j).trans ?_
  rw [W3_arg4]
theorem W4_beta (j : Fin 128) : (W4 m c (Proc.devRef .tc main_v51) : S1x128.Idx → EReal) (ix2 0 j) = a5 m c (ix1 j) := by
  refine (after2_v51 (W3 m c) j).trans ?_
  rw [W3_arg5]

/-! ## The result -/

/-- THE KERNEL'S VALUE: entry (a, j) of the result array after the run. -/
theorem result_eq (a : Fin 100000) (j : Fin 128) :
    (W5 m c (Proc.devRef .tc main_v52) : S100000x128.Idx → EReal) (ix2 a j)
      = Cert.Spec.G (a0 m c) (a1 m c) (a2 m c) (a3 m c) (a4 m c) (a5 m c) a j := by
  have e : (W5 m c (Proc.devRef .tc main_v52) : S100000x128.Idx → EReal) (ix2 a j)
      = G2 (V4 m c main_v40) (V4 m c main_arg0) (V4 m c main_v49) (V4 m c main_v44) (V4 m c main_v48) (V4 m c main_v50) (V4 m c main_v51) (ix2 a j) :=
    (congrFun (W5_arr m c 7) (ix2 a j)).trans (arr2_7 (V4 m) c a j)
  have h40 : (V4 m c main_v40 : S100000x128.Idx → EReal) = val_main_v40 (F := Ideal) (a0 m c) (a1 m c) (a2 m c) := W4_v40 m c
  have hx : (V4 m c main_arg0 : S100000x128.Idx → EReal) = a0 m c := W4_arg0 m c
  have hb : (V4 m c main_v49 : S1x128.Idx → EReal) (ix2 0 j) = a3 m c (ix1 j) := W4_b m c j
  have hmean : (V4 m c main_v44 : S1x128.Idx → EReal) (ix2 0 j) = Cert.Spec.meanK (a0 m c) (a1 m c) (a2 m c) (a3 m c) j := W4_mean m c j
  have hvar : (V4 m c main_v48 : S1x128.Idx → EReal) (ix2 0 j) = Cert.Spec.varK (a0 m c) (a1 m c) (a2 m c) (a3 m c) j := W4_var m c j
  have hg : (V4 m c main_v50 : S1x128.Idx → EReal) (ix2 0 j) = a4 m c (ix1 j) := W4_gamma m c j
  have hbeta : (V4 m c main_v51 : S1x128.Idx → EReal) (ix2 0 j) = a5 m c (ix1 j) := W4_beta m c j
  rw [e, G2_ix2, h40, hx, hb, hmean, hvar, hg, hbeta]
  rfl

end Cert.KernelIdeal.HandV

end
-- ==== Proof.RefAlgebra.lean ====
/- The algebra both forms of the batch statistics share, over the extended reals.

   For real data y over a finite index set with N elements, the mean of the squared deviations from the mean
   equals the mean of the squares less the squared mean:
       (Σ_a (y_a − m)²)/N = (Σ_a y_a²)/N − m²,   m = (Σ_a y_a)/N.
   In the extended reals the identity is false at infinities (distributivity fails there), so it is stated for
   entries that are real numbers; every sum and quotient is then the image of a real one, and the identity is
   the one of the real field. Also the two binary words the programs divide by and start their sums from. -/
import Idealize.ShloMosaic.PureOps.Ideal

noncomputable section

namespace Cert.RefSide

open Idealize.ShloMosaic

/-- A finite sum of real numbers, read in the extended reals, is the real sum. -/
theorem coe_sum {ι : Type} (s : Finset ι) (f : ι → ℝ) : (∑ a ∈ s, (f a : EReal)) = ((∑ a ∈ s, f a : ℝ) : EReal) := by
  classical
  induction s using Finset.induction_on with
  | empty => simp
  | insert a s ha ih => rw [Finset.sum_insert ha, Finset.sum_insert ha, ih, EReal.coe_add]

/-- A finite sum of extended reals each of which is a real number is a real number. -/
theorem sum_real {ι : Type} (s : Finset ι) (f : ι → EReal) (hf : ∀ a ∈ s, ∃ r : ℝ, f a = (r : EReal)) :
    ∃ r : ℝ, (∑ a ∈ s, f a) = (r : EReal) := by
  classical
  induction s using Finset.induction_on with
  | empty => exact ⟨0, by simp⟩
  | insert a s ha ih =>
    obtain ⟨r, hr⟩ := hf a (Finset.mem_insert_self a s)
    obtain ⟨q, hq⟩ := ih (fun b hb => hf b (Finset.mem_insert_of_mem hb))
    exact ⟨r + q, by rw [Finset.sum_insert ha, hr, hq, EReal.coe_add]⟩

/-- The product of two real numbers is a real number. -/
theorem mul_real {x y : EReal} (hx : ∃ r : ℝ, x = (r : EReal)) (hy : ∃ r : ℝ, y = (r : EReal)) : ∃ r : ℝ, x * y = (r : EReal) := by
  obtain ⟨r, rfl⟩ := hx; obtain ⟨q, rfl⟩ := hy; exact ⟨r * q, (EReal.coe_mul r q)⟩

/-- The sum of two real numbers is a real number. -/
theorem add_real {x y : EReal} (hx : ∃ r : ℝ, x = (r : EReal)) (hy : ∃ r : ℝ, y = (r : EReal)) : ∃ r : ℝ, x + y = (r : EReal) := by
  obtain ⟨r, rfl⟩ := hx; obtain ⟨q, rfl⟩ := hy; exact ⟨r + q, (EReal.coe_add r q)⟩

/-- The variance identity: the mean of the squared deviations is the mean of the squares less the squared mean. -/
theorem var_identity {ι : Type} [Fintype ι] (y : ι → ℝ) (N : ℝ) (hN : N ≠ 0) (hcard : (Fintype.card ι : ℝ) = N) :
    Ideal.div (∑ a, ((y a : EReal) - Ideal.div (∑ a, (y a : EReal)) (N : EReal)) * ((y a : EReal) - Ideal.div (∑ a, (y a : EReal)) (N : EReal))) (N : EReal)
      = Ideal.div (∑ a, (y a : EReal) * (y a : EReal)) (N : EReal)
          - Ideal.div (∑ a, (y a : EReal)) (N : EReal) * Ideal.div (∑ a, (y a : EReal)) (N : EReal) := by
  -- the mean is the real number m = (Σ y)/N
  have hm : Ideal.div (∑ a, (y a : EReal)) (N : EReal) = (((∑ a, y a) * (1 / N) : ℝ) : EReal) := by
    rw [Ideal.div_coe hN, coe_sum, ← EReal.coe_mul]
  rw [hm]
  -- every summand is the image of a real one
  have hdev : ∀ a, ((y a : EReal) - (((∑ a, y a) * (1 / N) : ℝ) : EReal)) * ((y a : EReal) - (((∑ a, y a) * (1 / N) : ℝ) : EReal))
      = (((y a - (∑ a, y a) * (1 / N)) * (y a - (∑ a, y a) * (1 / N)) : ℝ) : EReal) := fun a => by
    rw [← EReal.coe_sub, ← EReal.coe_mul]
  have hsq : ∀ a, (y a : EReal) * (y a : EReal) = ((y a * y a : ℝ) : EReal) := fun a => (EReal.coe_mul _ _).symm
  simp only [hdev, hsq]
  rw [coe_sum, coe_sum, Ideal.div_coe hN, Ideal.div_coe hN, ← EReal.coe_mul, ← EReal.coe_mul, ← EReal.coe_mul, ← EReal.coe_sub]
  -- the identity in the real field: Σ (y − m)² = Σ y² − 2 m Σ y + N m²
  congr 1
  have hexp : ∀ a, (y a - (∑ a, y a) * (1 / N)) * (y a - (∑ a, y a) * (1 / N))
      = y a * y a - 2 * ((∑ a, y a) * (1 / N)) * y a + ((∑ a, y a) * (1 / N)) * ((∑ a, y a) * (1 / N)) := fun a => by ring
  simp only [hexp]
  rw [Finset.sum_add_distrib, Finset.sum_sub_distrib, ← Finset.mul_sum, Finset.sum_const, Finset.card_univ, nsmul_eq_mul, hcard]
  field_simp
  ring

/-- The word both programs divide the sums by denotes the real number 100000. -/
theorem ofBits_N : Ideal.ofBits .f32 0x47C35000#32 = ((100000 : ℝ) : EReal) := by
  simp [Ideal.ofBits, Ideal.ieee, -EReal.coe_mul]; norm_num

/-- The zero word denotes 0. -/
theorem ofBits_zero : Ideal.ofBits .f32 0x00000000#32 = 0 := by
  simp [Ideal.ofBits, Ideal.ieee]

/-- The word 1.0 denotes the real number 1. -/
theorem ofBits_one : Ideal.ofBits .f32 0x3F800000#32 = ((1 : ℝ) : EReal) := by
  simp [Ideal.ofBits, Ideal.ieee, -EReal.coe_mul]; norm_num

end Cert.RefSide

end
-- ==== Proof.RefDeg.lean ====
/- Every node's degree is a positive real number.

   The degree array is the scatter-addition, onto zeros, of one 1 per entry of the destination list, and the
   destination list is the 600000 given destinations followed by 0, 1, …, 99999 (one self-loop per node). Update
   number 600000 + i therefore reads the word i, which read as a signed number is i itself and lies inside the
   array, so it lands on node i whatever the given destinations are. The degree of node i is 0 plus the number of
   updates that land on i, a natural number that is at least 1. -/
import proofs.«154948_j6682969112862_1_alg».proof.Proof.Spec
import proofs.«154948_j6682969112862_1_alg».proof.Proof.RefAlgebra

noncomputable section

namespace Cert.RefSide

open Cert.ReferenceIdeal Cert.ReferenceIdeal.Read Cert.Spec Idealize.ShloMosaic Idealize.ShloMosaic.ValueIdx

/-- The degree scatter: update j lands on node i when the scatter index it reads, as a signed word, is i. -/
theorem deg_resultIdx (idx : IVec S700000x1 32) (j : Fin 700000) (i : Fin 100000)
    (h : (idx (ix2 j (0 : Fin 1))).toInt = (i.val : Int)) :
    scatter_S100000_S700000x1_S700000_n_0_0_1.resultIdx? (ix1 j) idx = some (ix1 i) := by
  have hs : ∀ a, scatter_S100000_S700000x1_S700000_n_0_0_1.start (ix1 j) idx a = (i.val : Int) := by
    intro a
    obtain rfl : a = 0 := Subsingleton.elim _ _
    unfold ScatterDims.start
    rw [dif_pos (show (0 : Fin 1) ∈ scatter_S100000_S700000x1_S700000_n_0_0_1.scatterDimsToOperandDims from List.mem_singleton.mpr rfl)]
    have hsi : scatter_S100000_S700000x1_S700000_n_0_0_1.siIdx (ix1 j) ⟨List.idxOf (0 : Fin 1) scatter_S100000_S700000x1_S700000_n_0_0_1.scatterDimsToOperandDims,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi, h]
  have hw : ∀ a, scatter_S100000_S700000x1_S700000_n_0_0_1.window (ix1 j) a = 0 := by
    intro a
    have hk : scatter_S100000_S700000x1_S700000_n_0_0_1.sKept = [] := by decide
    unfold ScatterDims.window
    rw [dif_neg (by rw [hk]; exact List.not_mem_nil)]
  have hcond : ∀ a, 0 ≤ scatter_S100000_S700000x1_S700000_n_0_0_1.start (ix1 j) idx a + (scatter_S100000_S700000x1_S700000_n_0_0_1.window (ix1 j) a : Int)
      ∧ scatter_S100000_S700000x1_S700000_n_0_0_1.start (ix1 j) idx a + (scatter_S100000_S700000x1_S700000_n_0_0_1.window (ix1 j) a : Int) < (S100000.size a : Int) := by
    intro a
    rw [hs a, hw a]
    obtain rfl : a = 0 := Subsingleton.elim _ _
    have := i.isLt
    show 0 ≤ (i.val : Int) + ((0 : Nat) : Int) ∧ (i.val : Int) + ((0 : Nat) : Int) < ((100000 : Nat) : Int)
    omega
  unfold ScatterDims.resultIdx?
  rw [dif_pos hcond]
  refine congrArg some (funext fun a => Fin.ext ?_)
  obtain rfl : a = 0 := Subsingleton.elim _ _
  show (scatter_S100000_S700000x1_S700000_n_0_0_1.start (ix1 j) idx 0 + (scatter_S100000_S700000x1_S700000_n_0_0_1.window (ix1 j) 0 : Int)).toNat = i.val
  rw [hs 0, hw 0]
  omega

/-- The destination list ends in the self-loops: entry 600000 + i is the word i. -/
theorem v7_self (x1 : (⟨S2x600000, .i32⟩ : BufTy).Contents (Elt Ideal)) (i : Fin 100000) :
    val_main_v7 (F := Ideal) x1 (ix1 (⟨600000 + i.val, by omega⟩ : Fin 700000)) = BitVec.ofNat 32 i.val := by
  unfold val_main_v7
  refine (concatenate_pair_apply_right (t := S700000) (s₁ := S600000) (s₂ := S100000) (0 : Fin 1) _ _ _ _ rfl rfl (ix1 i)
    (fun b hb => absurd (Subsingleton.elim _ _) hb) ?_).trans ?_
  · show i.val + 600000 = 600000 + i.val; omega
  · rfl

/-- A node number, as a 32-bit word read signed, is itself. -/
theorem toInt_ofNat_small (i : Fin 100000) : (BitVec.ofNat 32 i.val).toInt = (i.val : Int) := by
  have hi := i.isLt
  have hn : (BitVec.ofNat 32 i.val).toNat = i.val := by
    rw [BitVec.toNat_ofNat]; exact Nat.mod_eq_of_lt (by omega)
  rw [BitVec.toInt_eq_toNat_of_lt (by rw [hn]; omega), hn]

/-- At the extended reals the host's float scatter-addition is the operand plus the sum of the updates that land. -/
theorem scatterAdd_open {s si su : Shape} {w : Nat} {φ : FTy} (d : ScatterDims s si su) (x : FVec Ideal s φ) (idx : IVec si w)
    (upd : FVec Ideal su φ) : Host.scatterAdd (F := Ideal) d x idx upd = Ideal.hostScatterAdd d x idx upd := rfl

/-- A scatter-addition of ones onto a zero counts the updates that land; where at least one lands it is a positive real. -/
theorem hostScatterAdd_ones_pos {s si su : Shape} (d : ScatterDims s si su) {w : Nat} (x : s.Idx → EReal) (idx : IVec si w)
    (upd : su.Idx → EReal) (i : s.Idx) (hx : x i = 0) (hu : ∀ j, upd j = ((1 : ℝ) : EReal)) (j₀ : su.Idx)
    (hj : d.resultIdx? j₀ idx = some i) : ∃ r : ℝ, 0 < r ∧ Ideal.hostScatterAdd d x idx upd i = (r : EReal) := by
  unfold Ideal.hostScatterAdd
  rw [hx, zero_add]
  simp only [hu]
  rw [coe_sum]
  refine ⟨_, ?_, rfl⟩
  rw [Finset.sum_const, nsmul_eq_mul, mul_one]
  exact Nat.cast_pos.2 (Finset.card_pos.2 ⟨j₀, Finset.mem_filter.2 ⟨Finset.mem_univ _, hj⟩⟩)

variable (x1 : (⟨S2x600000, .i32⟩ : BufTy).Contents (Elt Ideal))

/-- Every node's degree is a positive real number: its self-loop lands on it. -/
theorem degree_pos (i : Fin 100000) : ∃ r : ℝ, 0 < r ∧ val_main_v11 (F := Ideal) x1 (ix1 i) = (r : EReal) := by
  unfold val_main_v11
  rw [scatterAdd_open]
  refine hostScatterAdd_ones_pos _ _ _ _ (ix1 i) ?_ ?_ (ix1 (⟨600000 + i.val, by omega⟩ : Fin 700000)) ?_
  · rw [val_main_v9_apply, val_main_cst_0_apply]; exact ofBits_zero
  · intro j; rw [val_main_v8_apply, val_main_cst_apply]; exact ofBits_one
  · refine deg_resultIdx _ _ i ?_
    rw [val_main_v10_apply]
    have e : idx_main_v10 (ix2 (⟨600000 + i.val, by omega⟩ : Fin 700000) (0 : Fin 1)) = ix1 (⟨600000 + i.val, by omega⟩ : Fin 700000) := by
      funext d; match d with | ⟨0, _⟩ => rfl
    rw [e, v7_self, toInt_ofNat_small]

end Cert.RefSide

end
-- ==== Proof.RefFinite.lean ====
/- Every entry of y = (aggregated features) + b is a real number.

   The input features x, the weight w and the bias b hold real numbers. The projected features h = x·w are finite
   sums of products of reals. A node's degree is a positive real (the self-loop lands on the node), so its inverse
   square root is real; a gather only re-reads elements, so the gathered rows of h and
   the gathered inverse square roots are real, and so are their products, the messages. A scatter-addition is the
   operand (here zeros) plus a finite sum of the updates that land, hence real; adding b keeps it real. -/
import proofs.«154948_j6682969112862_1_alg».proof.Proof.Spec
import proofs.«154948_j6682969112862_1_alg».proof.Proof.RefAlgebra
import proofs.«154948_j6682969112862_1_alg».proof.Proof.RefDeg

noncomputable section

namespace Cert.RefSide

open Cert.ReferenceIdeal Cert.ReferenceIdeal.Read Cert.Spec Idealize.ShloMosaic Idealize.ShloMosaic.ValueIdx

/-- At the extended reals the host's float scatter-addition is the exact one: the operand plus the sum of the updates that land. -/
theorem scatterAdd_eq {s si su : Shape} {w : Nat} {φ : FTy} (d : ScatterDims s si su) (x : FVec Ideal s φ) (idx : IVec si w)
    (upd : FVec Ideal su φ) : Host.scatterAdd (F := Ideal) d x idx upd = Ideal.hostScatterAdd d x idx upd := rfl

/-- A scatter-addition of real updates onto a real operand is real everywhere. -/
theorem hostScatterAdd_real {s si su : Shape} (d : ScatterDims s si su) {w : Nat} (x : s.Idx → EReal) (idx : IVec si w)
    (upd : su.Idx → EReal) (hx : Fin' x) (hu : Fin' upd) : Fin' (Ideal.hostScatterAdd d x idx upd) := fun i => by
  unfold Ideal.hostScatterAdd
  exact add_real (hx i) (sum_real _ _ (fun j _ => hu j))

/-- A gather only re-reads elements: of an all-real array it is all real. -/
theorem gather_real {s si t : Shape} (d : GatherDims s si t) {w : Nat} (x : s.Idx → EReal) (idx : IVec si w) (hx : Fin' x) :
    Fin' (Host.gather d x idx) := fun _ => hx _

variable (x0 : (⟨S100000x128, .f32⟩ : BufTy).Contents (Elt Ideal)) (x1 : (⟨S2x600000, .i32⟩ : BufTy).Contents (Elt Ideal))
  (x2 : (⟨S128x128, .f32⟩ : BufTy).Contents (Elt Ideal)) (x3 : (⟨S128, .f32⟩ : BufTy).Contents (Elt Ideal))

/-- The projected features h = x·w are real: finite sums of products of reals. -/
theorem v0_real (h0 : Fin' x0) (h2 : Fin' x2) : Fin' (val_main_v0 (F := Ideal) x0 x2) := fun i => by
  rw [val_main_v0_apply]
  exact sum_real _ _ (fun k _ => mul_real (h0 _) (h2 _))

/-- The inverse square root of a positive real degree is real. -/
theorem v12_real (hdeg : ∀ i : Fin 100000, ∃ r : ℝ, 0 < r ∧ val_main_v11 (F := Ideal) x1 (ix1 i) = (r : EReal)) :
    Fin' (val_main_v12 (F := Ideal) x1) := fun i => by
  obtain ⟨a, rfl⟩ : ∃ a : Fin 100000, i = ix1 a := ⟨i 0, eq_ix1 i⟩
  obtain ⟨r, hr, e⟩ := hdeg a
  rw [val_main_v12_apply, e, Ideal.hostUnary_rsqrt_def, Ideal.rsqrt_coe, if_neg (not_lt.2 hr.le), if_neg hr.ne']
  exact ⟨_, rfl⟩

/-- The edge weights, products of two gathered inverse square roots, are real. -/
theorem v27_real (hdeg : ∀ i : Fin 100000, ∃ r : ℝ, 0 < r ∧ val_main_v11 (F := Ideal) x1 (ix1 i) = (r : EReal)) :
    Fin' (val_main_v27 (F := Ideal) x1) := fun i => by
  rw [val_main_v27_apply]
  exact mul_real (gather_real _ _ _ (v12_real x1 hdeg) i) (gather_real _ _ _ (v12_real x1 hdeg) i)

/-- The messages, gathered rows of h scaled by the edge weights, are real. -/
theorem v37_real (h0 : Fin' x0) (h2 : Fin' x2)
    (hdeg : ∀ i : Fin 100000, ∃ r : ℝ, 0 < r ∧ val_main_v11 (F := Ideal) x1 (ix1 i) = (r : EReal)) :
    Fin' (val_main_v37 (F := Ideal) x0 x1 x2) := fun i => by
  rw [val_main_v37_apply, val_main_v36_apply, val_main_v35_apply]
  exact mul_real (gather_real _ _ _ (v0_real x0 x2 h0 h2) i) (v27_real x1 hdeg _)

/-- The aggregated features, a scatter-addition of the messages onto zeros, are real. -/
theorem v40_real (h0 : Fin' x0) (h2 : Fin' x2)
    (hdeg : ∀ i : Fin 100000, ∃ r : ℝ, 0 < r ∧ val_main_v11 (F := Ideal) x1 (ix1 i) = (r : EReal)) :
    Fin' (val_main_v40 (F := Ideal) x0 x1 x2) := by
  unfold val_main_v40
  rw [scatterAdd_eq]
  refine hostScatterAdd_real _ _ _ _ (fun i => ⟨0, ?_⟩) (v37_real x0 x1 x2 h0 h2 hdeg)
  rw [val_main_v38_apply, val_main_cst_6_apply, Ideal.ofBits_def, ofBits_zero, EReal.coe_zero]

/-- Every y_aj is a real number, given that every degree is a positive real. -/
theorem Y_real_of_deg (h0 : Fin' x0) (h2 : Fin' x2) (h3 : Fin' x3)
    (hdeg : ∀ i : Fin 100000, ∃ r : ℝ, 0 < r ∧ val_main_v11 (F := Ideal) x1 (ix1 i) = (r : EReal))
    (a : Fin 100000) (j : Fin 128) : ∃ r : ℝ, Y x0 x1 x2 x3 a j = (r : EReal) := by
  unfold Y
  exact add_real (v40_real x0 x1 x2 h0 h2 hdeg _) (h3 _)

/-- Every y_aj is a real number. -/
theorem Y_real (h0 : Fin' x0) (h2 : Fin' x2) (h3 : Fin' x3) (a : Fin 100000) (j : Fin 128) :
    ∃ r : ℝ, Y x0 x1 x2 x3 a j = (r : EReal) :=
  Y_real_of_deg x0 x1 x2 x3 h0 h2 h3 (degree_pos x1) a j

end Cert.RefSide

end
-- ==== Proof.RefValue.lean ====
/- The reference program computes G.

   Reading the reference's operations at one index (a, j), from the last one down to the aggregated features:
   the result is max(·, 0) + x of the normalised, scaled and shifted y_aj, where y = (aggregated features) + b,
   the mean is (0 + Σ_a y_aj)/N and the reference's variance is (0 + Σ_a (y_aj − mean_j)²)/N. When every y_aj is a
   real number the latter is (Σ_a y_aj²)/N − mean_j² (the variance identity), which is the form G is stated in. -/
import proofs.«154948_j6682969112862_1_alg».proof.Proof.Spec
import proofs.«154948_j6682969112862_1_alg».proof.Proof.RefAlgebra
import proofs.«154948_j6682969112862_1_alg».proof.Proof.RefFinite

noncomputable section

namespace Cert.RefSide

open Cert.ReferenceIdeal Cert.ReferenceIdeal.Read Cert.Spec Idealize.ShloMosaic Idealize.ShloMosaic.ValueIdx

variable (x0 : (⟨S100000x128, .f32⟩ : BufTy).Contents (Elt Ideal)) (x1 : (⟨S2x600000, .i32⟩ : BufTy).Contents (Elt Ideal))
  (x2 : (⟨S128x128, .f32⟩ : BufTy).Contents (Elt Ideal)) (x3 x4 x5 : (⟨S128, .f32⟩ : BufTy).Contents (Elt Ideal))

/-- The aggregated features plus the bias, read at (a, j): the bias is broadcast along the nodes. -/
theorem v43_eq (a : Fin 100000) (j : Fin 128) :
    val_main_v43 (F := Ideal) x0 x1 x2 x3 (ix2 a j) = Y x0 x1 x2 x3 a j := by
  rw [val_main_v43_apply, val_main_v42_apply, val_main_v41_apply]
  have e : idx_main_v41 (idx_main_v42 (ix2 a j)) = ix1 j := by
    funext d; match d with | ⟨0, _⟩ => rfl
  rw [e]; rfl

/-- The reference's mean at feature j: the sum starts from the zero word, which adds nothing. -/
theorem v46_eq (j : Fin 128) : val_main_v46 (F := Ideal) x0 x1 x2 x3 (ix1 j) = meanK x0 x1 x2 x3 j := by
  rw [val_main_v46_apply, val_main_v44_apply, val_main_v45_apply, val_main_cst_8_apply, val_main_cst_7_apply]
  simp only [Ideal.hostDivf_def, Ideal.ofBits_def, ofBits_zero, zero_add]
  unfold meanK cN
  have hs : ∀ k : Fin 100000, val_main_v43 (F := Ideal) x0 x1 x2 x3 (idx_main_v44 (ix1 j) k) = Y x0 x1 x2 x3 k j := fun k => by
    have e : idx_main_v44 (ix1 j) k = ix2 k j := by
      funext d; match d with | ⟨0, _⟩ => rfl | ⟨1, _⟩ => rfl
    rw [e, v43_eq]
  simp only [hs]

/-- The reference's variance at feature j, in the kernel's form, when every y_aj is a real number. -/
theorem v53_eq_of_real (hY : ∀ a j, ∃ r : ℝ, Y x0 x1 x2 x3 a j = (r : EReal)) (j : Fin 128) :
    val_main_v53 (F := Ideal) x0 x1 x2 x3 (ix1 j) = varK x0 x1 x2 x3 j := by
  rw [val_main_v53_apply, val_main_v51_apply, val_main_v52_apply, val_main_cst_10_apply, val_main_cst_9_apply]
  simp only [Ideal.hostDivf_def, Ideal.ofBits_def, ofBits_zero, zero_add]
  have hs : ∀ k : Fin 100000, val_main_v50 (F := Ideal) x0 x1 x2 x3 (idx_main_v51 (ix1 j) k)
      = (Y x0 x1 x2 x3 k j - meanK x0 x1 x2 x3 j) * (Y x0 x1 x2 x3 k j - meanK x0 x1 x2 x3 j) := fun k => by
    have e : idx_main_v51 (ix1 j) k = ix2 k j := by
      funext d; match d with | ⟨0, _⟩ => rfl | ⟨1, _⟩ => rfl
    rw [e, val_main_v50_apply, val_main_v49_apply, val_main_v48_apply, val_main_v47_apply, v43_eq]
    have e2 : idx_main_v47 (idx_main_v48 (ix2 k j)) = ix1 j := by
      funext d; match d with | ⟨0, _⟩ => rfl
    rw [e2, v46_eq]; rfl
  simp only [hs]
  choose y hy using (fun a => hY a j)
  unfold varK meanK cN
  simp only [hy]
  rw [ofBits_N]
  exact var_identity y 100000 (by norm_num) (by simp)

/-- THE REFERENCE IS G at every index, when every y_aj is a real number. -/
theorem ref_eq_G_of_real (hY : ∀ a j, ∃ r : ℝ, Y x0 x1 x2 x3 a j = (r : EReal)) (a : Fin 100000) (j : Fin 128) :
    val_main_v70 (F := Ideal) x0 x1 x2 x3 x4 x5 (ix2 a j) = G x0 x1 x2 x3 x4 x5 a j := by
  rw [val_main_v70_apply, val_main_v69_apply, val_main_call0_v0_apply, val_main_call0_cst_apply, val_main_v68_apply,
    val_main_v67_apply, val_main_v66_apply, val_main_v65_apply, val_main_v64_apply, val_main_v63_apply,
    val_main_v62_apply, val_main_v61_apply, val_main_v60_apply, val_main_v59_apply, val_main_v58_apply,
    val_main_v57_apply, val_main_cst_11_apply, val_main_v56_apply, val_main_v55_apply, val_main_v54_apply, v43_eq]
  have e66 : idx_main_v66 (idx_main_v67 (ix2 a j)) = ix1 j := by
    funext d; match d with | ⟨0, _⟩ => rfl
  have e63 : idx_main_v63 (idx_main_v64 (ix2 a j)) = ix1 j := by
    funext d; match d with | ⟨0, _⟩ => rfl
  have e60 : idx_main_v60 (idx_main_v61 (ix2 a j)) = ix1 j := by
    funext d; match d with | ⟨0, _⟩ => rfl
  have e54 : idx_main_v54 (idx_main_v55 (ix2 a j)) = ix1 j := by
    funext d; match d with | ⟨0, _⟩ => rfl
  rw [e66, e63, e60, e54, v46_eq, v53_eq_of_real x0 x1 x2 x3 hY]
  rfl

/-- THE REFERENCE IS G at every index, for real input features, weight and bias. -/
theorem ref_eq_G (h0 : Fin' x0) (h2 : Fin' x2) (h3 : Fin' x3) (a : Fin 100000) (j : Fin 128) :
    val_main_v70 (F := Ideal) x0 x1 x2 x3 x4 x5 (ix2 a j) = G x0 x1 x2 x3 x4 x5 a j :=
  ref_eq_G_of_real x0 x1 x2 x3 x4 x5 (fun a j => Y_real x0 x1 x2 x3 h0 h2 h3 a j) a j

end Cert.RefSide

end
-- ==== Proof.RefPre.lean ====
/- The launch precondition read entry by entry: it says that every entry of the node features, of the weight matrix
   and of the bias has absolute value below +∞, which over the extended reals means that the entry is a real number. -/
import proofs.«154948_j6682969112862_1_alg».proof.Proof.Spec
import proofs.«154948_j6682969112862_1_alg».proof.Pre_finite_inputs
import Idealize.ShloMosaic.Lib.ReduceAll
import Idealize.ShloMosaic.Lib.Affine
import Idealize.ShloMosaic.Lib.IdealHost
import Idealize.ShloMosaic.Lib.ValueIdx
import Idealize.ShloMosaic.PureOps.Ideal.Laws

set_option maxRecDepth 16384
set_option pp.maxSteps 5000
set_option pp.deepTerms false

noncomputable section

namespace Cert.RefSide

open Idealize.ShloMosaic Idealize.ShloMosaic.ValueIdx

/-- The rank-0 shape has exactly one index. -/
instance : Subsingleton Cert.Pre_finite_inputs.S_.Idx := ⟨fun a b => funext fun d => d.elim0⟩

/-- The word of +∞ reads as the top element. -/
theorem ofBits_inf_f32 : Ideal.ofBits .f32 0x7F800000#32 = (⊤ : EReal) := by
  simp [Ideal.ofBits, Ideal.ieee]

/-- An extended real whose absolute value compares below +∞ is a real number. -/
theorem real_of_abs_lt_inf (a : EReal) (h : Ideal.cmp .olt (max a (-a)) (Ideal.ofBits .f32 0x7F800000#32) = 1#1) :
    ∃ r : ℝ, a = (r : EReal) := by
  rw [ofBits_inf_f32] at h
  induction a using EReal.rec with
  | bot => exact absurd h (by simp [Ideal.cmp])
  | top => exact absurd h (by simp [Ideal.cmp])
  | coe r => exact ⟨r, rfl⟩

/-- If every entry of an array compares, in absolute value, below the broadcast word of +∞ — which is what the
    conjunction over all entries being true says — then every entry of the array is a real number. -/
theorem fin_of_all {S : Shape} {axes : List (Fin S.rank)} (x : FVec Ideal S .f32)
    (bc : Cert.Pre_finite_inputs.S_.BroadcastsInDim S (![] : Fin 0 → Fin S.rank)) (rt : S.ReducesTo axes Cert.Pre_finite_inputs.S_)
    (hu : 0 < Cert.Pre_finite_inputs.S_.numel)
    (e : Host.reduce IntOp.andi (cmpf .olt (Host.absf x) (broadcastInDim S ![] bc (constant (F := Ideal) Cert.Pre_finite_inputs.S_ .f32 0x7F800000#32)))
      (constantI Cert.Pre_finite_inputs.S_ 1 1#1) rt hu ix0 = 1#1) : Cert.Spec.Fin' x := by
  intro i
  have ei := Host.reduce_andi_all _ _ rt hu ix0 e i
  have hb : broadcastInDim S ![] bc (constant (F := Ideal) Cert.Pre_finite_inputs.S_ .f32 0x7F800000#32) i = Ideal.ofBits .f32 0x7F800000#32 := by
    rw [broadcastInDim_scalar_apply]; rfl
  exact real_of_abs_lt_inf (x i) (by rw [← hb]; exact ei)

/-- The precondition holding makes the node features, the weight matrix and the bias arrays of real numbers. -/
theorem fin_of_pre [Cert.Pre_finite_inputs.Facts] (x0 : (⟨Cert.Pre_finite_inputs.S100000x128, .f32⟩ : BufTy).Contents (Elt Ideal)) (x1 : (⟨Cert.Pre_finite_inputs.S2x600000, .i32⟩ : BufTy).Contents (Elt Ideal)) (x2 : (⟨Cert.Pre_finite_inputs.S128x128, .f32⟩ : BufTy).Contents (Elt Ideal)) (x3 x4 x5 : (⟨Cert.Pre_finite_inputs.S128, .f32⟩ : BufTy).Contents (Elt Ideal))
    (h : Cert.Pre_finite_inputs.fn (F := Ideal) x0 x1 x2 x3 x4 x5 = (fun _ => 1#1)) : Cert.Spec.Fin' x0 ∧ Cert.Spec.Fin' x2 ∧ Cert.Spec.Fin' x3 := by
  have h0 := congrFun h ix0
  dsimp only [Cert.Pre_finite_inputs.fn, Cert.Pre_finite_inputs.fn_part1] at h0
  have h1 : IntOp.andi (IntOp.andi (IntOp.andi (IntOp.andi _ _) _) _) _ = 1#1 := h0
  simp only [IntOp.andi_eq_one] at h1
  obtain ⟨⟨⟨⟨e0, e2⟩, e3⟩, -⟩, -⟩ := h1
  exact ⟨fin_of_all x0 _ _ _ e0, fin_of_all x2 _ _ _ e2, fin_of_all x3 _ _ _ e3⟩

end Cert.RefSide

end
-- ==== Proof.lean ====
/- The proof of `Cert.Claim`.

   The three frames: each kernel program is run as its five segments — three kernel regions with two stretches of
   host operations between them —, and no segment writes an argument array; the reference is a list of host
   operations. The ideal pass rewrote nothing, so the idealized kernel is the kernel's own text. The two idealized
   programs end with equal results: the kernel's result is the function `Cert.Spec.G` of the arguments, and so is the
   reference's once every aggregated feature is known to be a real number — the reference takes the variance as the
   mean squared deviation, the kernel as the mean of squares less the squared mean, and these agree on real numbers.
   That the aggregated features are real follows from the precondition: the inputs are finite, and every node's degree is
   at least one because of its self-loop. -/
import proofs.«154948_j6682969112862_1_alg».proof.Defs
import proofs.«154948_j6682969112862_1_alg».proof.Proof.Gen.Kernel
import proofs.«154948_j6682969112862_1_alg».proof.Proof.Gen.KernelIdeal
import proofs.«154948_j6682969112862_1_alg».proof.Proof.Gen.ReferenceIdeal
import proofs.«154948_j6682969112862_1_alg».proof.Proof.Gen.Pre_finite_inputs
import proofs.«154948_j6682969112862_1_alg».proof.Proof.K.Run
import proofs.«154948_j6682969112862_1_alg».proof.Proof.KI.Run
import proofs.«154948_j6682969112862_1_alg».proof.Proof.KIV.Bridge
import proofs.«154948_j6682969112862_1_alg».proof.Proof.RefImports
import proofs.«154948_j6682969112862_1_alg».proof.Proof.RefValue
import proofs.«154948_j6682969112862_1_alg».proof.Proof.RefPre
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The reference's result term, entry by entry, is `G` of its arguments, when the three arrays the law needs are real. -/
theorem ref_entry (m' : (ℓ : Loc Cert.ReferenceIdeal.nD Cert.ReferenceIdeal.τ Cert.ReferenceIdeal.sig) → Buf (Elt Ideal) ℓ) (c : Dev Cert.ReferenceIdeal.nD)
    (x0 : (⟨Cert.ReferenceIdeal.S100000x128, .f32⟩ : BufTy).Contents (Elt Ideal)) (x1 : (⟨Cert.ReferenceIdeal.S2x600000, .i32⟩ : BufTy).Contents (Elt Ideal))
    (x2 : (⟨Cert.ReferenceIdeal.S128x128, .f32⟩ : BufTy).Contents (Elt Ideal)) (x3 x4 x5 : (⟨Cert.ReferenceIdeal.S128, .f32⟩ : BufTy).Contents (Elt Ideal))
    (e0 : m' ((c.tc : Thread Cert.ReferenceIdeal.nD Cert.ReferenceIdeal.τ).loc Cert.ReferenceIdeal.main_arg0) = x0)
    (e1 : m' ((c.tc : Thread Cert.ReferenceIdeal.nD Cert.ReferenceIdeal.τ).loc Cert.ReferenceIdeal.main_arg1) = x1)
    (e2 : m' ((c.tc : Thread Cert.ReferenceIdeal.nD Cert.ReferenceIdeal.τ).loc Cert.ReferenceIdeal.main_arg2) = x2)
    (e3 : m' ((c.tc : Thread Cert.ReferenceIdeal.nD Cert.ReferenceIdeal.τ).loc Cert.ReferenceIdeal.main_arg3) = x3)
    (e4 : m' ((c.tc : Thread Cert.ReferenceIdeal.nD Cert.ReferenceIdeal.τ).loc Cert.ReferenceIdeal.main_arg4) = x4)
    (e5 : m' ((c.tc : Thread Cert.ReferenceIdeal.nD Cert.ReferenceIdeal.τ).loc Cert.ReferenceIdeal.main_arg5) = x5)
    (h0 : Cert.Spec.Fin' x0) (h2 : Cert.Spec.Fin' x2) (h3 : Cert.Spec.Fin' x3) (a : Fin 100000) (j : Fin 128) :
    (show Cert.ReferenceIdeal.S100000x128.Idx → EReal from Cert.ReferenceIdeal.Value.res_main_v70 (F := Ideal) m' c) (ix2 a j)
      = Cert.Spec.G x0 x1 x2 x3 x4 x5 a j := by
  rw [Cert.ReferenceIdeal.Read.val_main_v70_eq, e0, e1, e2, e3, e4, e5]
  exact Cert.RefSide.ref_eq_G x0 x1 x2 x3 x4 x5 h0 h2 h3 a j

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Hand.frame m ρ, fun m ρ _ => Cert.KernelIdeal.Hand.frame m ρ, ?_, trivial, ?_⟩
  · exact fun m ρ _ => (θ_run Cert.ReferenceIdeal.defs _ _).mono (fun _ h c => (h c).2) (Cert.ReferenceIdeal.Value.run (F := Ideal) m ρ)
  · intro m ρ m' ρ' hpre hagree
    refine ⟨fun c => Cert.KernelIdeal.Hand.W5 m c (Proc.devRef .tc Cert.KernelIdeal.main_v52), ?_, ?_⟩
    · refine (θ_run Cert.KernelIdeal.defs _ _).mono (fun r h c => ?_) (Cert.KernelIdeal.Hand.run_all m ρ)
      exact ⟨h c _ (Cert.KernelIdeal.Hand.mem_uc Cert.KernelIdeal.main_v52 (by decide)),
        (h c _ (Cert.KernelIdeal.Hand.mem_uc Cert.KernelIdeal.main_arg0 (by decide))).trans (Cert.KernelIdeal.Hand.W5_main_arg0 m c),
        (h c _ (Cert.KernelIdeal.Hand.mem_uc Cert.KernelIdeal.main_arg1 (by decide))).trans (Cert.KernelIdeal.Hand.W5_main_arg1 m c),
        (h c _ (Cert.KernelIdeal.Hand.mem_uc Cert.KernelIdeal.main_arg2 (by decide))).trans (Cert.KernelIdeal.Hand.W5_main_arg2 m c),
        (h c _ (Cert.KernelIdeal.Hand.mem_uc Cert.KernelIdeal.main_arg3 (by decide))).trans (Cert.KernelIdeal.Hand.W5_main_arg3 m c),
        (h c _ (Cert.KernelIdeal.Hand.mem_uc Cert.KernelIdeal.main_arg4 (by decide))).trans (Cert.KernelIdeal.Hand.W5_main_arg4 m c),
        (h c _ (Cert.KernelIdeal.Hand.mem_uc Cert.KernelIdeal.main_arg5 (by decide))).trans (Cert.KernelIdeal.Hand.W5_main_arg5 m c)⟩
    · refine (θ_run Cert.ReferenceIdeal.defs _ _).mono (fun r h c => ⟨(h c).1.trans ?_, (h c).2⟩) (Cert.ReferenceIdeal.Value.run (F := Ideal) m' ρ')
      obtain ⟨h0, h2, h3⟩ := Cert.RefSide.fin_of_pre _ _ _ _ _ _ (hpre c)
      funext i
      obtain ⟨a, j, rfl⟩ : ∃ (a : Fin 100000) (j : Fin 128), i = ix2 a j := ⟨i 0, i 1, eq_ix2 i⟩
      exact (ref_entry m' c _ _ _ _ _ _ (hagree c).1 (hagree c).2.1 (hagree c).2.2.1 (hagree c).2.2.2.1 (hagree c).2.2.2.2.1 (hagree c).2.2.2.2.2 h0 h2 h3 a j).trans
        (Cert.KernelIdeal.HandV.result_eq m c a j).symm⟩

end Cert.Proof

end
